-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_arg11 : FVec F S1024 .f32) (main_arg12 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S4096x1024 .f32) (main_arg8 : FVec F S1024 .f32) (main_arg9 : FVec F S1024 .f32) (main_arg10 : FVec F S1024 .f32) (main_arg11 : FVec F S1024 .f32) (main_arg12 : FVec F S1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S1024 .f32) (main_arg5 : FVec F S1024x4096 .f32) (main_arg6 : FVec F S4096 .f32) (main_arg7 : FVec F S4096x1024 .f32) (main_arg8 : FVec F S1024 .f32) (main_arg9 : FVec F S1024 .f32) (main_arg10 : FVec F S1024 .f32) (main_arg11 : FVec F S1024 .f32) (main_arg12 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x4096x1024 .f32) (main_arg1 : FVec F S1024x3072 .f32) (main_arg2 : FVec F S3072 .f32) (main_arg3 : FVec F S1024x1024 .f32) (main_arg4 : FVec F S1024 .f32) (main_arg5 : FVec F S1024x4096 .f32) (main_arg6 : FVec F S4096 .f32) (main_arg7 : FVec F S4096x1024 .f32) (main_arg8 : FVec F S1024 .f32) (main_arg9 : FVec F S1024 .f32) (main_arg10 : FVec F S1024 .f32) (main_arg11 : FVec F S1024 .f32) (main_arg12 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_v13 main_v16
-- ==== Kernel.lean ====
abbrev S4x4096x1024 : Shape := ⟨3, ![4, 4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S16384x1024 : Shape := ⟨2, ![16384, 1024]⟩
abbrev S_ : Shape := ⟨0, ![]⟩
abbrev S3072x1 : Shape := ⟨2, ![3072, 1]⟩
abbrev S1x3072 : Shape := ⟨2, ![1, 3072]⟩
abbrev S1x1024 : Shape := ⟨2, ![1, 1024]⟩
abbrev S1x4096 : Shape := ⟨2, ![1, 4096]⟩
abbrev S256x1024 : Shape := ⟨2, ![256, 1024]⟩
abbrev S256x3072 : Shape := ⟨2, ![256, 3072]⟩
abbrev S256x16x64 : Shape := ⟨3, ![256, 16, 64]⟩
abbrev S256x1x64 : Shape := ⟨3, ![256, 1, 64]⟩
abbrev S256x16 : Shape := ⟨2, ![256, 16]⟩
abbrev S256x1x16 : Shape := ⟨3, ![256, 1, 16]⟩
abbrev S256x16x16 : Shape := ⟨3, ![256, 16, 16]⟩
abbrev S256x16x1 : Shape := ⟨3, ![256, 16, 1]⟩
abbrev S256x64 : Shape := ⟨2, ![256, 64]⟩
abbrev S256 : Shape := ⟨1, ![256]⟩
abbrev S256x1 : Shape := ⟨2, ![256, 1]⟩
abbrev S256x4096 : Shape := ⟨2, ![256, 4096]⟩

abbrev nBuf : Space → Nat
  | .hbm => 43
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S3072, .i32⟩
  | .hbm, ⟨14, _⟩ => ⟨S3072, .i1⟩
  | .hbm, ⟨15, _⟩ => ⟨S3072, .i1⟩
  | .hbm, ⟨16, _⟩ => ⟨S16384x1024, .f32⟩
  | .hbm, ⟨17, _⟩ => ⟨S_, .i32⟩
  | .hbm, ⟨18, _⟩ => ⟨S3072, .i32⟩
  | .hbm, ⟨19, _⟩ => ⟨S3072, .i32⟩
  | .hbm, ⟨20, _⟩ => ⟨S3072, .i32⟩
  | .hbm, ⟨21, _⟩ => ⟨S3072x1, .i32⟩
  | .hbm, ⟨22, _⟩ => ⟨S1024x3072, .f32⟩
  | .hbm, ⟨23, _⟩ => ⟨S_, .i32⟩
  | .hbm, ⟨24, _⟩ => ⟨S3072, .i32⟩
  | .hbm, ⟨25, _⟩ => ⟨S3072, .i32⟩
  | .hbm, ⟨26, _⟩ => ⟨S3072, .i32⟩
  | .hbm, ⟨27, _⟩ => ⟨S3072x1, .i32⟩
  | .hbm, ⟨28, _⟩ => ⟨S3072, .f32⟩
  | .hbm, ⟨29, _⟩ => ⟨S1024x3072, .bf16⟩
  | .hbm, ⟨30, _⟩ => ⟨S1024x1024, .bf16⟩
  | .hbm, ⟨31, _⟩ => ⟨S1024x4096, .bf16⟩
  | .hbm, ⟨32, _⟩ => ⟨S4096x1024, .bf16⟩
  | .hbm, ⟨33, _⟩ => ⟨S1x3072, .f32⟩
  | .hbm, ⟨34, _⟩ => ⟨S1x1024, .f32⟩
  | .hbm, ⟨35, _⟩ => ⟨S1x4096, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S16384x1024, .f32⟩
  | .hbm, ⟨42, _⟩ => ⟨S4x4096x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S1x4096, .f32⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v0 : Ref sig .tc := ⟨.hbm, 16, rfl⟩
abbrev main_c_2 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_3 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S4x4096x1024_S16384x1024 : S4x4096x1024.ShapeCasts S16384x1024
  bcast_S_S3072 : S_.BroadcastsInDim S3072 (![] : Fin 0 → Fin S3072.rank)
  bcast_S3072_S3072x1_0 : S3072.BroadcastsInDim S3072x1 (![0] : Fin 1 → Fin S3072x1.rank)
  bitsLt_bf16_f32 : FTy.bits .bf16 < FTy.bits .f32
  shapeCasts_S3072_S1x3072 : S3072.ShapeCasts S1x3072
  shapeCasts_S1024_S1x1024 : S1024.ShapeCasts S1x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  shapeCasts_S256x1024_S256x16x64 : S256x1024.ShapeCasts S256x16x64
  slices_S256x3072_o0_1024_S256x1024 : S256x3072.Slices ![0, 1024] S256x1024
  slices_S256x3072_o0_2048_S256x1024 : S256x3072.Slices ![0, 2048] S256x1024
  slices_S256x16x64_o0_0_0_S256x1x64 : S256x16x64.Slices ![0, 0, 0] S256x1x64
  broadcasts_S256x1x64_S256x16x64 : S256x1x64.Broadcasts S256x16x64
  reduces_S256x16x64_S256x16 : S256x16x64.Reduces [2] S256x16
  slices_S256x16x64_o0_1_0_S256x1x64 : S256x16x64.Slices ![0, 1, 0] S256x1x64
  slices_S256x16x64_o0_2_0_S256x1x64 : S256x16x64.Slices ![0, 2, 0] S256x1x64
  slices_S256x16x64_o0_3_0_S256x1x64 : S256x16x64.Slices ![0, 3, 0] S256x1x64
  slices_S256x16x64_o0_4_0_S256x1x64 : S256x16x64.Slices ![0, 4, 0] S256x1x64
  slices_S256x16x64_o0_5_0_S256x1x64 : S256x16x64.Slices ![0, 5, 0] S256x1x64
  slices_S256x16x64_o0_6_0_S256x1x64 : S256x16x64.Slices ![0, 6, 0] S256x1x64
  slices_S256x16x64_o0_7_0_S256x1x64 : S256x16x64.Slices ![0, 7, 0] S256x1x64
  slices_S256x16x64_o0_8_0_S256x1x64 : S256x16x64.Slices ![0, 8, 0] S256x1x64
  slices_S256x16x64_o0_9_0_S256x1x64 : S256x16x64.Slices ![0, 9, 0] S256x1x64
  slices_S256x16x64_o0_10_0_S256x1x64 : S256x16x64.Slices ![0, 10, 0] S256x1x64
  slices_S256x16x64_o0_11_0_S256x1x64 : S256x16x64.Slices ![0, 11, 0] S256x1x64
  slices_S256x16x64_o0_12_0_S256x1x64 : S256x16x64.Slices ![0, 12, 0] S256x1x64
  slices_S256x16x64_o0_13_0_S256x1x64 : S256x16x64.Slices ![0, 13, 0] S256x1x64
  slices_S256x16x64_o0_14_0_S256x1x64 : S256x16x64.Slices ![0, 14, 0] S256x1x64
  slices_S256x16x64_o0_15_0_S256x1x64 : S256x16x64.Slices ![0, 15, 0] S256x1x64
  shapeCasts_S256x16_S256x1x16 : S256x16.ShapeCasts S256x1x16
  concatenates_S256x1x16_S256x1x16_S256x1x16_S256x1x16_S256x1x16_S256x1x16_S256x1x16_S256x1x16_S256x1x16_S256x1x16_S256x1x16_S256x1x16_S256x1x16_S256x1x16_S256x1x16_S256x1x16_S256x16x16_d1 : Shape.Concatenates [S256x1x16, S256x1x16, S256x1x16, S256x1x16, S256x1x16, S256x1x16, S256x1x16, S256x1x16, S256x1x16, S256x1x16, S256x1x16, S256x1x16, S256x1x16, S256x1x16, S256x1x16, S256x1x16] S256x16x16 1
  reduces_S256x16x16_S256x16 : S256x16x16.Reduces [2] S256x16
  shapeCasts_S256x16_S256x16x1 : S256x16.ShapeCasts S256x16x1
  broadcasts_S256x16x1_S256x16x16 : S256x16x1.Broadcasts S256x16x16
  slices_S256x16x16_o0_0_0_S256x1x16 : S256x16x16.Slices ![0, 0, 0] S256x1x16
  shapeCasts_S256x1x16_S256x16 : S256x1x16.ShapeCasts S256x16
  broadcasts_S256x16x1_S256x16x64 : S256x16x1.Broadcasts S256x16x64
  reduces_S256x16x64_S256x64 : S256x16x64.Reduces [1] S256x64
  slices_S256x16x16_o0_1_0_S256x1x16 : S256x16x16.Slices ![0, 1, 0] S256x1x16
  slices_S256x16x16_o0_2_0_S256x1x16 : S256x16x16.Slices ![0, 2, 0] S256x1x16
  slices_S256x16x16_o0_3_0_S256x1x16 : S256x16x16.Slices ![0, 3, 0] S256x1x16
  slices_S256x16x16_o0_4_0_S256x1x16 : S256x16x16.Slices ![0, 4, 0] S256x1x16
  slices_S256x16x16_o0_5_0_S256x1x16 : S256x16x16.Slices ![0, 5, 0] S256x1x16
  slices_S256x16x16_o0_6_0_S256x1x16 : S256x16x16.Slices ![0, 6, 0] S256x1x16
  slices_S256x16x16_o0_7_0_S256x1x16 : S256x16x16.Slices ![0, 7, 0] S256x1x16
  slices_S256x16x16_o0_8_0_S256x1x16 : S256x16x16.Slices ![0, 8, 0] S256x1x16
  slices_S256x16x16_o0_9_0_S256x1x16 : S256x16x16.Slices ![0, 9, 0] S256x1x16
  slices_S256x16x16_o0_10_0_S256x1x16 : S256x16x16.Slices ![0, 10, 0] S256x1x16
  slices_S256x16x16_o0_11_0_S256x1x16 : S256x16x16.Slices ![0, 11, 0] S256x1x16
  slices_S256x16x16_o0_12_0_S256x1x16 : S256x16x16.Slices ![0, 12, 0] S256x1x16
  slices_S256x16x16_o0_13_0_S256x1x16 : S256x16x16.Slices ![0, 13, 0] S256x1x16
  slices_S256x16x16_o0_14_0_S256x1x16 : S256x16x16.Slices ![0, 14, 0] S256x1x16
  slices_S256x16x16_o0_15_0_S256x1x16 : S256x16x16.Slices ![0, 15, 0] S256x1x16
  shapeCasts_S256x64_S256x1x64 : S256x64.ShapeCasts S256x1x64
  concatenates_S256x1x64_S256x1x64_S256x1x64_S256x1x64_S256x1x64_S256x1x64_S256x1x64_S256x1x64_S256x1x64_S256x1x64_S256x1x64_S256x1x64_S256x1x64_S256x1x64_S256x1x64_S256x1x64_S256x16x64_d1 : Shape.Concatenates [S256x1x64, S256x1x64, S256x1x64, S256x1x64, S256x1x64, S256x1x64, S256x1x64, S256x1x64, S256x1x64, S256x1x64, S256x1x64, S256x1x64, S256x1x64, S256x1x64, S256x1x64, S256x1x64] S256x16x64 1
  shapeCasts_S256x16x64_S256x1024 : S256x16x64.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S16384x1024_S4x4096x1024 : S16384x1024.ShapeCasts S4x4096x1024
  gather_S1024x3072_S3072x1_S1024x3072_0_1_n_n_1_1_10241_wf : GatherDims.WF S1024x3072 S3072x1 S1024x3072 [0] [1] [] [1] [] 1 ![1024, 1]
  gather_S3072_S3072x1_S3072_n_0_n_n_0_1_1_wf : GatherDims.WF S3072 S3072x1 S3072 [] [0] [] [0] [] 1 ![1]
  dot_S256x1024_S1024x3072_S256x3072_1_0_0_1_n_n_wf : DotDims.WF S256x1024 S1024x3072 S256x3072 [1] [0] [0] [1] [] []
  dot_S256x1024_S1024x1024_S256x1024_1_0_0_1_n_n_wf : DotDims.WF S256x1024 S1024x1024 S256x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x1024.size a ≤ S4096x1024.size a
  hwx0_7 : ∀ i : grid0.Coords, EltTy.bits .bf16 = 32 ∨ (Rect.block (s := S4096x1024) S4096x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S16384x1024.size a
  hwx0_13 : ∀ i : grid0.Coords, EltTy.bits .f32 = 32 ∨ (Rect.block (s := S16384x1024) S256x1024.size (cc0_transform_13 i) (hinb0_13 i)).WholeWords (EltTy.packing .f32)

variable [Facts₀]

def gather_S1024x3072_S3072x1_S1024x3072_0_1_n_n_1_1_10241 : GatherDims S1024x3072 S3072x1 S1024x3072 where
  offsetDims := [0]
  collapsedSliceDims := [1]
  operandBatchingDims := []
  startIndicesBatchingDims := []
  startIndexMap := [1]
  indexVectorDim := 1
  sliceSizes := ![1024, 1]
  wf := gather_S1024x3072_S3072x1_S1024x3072_0_1_n_n_1_1_10241_wf
def gather_S3072_S3072x1_S3072_n_0_n_n_0_1_1 : GatherDims S3072 S3072x1 S3072 where
  offsetDims := []
  collapsedSliceDims := [0]
  operandBatchingDims := []
  startIndicesBatchingDims := []
  startIndexMap := [0]
  indexVectorDim := 1
  sliceSizes := ![1]
  wf := gather_S3072_S3072x1_S3072_n_0_n_n_0_1_1_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S4096x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x3072 : Shape := ⟨2, ![1024, 3072]⟩
abbrev S3072 : Shape := ⟨1, ![3072]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S4x4096x3072 : Shape := ⟨3, ![4, 4096, 3072]⟩
abbrev S1x1x3072 : Shape := ⟨3, ![1, 1, 3072]⟩
abbrev S4x4096x16x192 : Shape := ⟨4, ![4, 4096, 16, 192]⟩
abbrev S4x4096x16x64 : Shape := ⟨4, ![4, 4096, 16, 64]⟩
abbrev S4x4096x16x16 : Shape := ⟨4, ![4, 4096, 16, 16]⟩
abbrev S_ : Shape := ⟨0, ![]⟩
abbrev S4x4096x16 : Shape := ⟨3, ![4, 4096, 16]⟩
abbrev S4x4096x16x1 : Shape := ⟨4, ![4, 4096, 16, 1]⟩
abbrev S1x1x1024 : Shape := ⟨3, ![1, 1, 1024]⟩
abbrev S4x4096 : Shape := ⟨2, ![4, 4096]⟩
abbrev S4x4096x1 : Shape := ⟨3, ![4, 4096, 1]⟩
abbrev S4x4096x4096 : Shape := ⟨3, ![4, 4096, 4096]⟩
abbrev S1x1x4096 : Shape := ⟨3, ![1, 1, 4096]⟩

abbrev nBuf : Space → Nat
  | .hbm => 116
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x3072, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096, .f32⟩
  | .hbm, ⟨7, _⟩ => ⟨S4096x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S4x4096x3072, .f32⟩
  | .hbm, ⟨14, _⟩ => ⟨S1x1x3072, .f32⟩
  | .hbm, ⟨15, _⟩ => ⟨S4x4096x3072, .f32⟩
  | .hbm, ⟨16, _⟩ => ⟨S4x4096x3072, .f32⟩
  | .hbm, ⟨17, _⟩ => ⟨S4x4096x16x192, .f32⟩
  | .hbm, ⟨18, _⟩ => ⟨S4x4096x16x64, .f32⟩
  | .hbm, ⟨19, _⟩ => ⟨S4x4096x16x64, .f32⟩
  | .hbm, ⟨20, _⟩ => ⟨S4x4096x16x64, .f32⟩
  | .hbm, ⟨21, _⟩ => ⟨S4x4096x16x16, .f32⟩
  | .hbm, ⟨22, _⟩ => ⟨S_, .f32⟩
  | .hbm, ⟨23, _⟩ => ⟨S4x4096x16x16, .f32⟩
  | .hbm, ⟨24, _⟩ => ⟨S4x4096x16x16, .f32⟩
  | .hbm, ⟨25, _⟩ => ⟨S_, .f32⟩
  | .hbm, ⟨26, _⟩ => ⟨S4x4096x16, .f32⟩
  | .hbm, ⟨27, _⟩ => ⟨S_, .f32⟩
  | .hbm, ⟨28, _⟩ => ⟨S4x4096x16, .f32⟩
  | .hbm, ⟨29, _⟩ => ⟨S4x4096x16, .f32⟩
  | .hbm, ⟨30, _⟩ => ⟨S4x4096x16x1, .f32⟩
  | .hbm, ⟨31, _⟩ => ⟨S4x4096x16x16, .f32⟩
  | .hbm, ⟨32, _⟩ => ⟨S4x4096x16x16, .f32⟩
  | .hbm, ⟨33, _⟩ => ⟨S4x4096x16x16, .f32⟩
  | .hbm, ⟨34, _⟩ => ⟨S_, .f32⟩
  | .hbm, ⟨35, _⟩ => ⟨S4x4096x16, .f32⟩
  | .hbm, ⟨36, _⟩ => ⟨S4x4096x16x1, .f32⟩
  | .hbm, ⟨37, _⟩ => ⟨S4x4096x16x16, .f32⟩
  | .hbm, ⟨38, _⟩ => ⟨S4x4096x16x16, .f32⟩
  | .hbm, ⟨39, _⟩ => ⟨S4x4096x16x64, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1, .f32⟩
  | .hbm, ⟨67, _⟩ => ⟨S4x4096x1024, .f32⟩
  | .hbm, ⟨68, _⟩ => ⟨S4x4096x1024, .f32⟩
  | .hbm, ⟨69, _⟩ => ⟨S1x1x1024, .f32⟩
  | .hbm, ⟨70, _⟩ => ⟨S4x4096x1024, .f32⟩
  | .hbm, ⟨71, _⟩ => ⟨S4x4096x1024, .f32⟩
  | .hbm, ⟨72, _⟩ => ⟨S1x1x1024, .f32⟩
  | .hbm, ⟨73, _⟩ => ⟨S4x4096x1024, .f32⟩
  | .hbm, ⟨74, _⟩ => ⟨S4x4096x1024, .f32⟩
  | .hbm, ⟨75, _⟩ => ⟨S4x4096x4096, .f32⟩
  | .hbm, ⟨76, _⟩ => ⟨S1x1x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S4x4096x1024, .f32⟩
  | .hbm, ⟨83, _⟩ => ⟨S1x1x1024, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S_, .f32⟩
  | .hbm, ⟨91, _⟩ => ⟨S4x4096x1, .f32⟩
  | .hbm, ⟨92, _⟩ => ⟨S4x4096x1, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | .hbm, ⟨96, _⟩ => ⟨S_, .f32⟩
  | .hbm, ⟨97, _⟩ => ⟨S4x4096, .f32⟩
  | .hbm, ⟨98, _⟩ => ⟨S4x4096x1, .f32⟩
  | .hbm, ⟨99, _⟩ => ⟨S_, .f32⟩
  | .hbm, ⟨100, _⟩ => ⟨S4x4096x1, .f32⟩
  | .hbm, ⟨101, _⟩ => ⟨S4x4096x1, .f32⟩
  | .hbm, ⟨102, _⟩ => ⟨S4x4096x1024, .f32⟩
  | .hbm, ⟨103, _⟩ => ⟨S4x4096x1024, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S4x4096x1, .f32⟩
  | .hbm, ⟨108, _⟩ => ⟨S4x4096x1024, .f32⟩
  | .hbm, ⟨109, _⟩ => ⟨S4x4096x1024, .f32⟩
  | .hbm, ⟨110, _⟩ => ⟨S1x1x1024, .f32⟩
  | .hbm, ⟨111, _⟩ => ⟨S4x4096x1024, .f32⟩
  | .hbm, ⟨112, _⟩ => ⟨S4x4096x1024, .f32⟩
  | .hbm, ⟨113, _⟩ => ⟨S1x1x1024, .f32⟩
  | .hbm, ⟨114, _⟩ => ⟨S4x4096x1024, .f32⟩
  | .hbm, ⟨115, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_12 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  shapeCasts_S4x4096x3072_S4x4096x16x192 : S4x4096x3072.ShapeCasts S4x4096x16x192
  slices_S4x4096x16x192_S4x4096x16x64_0_0_0_0 : S4x4096x16x192.Slices ![0, 0, 0, 0] S4x4096x16x64
  slices_S4x4096x16x192_S4x4096x16x64_0_0_0_64 : S4x4096x16x192.Slices ![0, 0, 0, 64] S4x4096x16x64
  slices_S4x4096x16x192_S4x4096x16x64_0_0_0_128 : S4x4096x16x192.Slices ![0, 0, 0, 128] S4x4096x16x64
  bcast_S_S4x4096x16x16 : S_.BroadcastsInDim S4x4096x16x16 (![] : Fin 0 → Fin S4x4096x16x16.rank)
  reducesTo_S4x4096x16x16_S4x4096x16_d3 : S4x4096x16x16.ReducesTo [3] S4x4096x16
  h_S_ : 0 < S_.numel
  bcast_S_S4x4096x16 : S_.BroadcastsInDim S4x4096x16 (![] : Fin 0 → Fin S4x4096x16.rank)
  bcast_S4x4096x16_S4x4096x16x1_0_1_2 : S4x4096x16.BroadcastsInDim S4x4096x16x1 (![0, 1, 2] : Fin 3 → Fin S4x4096x16x1.rank)
  bcast_S4x4096x16x1_S4x4096x16x16_0_1_2_3 : S4x4096x16x1.BroadcastsInDim S4x4096x16x16 (![0, 1, 2, 3] : Fin 4 → Fin S4x4096x16x16.rank)
  shapeCasts_S4x4096x16x64_S4x4096x1024 : S4x4096x16x64.ShapeCasts S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  reducesTo_S4x4096x1024_S4x4096_d2 : S4x4096x1024.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x1024_S1024x3072_S4x4096x3072_2_0_01_1_n_n_wf : DotDims.WF S4x4096x1024 S1024x3072 S4x4096x3072 [2] [0] [0, 1] [1] [] []
  dot_S4x4096x16x64_S4x4096x16x64_S4x4096x16x16_3_3_2_2_01_01_wf : DotDims.WF S4x4096x16x64 S4x4096x16x64 S4x4096x16x16 [3] [3] [2] [2] [0, 1] [0, 1]
  dot_S4x4096x16x16_S4x4096x16x64_S4x4096x16x64_3_2_2_3_01_01_wf : DotDims.WF S4x4096x16x16 S4x4096x16x64 S4x4096x16x64 [3] [2] [2] [3] [0, 1] [0, 1]
  dot_S4x4096x1024_S1024x1024_S4x4096x1024_2_0_01_1_n_n_wf : DotDims.WF S4x4096x1024 S1024x1024 S4x4096x1024 [2] [0] [0, 1] [1] [] []
  dot_S4x4096x1024_S1024x4096_S4x4096x4096_2_0_01_1_n_n_wf : DotDims.WF S4x4096x1024 S1024x4096 S4x4096x4096 [2] [0] [0, 1] [1] [] []
  dot_S4x4096x4096_S4096x1024_S4x4096x1024_2_0_01_1_n_n_wf : DotDims.WF S4x4096x4096 S4096x1024 S4x4096x1024 [2] [0] [0, 1] [1] [] []

variable [Facts₀]

def dot_S4x4096x1024_S1024x3072_S4x4096x3072_2_0_01_1_n_n : DotDims S4x4096x1024 S1024x3072 S4x4096x3072 where
  lhsContracting := [2]
  rhsContracting := [0]
  lhsNonContracting := [0, 1]
  rhsNonContracting := [1]
  lhsBatch := []
  rhsBatch := []
  wf := dot_S4x4096x1024_S1024x3072_S4x4096x3072_2_0_01_1_n_n_wf
def dot_S4x4096x16x64_S4x4096x16x64_S4x4096x16x16_3_3_2_2_01_01 : DotDims S4x4096x16x64 S4x4096x16x64 S4x4096x16x16 where
  lhsContracting := [3]
  rhsContracting := [3]
  lhsNonContracting := [2]
  rhsNonContracting := [2]
  lhsBatch := [0, 1]
  rhsBatch := [0, 1]
  wf := dot_S4x4096x16x64_S4x4096x16x64_S4x4096x16x16_3_3_2_2_01_01_wf
def dot_S4x4096x16x16_S4x4096x16x64_S4x4096x16x64_3_2_2_3_01_01 : DotDims S4x4096x16x16 S4x4096x16x64 S4x4096x16x64 where
  lhsContracting := [3]
  rhsContracting := [2]
  lhsNonContracting := [2]
  rhsNonContracting := [3]
  lhsBatch := [0, 1]
  rhsBatch := [0, 1]
  wf := dot_S4x4096x16x16_S4x4096x16x64_S4x4096x16x64_3_2_2_3_01_01_wf
def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S1024x4096_S4x4096x4096_2_0_01_1_n_n : DotDims S4x4096x1024 S1024x4096 S4x4096x4096 where
  lhsContracting := [2]
  rhsContracting := [0]
  lhsNonContracting := [0, 1]
  rhsNonContracting := [1]
  lhsBatch := []
  rhsBatch := []
  wf := dot_S4x4096x1024_S1024x4096_S4x4096x4096_2_0_01_1_n_n_wf
def dot_S4x4096x4096_S4096x1024_S4x4096x1024_2_0_01_1_n_n : DotDims S4x4096x4096 S4096x1024 S4x4096x1024 where
  lhsContracting := [2]
  rhsContracting := [0]
  lhsNonContracting := [0, 1]
  rhsNonContracting := [1]
  lhsBatch := []
  rhsBatch := []
  wf := dot_S4x4096x4096_S4096x1024_S4x4096x1024_2_0_01_1_n_n_wf

class Facts : Prop extends Facts₀ where

variable [Facts]
-- ==== Proof.Spec.lean ====
/-
  One token of a transformer encoder layer, as a function on the extended reals.

  A token is a row `x : Fin 1024 → EReal`. From its three projections q, k, v (each 16 heads of 64 channels)
  the layer takes, per query head `h`, the scores against every key head `g` — the dot product over the 64
  channels divided by 8 —, their softmax over `g` (exponentials of the scores less the row's maximum, over
  their sum), and the softmax-weighted sum of the value heads: attention across the HEAD axis of one token.
  The 1024 context entries go through an affine map, are added to the token, and the sum is normalised
  (mean and variance over the 1024 entries, a fixed epsilon, scale and shift). A two-layer feed-forward
  net with a rectifier follows, added to its own input and normalised again.

  Every float literal stays the word the programs spell; only `8` and `1/8` are evaluated, for the one law
  this certificate needs: a product with `1/8` is the quotient by `8` on every extended real.
-/
import Idealize.ShloMosaic.Lib.ValueIdx
import Idealize.ShloMosaic.PureOps.Ideal
import Idealize.ShloMosaic.PureOps.Ideal.Laws

noncomputable section

namespace Cert.Enc

open Idealize.ShloMosaic
open scoped BigOperators

/-- `-∞`, the value every row maximum starts from. -/
abbrev wNegInf : EReal := Ideal.ofBits .f32 0xFF800000#32
/-- `+0.0`, the rectifier's floor. -/
abbrev wZero : EReal := Ideal.ofBits .f32 0x00000000#32
/-- `8.0`, the square root of the 64 channels of a head. -/
abbrev wEight : EReal := Ideal.ofBits .f32 0x41000000#32
/-- `0.125`. -/
abbrev wEighth : EReal := Ideal.ofBits .f32 0x3E000000#32
/-- `1024.0`, the number of entries a mean is taken over. -/
abbrev wN : EReal := Ideal.ofBits .f32 0x44800000#32
/-- The normalisation's epsilon, the single-precision number nearest `1e-5`. -/
abbrev wEps : EReal := Ideal.ofBits .f32 0x3727C5AC#32

theorem wEight_eq : wEight = ((8 : ℝ) : EReal) := by
  simp [wEight, Ideal.ofBits, Ideal.ieee, -EReal.coe_mul]; norm_num

theorem wEighth_eq : wEighth = ((1 / 8 : ℝ) : EReal) := by
  simp [wEighth, Ideal.ofBits, Ideal.ieee, -EReal.coe_mul]; norm_num

/-- THE LAW: scaling by the eighth is dividing by eight, at every extended real (the infinities included). -/
theorem mul_eighth (s : EReal) : s * wEighth = Ideal.div s wEight := by
  rw [wEight_eq, wEighth_eq, Ideal.div_coe (by norm_num : (8 : ℝ) ≠ 0)]

/-- An affine map of a row: entry `e` is `∑ k, x k · W k e`, plus the bias. -/
def lin {n p : Nat} (x : Fin n → EReal) (W : Fin n → Fin p → EReal) (b : Fin p → EReal) (e : Fin p) : EReal :=
  (∑ k : Fin n, x k * W k e) + b e

/-- The score of query head `h` against key head `g`. -/
def score (q k : Fin 16 → Fin 64 → EReal) (h g : Fin 16) : EReal :=
  Ideal.div (∑ d : Fin 64, q h d * k g d) wEight

/-- A row's maximum, started from `-∞` and guarded against `-∞` once more. -/
def rowMax (s : Fin 16 → EReal) : EReal :=
  max wNegInf ((Finset.univ : Finset (Fin 16)).fold max wNegInf s)

/-- The shifted exponentials of a row. -/
def expRow (s : Fin 16 → EReal) (g : Fin 16) : EReal := Ideal.exp (s g - rowMax s)

/-- The softmax of a row. -/
def softmax (s : Fin 16 → EReal) (g : Fin 16) : EReal :=
  Ideal.div (expRow s g) (∑ g' : Fin 16, expRow s g')

/-- The attention weights of one token: row `h` is the softmax of head `h`'s scores. -/
def attn (q k : Fin 16 → Fin 64 → EReal) (h g : Fin 16) : EReal := softmax (score q k h) g

/-- The context of head `h`, channel `d`. -/
def ctx (q k v : Fin 16 → Fin 64 → EReal) (h : Fin 16) (d : Fin 64) : EReal :=
  ∑ g : Fin 16, attn q k h g * v g d

/-- The head and the channel of a flat position. -/
def headOf (j : Fin 1024) : Fin 16 := ⟨j.val / 64, by have := j.isLt; omega⟩
def chanOf (j : Fin 1024) : Fin 64 := ⟨j.val % 64, Nat.mod_lt _ (by norm_num)⟩

/-- The context laid flat, head-major. -/
def ctxFlat (q k v : Fin 16 → Fin 64 → EReal) (j : Fin 1024) : EReal := ctx q k v (headOf j) (chanOf j)

/-- The mean of a row's 1024 entries. -/
def mean (y : Fin 1024 → EReal) : EReal := Ideal.div (∑ j : Fin 1024, y j) wN

/-- Their variance about that mean. -/
def var (y : Fin 1024 → EReal) : EReal :=
  Ideal.div (∑ j : Fin 1024, (y j - mean y) * (y j - mean y)) wN

/-- The normalised row, scaled and shifted. -/
def lnorm (y γ β : Fin 1024 → EReal) (j : Fin 1024) : EReal :=
  (y j - mean y) * Ideal.rsqrt (var y + wEps) * γ j + β j

/-- The arrays a token meets after its projections. -/
structure Tail where
  Wo : Fin 1024 → Fin 1024 → EReal
  bo : Fin 1024 → EReal
  W1 : Fin 1024 → Fin 4096 → EReal
  b1 : Fin 4096 → EReal
  W2 : Fin 4096 → Fin 1024 → EReal
  b2 : Fin 1024 → EReal
  g1 : Fin 1024 → EReal
  be1 : Fin 1024 → EReal
  g2 : Fin 1024 → EReal
  be2 : Fin 1024 → EReal

/-- The token plus its projected context. -/
def res1 (P : Tail) (x : Fin 1024 → EReal) (q k v : Fin 16 → Fin 64 → EReal) (j : Fin 1024) : EReal :=
  x j + lin (ctxFlat q k v) P.Wo P.bo j

/-- … normalised. -/
def x1 (P : Tail) (x : Fin 1024 → EReal) (q k v : Fin 16 → Fin 64 → EReal) : Fin 1024 → EReal :=
  lnorm (res1 P x q k v) P.g1 P.be1

/-- The hidden layer, rectified. -/
def hid (P : Tail) (x : Fin 1024 → EReal) (q k v : Fin 16 → Fin 64 → EReal) (f : Fin 4096) : EReal :=
  max (lin (x1 P x q k v) P.W1 P.b1 f) wZero

/-- The normalised token plus the feed-forward net's output. -/
def res2 (P : Tail) (x : Fin 1024 → EReal) (q k v : Fin 16 → Fin 64 → EReal) (j : Fin 1024) : EReal :=
  x1 P x q k v j + lin (hid P x q k v) P.W2 P.b2 j

/-- THE LAYER on one token. -/
def enc (P : Tail) (x : Fin 1024 → EReal) (q k v : Fin 16 → Fin 64 → EReal) : Fin 1024 → EReal :=
  lnorm (res2 P x q k v) P.g2 P.be2

end Cert.Enc

end
-- ==== Proof.Whole.lean ====
/-
  The layer over the whole batch: the result array, index by index, as a function of the thirteen argument
  arrays. Entry (b, s, j) is the layer's function (Spec.lean) of row (b, s) of the input, entry j; the row's
  three projections are read off the fused projection matrix in its interleaved layout — head `h` owns the
  192 consecutive columns from `192 h`, its queries first, then its keys, then its values, 64 each.
-/
import proofs.«100041_j64132451663945_2_alg».proof.Proof.Spec

noncomputable section

namespace Cert.Enc

open Idealize.ShloMosaic Idealize.ShloMosaic.ValueIdx
open scoped BigOperators

/-- The column of field `f` (0 the queries, 1 the keys, 2 the values) of head `h`, channel `d`. -/
def colI (f : Fin 3) (h : Fin 16) (d : Fin 64) : Fin 3072 :=
  ⟨h.val * 192 + f.val * 64 + d.val, by have := f.isLt; have := h.isLt; have := d.isLt; omega⟩

/-- Row (b, s) of the input. -/
def rowOf (x : (⟨3, ![4, 4096, 1024]⟩ : Shape).Idx → EReal) (b : Fin 4) (s : Fin 4096) : Fin 1024 → EReal :=
  fun k => x (ix3 b s k)

/-- A rank-2 array by its two coordinates, a rank-1 array by its one. -/
def mat {n p : Nat} (W : (⟨2, ![n, p]⟩ : Shape).Idx → EReal) : Fin n → Fin p → EReal := fun k e => W (ix2 k e)
def vec {p : Nat} (b : (⟨1, ![p]⟩ : Shape).Idx → EReal) : Fin p → EReal := fun e => b (ix1 e)

/-- The arrays after the projections, in the order the programs take them. -/
def tailOf (x3 : (⟨2, ![1024, 1024]⟩ : Shape).Idx → EReal) (x4 : (⟨1, ![1024]⟩ : Shape).Idx → EReal)
    (x5 : (⟨2, ![1024, 4096]⟩ : Shape).Idx → EReal) (x6 : (⟨1, ![4096]⟩ : Shape).Idx → EReal)
    (x7 : (⟨2, ![4096, 1024]⟩ : Shape).Idx → EReal) (x8 x9 x10 x11 x12 : (⟨1, ![1024]⟩ : Shape).Idx → EReal) : Tail :=
  ⟨mat x3, vec x4, mat x5, vec x6, mat x7, vec x8, vec x9, vec x10, vec x11, vec x12⟩

/-- Field `f` of row (b, s): head `h`, channel `d` of its projection. -/
def qkvOf (x0 : (⟨3, ![4, 4096, 1024]⟩ : Shape).Idx → EReal) (x1 : (⟨2, ![1024, 3072]⟩ : Shape).Idx → EReal)
    (x2 : (⟨1, ![3072]⟩ : Shape).Idx → EReal) (b : Fin 4) (s : Fin 4096) (f : Fin 3) (h : Fin 16) (d : Fin 64) : EReal :=
  lin (rowOf x0 b s) (mat x1) (vec x2) (colI f h d)

/-- THE RESULT ARRAY. -/
def G (x0 : (⟨3, ![4, 4096, 1024]⟩ : Shape).Idx → EReal) (x1 : (⟨2, ![1024, 3072]⟩ : Shape).Idx → EReal)
    (x2 : (⟨1, ![3072]⟩ : Shape).Idx → EReal)
    (x3 : (⟨2, ![1024, 1024]⟩ : Shape).Idx → EReal) (x4 : (⟨1, ![1024]⟩ : Shape).Idx → EReal)
    (x5 : (⟨2, ![1024, 4096]⟩ : Shape).Idx → EReal) (x6 : (⟨1, ![4096]⟩ : Shape).Idx → EReal)
    (x7 : (⟨2, ![4096, 1024]⟩ : Shape).Idx → EReal) (x8 x9 x10 x11 x12 : (⟨1, ![1024]⟩ : Shape).Idx → EReal) :
    (⟨3, ![4, 4096, 1024]⟩ : Shape).Idx → EReal :=
  fun i => enc (tailOf x3 x4 x5 x6 x7 x8 x9 x10 x11 x12) (rowOf x0 (i 0) (i 1))
    (qkvOf x0 x1 x2 (i 0) (i 1) 0) (qkvOf x0 x1 x2 (i 0) (i 1) 1) (qkvOf x0 x1 x2 (i 0) (i 1) 2) (i 2)

end Cert.Enc

end
-- ==== Proof.RefIsEnc.lean ====
/-
  The reference program, read one operation at a time, computes the encoder layer of Spec.lean on every
  token: its last stage, at entry (b, s, j), is the layer's function of row (b, s) of the input at entry j.

  The stages are read in the order the layer is built. The fused projection of a token is an affine map of
  its row; reshaped to 16 heads of 192 columns and cut in three, it gives the queries, keys and values of
  each head. A head's scores against the 16 key heads are the channel dot products over eight; their
  softmax (exponentials of the scores less the row's maximum, over their sum) weights the value heads.
  The 1024 context entries, laid flat head-major, go through the output map, are added to the token and
  normalised; the feed-forward net with its rectifier follows, is added to its own input, and is
  normalised again. Each sum of the program starts from the zero word, which adds nothing.
-/
import proofs.«100041_j64132451663945_2_alg».proof.Proof.RefRead
import proofs.«100041_j64132451663945_2_alg».proof.Proof.Whole

noncomputable section

namespace Cert.RefEnc

open Cert.ReferenceIdeal Cert.ReferenceIdeal.Gen Cert.ReferenceIdeal.ReadP Cert.Enc
open Idealize.ShloMosaic Idealize.ShloMosaic.ValueIdx
open scoped BigOperators

/-! ## Attention: everything that depends on the token and the projection arrays only -/

section Attention

variable (x0 : (⟨S4x4096x1024, .f32⟩ : BufTy).Contents (Elt Ideal)) (x1 : (⟨S1024x3072, .f32⟩ : BufTy).Contents (Elt Ideal))
  (x2 : (⟨S3072, .f32⟩ : BufTy).Contents (Elt Ideal))

/-- Column `e` of the fused projection of token (b, s): the row times column `e` of the matrix, plus the bias. -/
theorem proj_at (b : Fin 4) (s : Fin 4096) (e : Fin 3072) :
    val_main_v3 (F := Ideal) x0 x1 x2 (ix3 b s e) = lin (rowOf x0 b s) (mat x1) (vec x2) e := by
  have el : ∀ k : Fin 1024, lidx_main_v0 (ix3 b s e) k = ix3 b s k := fun k => funext fun a => Fin.ext (by
    match a with | ⟨0, _⟩ => rfl | ⟨1, _⟩ => rfl | ⟨2, _⟩ => rfl)
  have er : ∀ k : Fin 1024, ridx_main_v0 (ix3 b s e) k = ix2 k e := fun k => funext fun a => Fin.ext (by
    match a with | ⟨0, _⟩ => rfl | ⟨1, _⟩ => rfl)
  have eb : idx_main_v1 (idx_main_v2 (ix3 b s e)) = ix1 e := funext fun a => Fin.ext (by
    match a with | ⟨0, _⟩ => rfl)
  rw [val_main_v3_apply, val_main_v0_apply, val_main_v2_apply, val_main_v1_apply, eb]
  simp only [el, er, Ideal.addf_def]
  rfl

/-- The projection cut into 16 heads of 192 columns: head `h`, column `c` is flat column `192 h + c`. -/
theorem heads_at (b : Fin 4) (s : Fin 4096) (h : Fin 16) (c : Fin 192) :
    val_main_v4 (F := Ideal) x0 x1 x2 (ix4 b s h c)
      = lin (rowOf x0 b s) (mat x1) (vec x2) ⟨h.val * 192 + c.val, by have := h.isLt; have := c.isLt; omega⟩ := by
  have e : idx_main_v4 (ix4 b s h c)
      = ix3 b s (⟨h.val * 192 + c.val, by have := h.isLt; have := c.isLt; omega⟩ : Fin 3072) :=
    funext fun a => Fin.ext (by
      have hb := b.isLt; have hs := s.isLt; have hh := h.isLt; have hc := c.isLt
      match a with
      | ⟨0, _⟩ => show (((b.val * 4096 + s.val) * 16 + h.val) * 192 + c.val) / 12582912 = b.val; omega
      | ⟨1, _⟩ => show (((b.val * 4096 + s.val) * 16 + h.val) * 192 + c.val) / 3072 % 4096 = s.val; omega
      | ⟨2, _⟩ => show (((b.val * 4096 + s.val) * 16 + h.val) * 192 + c.val) % 3072 = h.val * 192 + c.val; omega)
  rw [val_main_v4_apply, e, proj_at]

/-- The first 64 columns of a head are its queries … -/
theorem q_at (b : Fin 4) (s : Fin 4096) (h : Fin 16) (d : Fin 64) :
    val_main_v5 (F := Ideal) x0 x1 x2 (ix4 b s h d) = qkvOf x0 x1 x2 b s 0 h d := by
  have e : idx_main_v5 (ix4 b s h d) = ix4 b s h (⟨d.val, by have := d.isLt; omega⟩ : Fin 192) :=
    funext fun a => Fin.ext (by match a with | ⟨0, _⟩ => rfl | ⟨1, _⟩ => rfl | ⟨2, _⟩ => rfl | ⟨3, _⟩ => rfl)
  rw [val_main_v5_apply, e, heads_at]
  exact congrArg (lin (rowOf x0 b s) (mat x1) (vec x2))
    (Fin.ext (by show h.val * 192 + d.val = h.val * 192 + 0 * 64 + d.val; omega))

/-- … the next 64 its keys … -/
theorem k_at (b : Fin 4) (s : Fin 4096) (h : Fin 16) (d : Fin 64) :
    val_main_v6 (F := Ideal) x0 x1 x2 (ix4 b s h d) = qkvOf x0 x1 x2 b s 1 h d := by
  have e : idx_main_v6 (ix4 b s h d) = ix4 b s h (⟨64 + d.val, by have := d.isLt; omega⟩ : Fin 192) :=
    funext fun a => Fin.ext (by match a with | ⟨0, _⟩ => rfl | ⟨1, _⟩ => rfl | ⟨2, _⟩ => rfl | ⟨3, _⟩ => rfl)
  rw [val_main_v6_apply, e, heads_at]
  exact congrArg (lin (rowOf x0 b s) (mat x1) (vec x2))
    (Fin.ext (by show h.val * 192 + (64 + d.val) = h.val * 192 + 1 * 64 + d.val; omega))

/-- … and the last 64 its values. -/
theorem v_at (b : Fin 4) (s : Fin 4096) (h : Fin 16) (d : Fin 64) :
    val_main_v7 (F := Ideal) x0 x1 x2 (ix4 b s h d) = qkvOf x0 x1 x2 b s 2 h d := by
  have e : idx_main_v7 (ix4 b s h d) = ix4 b s h (⟨128 + d.val, by have := d.isLt; omega⟩ : Fin 192) :=
    funext fun a => Fin.ext (by match a with | ⟨0, _⟩ => rfl | ⟨1, _⟩ => rfl | ⟨2, _⟩ => rfl | ⟨3, _⟩ => rfl)
  rw [val_main_v7_apply, e, heads_at]
  exact congrArg (lin (rowOf x0 b s) (mat x1) (vec x2))
    (Fin.ext (by show h.val * 192 + (128 + d.val) = h.val * 192 + 2 * 64 + d.val; omega))

/-- The score of query head `h` against key head `g`: the dot product over the 64 channels, over eight. -/
theorem score_at (b : Fin 4) (s : Fin 4096) (h g : Fin 16) :
    val_main_v10 (F := Ideal) x0 x1 x2 (ix4 b s h g) = score (qkvOf x0 x1 x2 b s 0) (qkvOf x0 x1 x2 b s 1) h g := by
  have el : ∀ d : Fin 64, lidx_main_v8 (ix4 b s h g) d = ix4 b s h d := fun d => funext fun a => Fin.ext (by
    match a with | ⟨0, _⟩ => rfl | ⟨1, _⟩ => rfl | ⟨2, _⟩ => rfl | ⟨3, _⟩ => rfl)
  have er : ∀ d : Fin 64, ridx_main_v8 (ix4 b s h g) d = ix4 b s g d := fun d => funext fun a => Fin.ext (by
    match a with | ⟨0, _⟩ => rfl | ⟨1, _⟩ => rfl | ⟨2, _⟩ => rfl | ⟨3, _⟩ => rfl)
  rw [val_main_v10_apply, val_main_v8_apply, val_main_v9_apply, val_main_cst_apply]
  simp only [el, er, q_at, k_at]
  rfl

/-- A score row's index with the key head put back in. -/
theorem lift_heads (hr : S4x4096x16x16.Reduces [(3 : Fin S4x4096x16x16.rank)] S4x4096x16) (b : Fin 4) (s : Fin 4096) (h : Fin 16)
    (g : Fin (S4x4096x16x16.size 3)) : hr.lift (ix3 b s h) g = ix4 b s h (⟨g.val, g.isLt⟩ : Fin 16) := by
  funext c; apply Fin.ext
  fin_cases c <;> rfl

/-- The maximum of a score row, folded from `-∞` over the 16 key heads. -/
theorem rowfold_at (b : Fin 4) (s : Fin 4096) (h : Fin 16) :
    val_main_v11 (F := Ideal) x0 x1 x2 (ix3 b s h)
      = (Finset.univ : Finset (Fin 16)).fold max wNegInf (score (qkvOf x0 x1 x2 b s 0) (qkvOf x0 x1 x2 b s 1) h) := by
  have hr : S4x4096x16x16.Reduces [(3 : Fin S4x4096x16x16.rank)] S4x4096x16 := by decide
  unfold val_main_v11
  rw [Host.reduce_eq_fold_single FloatOps.maximumf _ _ reducesTo_S4x4096x16x16_S4x4096x16_d3 hr h_S_]
  have hf : (val_main_v10 (F := Ideal) x0 x1 x2 ∘ hr.lift (ix3 b s h))
      = fun g : Fin 16 => score (qkvOf x0 x1 x2 b s 0) (qkvOf x0 x1 x2 b s 1) h g :=
    funext fun g => (congrArg (val_main_v10 (F := Ideal) x0 x1 x2) (lift_heads hr b s h g)).trans
      (score_at x0 x1 x2 b s h ⟨g.val, g.isLt⟩)
  exact congrArg (fun f => Finset.fold max wNegInf f (Finset.univ : Finset (Fin 16))) hf

/-- … guarded against `-∞` once more: the row's maximum. -/
theorem rowmax_at (b : Fin 4) (s : Fin 4096) (h : Fin 16) :
    val_main_v13 (F := Ideal) x0 x1 x2 (ix3 b s h) = rowMax (score (qkvOf x0 x1 x2 b s 0) (qkvOf x0 x1 x2 b s 1) h) := by
  rw [val_main_v13_apply, val_main_v12_apply, val_main_cst_1_apply, rowfold_at]
  rfl

/-- The shifted exponentials of the row. -/
theorem exp_at (b : Fin 4) (s : Fin 4096) (h g : Fin 16) :
    val_main_v17 (F := Ideal) x0 x1 x2 (ix4 b s h g) = expRow (score (qkvOf x0 x1 x2 b s 0) (qkvOf x0 x1 x2 b s 1) h) g := by
  have e : idx_main_v14 (idx_main_v15 (ix4 b s h g)) = ix3 b s h := funext fun a => Fin.ext (by
    match a with | ⟨0, _⟩ => rfl | ⟨1, _⟩ => rfl | ⟨2, _⟩ => rfl)
  rw [val_main_v17_apply, val_main_v16_apply, val_main_v15_apply, val_main_v14_apply, e, rowmax_at, score_at]
  rfl

/-- Their sum: the zero word it starts from adds nothing. -/
theorem expsum_at (b : Fin 4) (s : Fin 4096) (h : Fin 16) :
    val_main_v18 (F := Ideal) x0 x1 x2 (ix3 b s h) = ∑ g : Fin 16, expRow (score (qkvOf x0 x1 x2 b s 0) (qkvOf x0 x1 x2 b s 1) h) g := by
  have e : ∀ g : Fin 16, idx_main_v18 (ix3 b s h) g = ix4 b s h g := fun g => funext fun a => Fin.ext (by
    match a with | ⟨0, _⟩ => rfl | ⟨1, _⟩ => rfl | ⟨2, _⟩ => rfl | ⟨3, _⟩ => rfl)
  rw [val_main_v18_apply, val_main_cst_2_apply]
  simp only [e, exp_at, Ideal.ofBits_def, Ideal.ofBits_zero_f32, zero_add]

/-- The attention weights: the row's softmax. -/
theorem attn_at (b : Fin 4) (s : Fin 4096) (h g : Fin 16) :
    val_main_v21 (F := Ideal) x0 x1 x2 (ix4 b s h g) = attn (qkvOf x0 x1 x2 b s 0) (qkvOf x0 x1 x2 b s 1) h g := by
  have e : idx_main_v19 (idx_main_v20 (ix4 b s h g)) = ix3 b s h := funext fun a => Fin.ext (by
    match a with | ⟨0, _⟩ => rfl | ⟨1, _⟩ => rfl | ⟨2, _⟩ => rfl)
  rw [val_main_v21_apply, val_main_v20_apply, val_main_v19_apply, e, expsum_at, exp_at]
  rfl

/-- The context of head `h`, channel `d`: the weighted sum of the value heads. -/
theorem ctx_at (b : Fin 4) (s : Fin 4096) (h : Fin 16) (d : Fin 64) :
    val_main_v22 (F := Ideal) x0 x1 x2 (ix4 b s h d) = ctx (qkvOf x0 x1 x2 b s 0) (qkvOf x0 x1 x2 b s 1) (qkvOf x0 x1 x2 b s 2) h d := by
  have el : ∀ g : Fin 16, lidx_main_v22 (ix4 b s h d) g = ix4 b s h g := fun g => funext fun a => Fin.ext (by
    match a with | ⟨0, _⟩ => rfl | ⟨1, _⟩ => rfl | ⟨2, _⟩ => rfl | ⟨3, _⟩ => rfl)
  have er : ∀ g : Fin 16, ridx_main_v22 (ix4 b s h d) g = ix4 b s g d := fun g => funext fun a => Fin.ext (by
    match a with | ⟨0, _⟩ => rfl | ⟨1, _⟩ => rfl | ⟨2, _⟩ => rfl | ⟨3, _⟩ => rfl)
  rw [val_main_v22_apply]
  simp only [el, er, attn_at, v_at]
  rfl

/-- Laid flat, position `j` holds head `j / 64`, channel `j % 64`. -/
theorem ctxflat_at (b : Fin 4) (s : Fin 4096) (j : Fin 1024) :
    val_main_v23 (F := Ideal) x0 x1 x2 (ix3 b s j) = ctxFlat (qkvOf x0 x1 x2 b s 0) (qkvOf x0 x1 x2 b s 1) (qkvOf x0 x1 x2 b s 2) j := by
  have e : idx_main_v23 (ix3 b s j) = ix4 b s (headOf j) (chanOf j) := funext fun a => Fin.ext (by
    have hb := b.isLt; have hs := s.isLt; have hj := j.isLt
    match a with
    | ⟨0, _⟩ => show ((b.val * 4096 + s.val) * 1024 + j.val) / 4194304 = b.val; omega
    | ⟨1, _⟩ => show ((b.val * 4096 + s.val) * 1024 + j.val) / 1024 % 4096 = s.val; omega
    | ⟨2, _⟩ => show ((b.val * 4096 + s.val) * 1024 + j.val) / 64 % 16 = j.val / 64; omega
    | ⟨3, _⟩ => show ((b.val * 4096 + s.val) * 1024 + j.val) % 64 = j.val % 64; omega)
  rw [val_main_v23_apply, e, ctx_at]
  rfl

end Attention

/-! ## The rest of the layer -/

section Rest

variable (x0 : (⟨S4x4096x1024, .f32⟩ : BufTy).Contents (Elt Ideal)) (x1 : (⟨S1024x3072, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal)) (x5 : (⟨S1024x4096, .f32⟩ : BufTy).Contents (Elt Ideal))
  (x6 : (⟨S4096, .f32⟩ : BufTy).Contents (Elt Ideal)) (x7 : (⟨S4096x1024, .f32⟩ : BufTy).Contents (Elt Ideal))
  (x8 x9 x10 x11 x12 : (⟨S1024, .f32⟩ : BufTy).Contents (Elt Ideal))

/-- The token plus the output map of its flat context. -/
theorem res1_at (b : Fin 4) (s : Fin 4096) (j : Fin 1024) :
    val_main_v28 (F := Ideal) x0 x1 x2 x3 x4 (ix3 b s j) = res1 (tailOf x3 x4 x5 x6 x7 x8 x9 x10 x11 x12) (rowOf x0 b s) (qkvOf x0 x1 x2 b s 0) (qkvOf x0 x1 x2 b s 1) (qkvOf x0 x1 x2 b s 2) j := by
  have el : ∀ k : Fin 1024, lidx_main_v24 (ix3 b s j) k = ix3 b s k := fun k => funext fun a => Fin.ext (by
    match a with | ⟨0, _⟩ => rfl | ⟨1, _⟩ => rfl | ⟨2, _⟩ => rfl)
  have er : ∀ k : Fin 1024, ridx_main_v24 (ix3 b s j) k = ix2 k j := fun k => funext fun a => Fin.ext (by
    match a with | ⟨0, _⟩ => rfl | ⟨1, _⟩ => rfl)
  have eb : idx_main_v25 (idx_main_v26 (ix3 b s j)) = ix1 j := funext fun a => Fin.ext (by
    match a with | ⟨0, _⟩ => rfl)
  rw [val_main_v28_apply, val_main_v27_apply, val_main_v24_apply, val_main_v26_apply, val_main_v25_apply, eb]
  simp only [el, er, ctxflat_at]
  rfl

/-- Its mean over the 1024 entries. -/
theorem mean1_at (b : Fin 4) (s : Fin 4096) (z : Fin 1) :
    val_main_v32 (F := Ideal) x0 x1 x2 x3 x4 (ix3 b s z) = mean (res1 (tailOf x3 x4 x5 x6 x7 x8 x9 x10 x11 x12) (rowOf x0 b s) (qkvOf x0 x1 x2 b s 0) (qkvOf x0 x1 x2 b s 1) (qkvOf x0 x1 x2 b s 2)) := by
  have e : ∀ k : Fin 1024, idx_main_v29 (idx_main_v30 (ix3 b s z)) k = ix3 b s k := fun k => funext fun a =>
    Fin.ext (by match a with | ⟨0, _⟩ => rfl | ⟨1, _⟩ => rfl | ⟨2, _⟩ => rfl)
  rw [val_main_v32_apply, val_main_v30_apply, val_main_v29_apply, val_main_cst_3_apply, val_main_v31_apply,
    val_main_cst_4_apply]
  simp only [e, res1_at x0 x1 x2 x3 x4 x5 x6 x7 x8 x9 x10 x11 x12, Ideal.ofBits_def, Ideal.ofBits_zero_f32, zero_add]
  rfl

/-- An entry less the mean. -/
theorem centred1_at (b : Fin 4) (s : Fin 4096) (j : Fin 1024) :
    val_main_v34 (F := Ideal) x0 x1 x2 x3 x4 (ix3 b s j) = (res1 (tailOf x3 x4 x5 x6 x7 x8 x9 x10 x11 x12) (rowOf x0 b s) (qkvOf x0 x1 x2 b s 0) (qkvOf x0 x1 x2 b s 1) (qkvOf x0 x1 x2 b s 2)) j - mean (res1 (tailOf x3 x4 x5 x6 x7 x8 x9 x10 x11 x12) (rowOf x0 b s) (qkvOf x0 x1 x2 b s 0) (qkvOf x0 x1 x2 b s 1) (qkvOf x0 x1 x2 b s 2)) := by
  have e : idx_main_v33 (ix3 b s j) = ix3 b s (⟨0, Nat.one_pos⟩ : Fin 1) := funext fun a => Fin.ext (by
    match a with | ⟨0, _⟩ => rfl | ⟨1, _⟩ => rfl | ⟨2, _⟩ => rfl)
  rw [val_main_v34_apply, val_main_v33_apply, e, mean1_at x0 x1 x2 x3 x4 x5 x6 x7 x8 x9 x10 x11 x12, res1_at x0 x1 x2 x3 x4 x5 x6 x7 x8 x9 x10 x11 x12]
  rfl

/-- The variance: the mean of the squared differences. -/
theorem var1_at (b : Fin 4) (s : Fin 4096) (z : Fin 1) :
    val_main_v39 (F := Ideal) x0 x1 x2 x3 x4 (ix3 b s z) = var (res1 (tailOf x3 x4 x5 x6 x7 x8 x9 x10 x11 x12) (rowOf x0 b s) (qkvOf x0 x1 x2 b s 0) (qkvOf x0 x1 x2 b s 1) (qkvOf x0 x1 x2 b s 2)) := by
  have e : ∀ k : Fin 1024, idx_main_v36 (idx_main_v37 (ix3 b s z)) k = ix3 b s k := fun k => funext fun a =>
    Fin.ext (by match a with | ⟨0, _⟩ => rfl | ⟨1, _⟩ => rfl | ⟨2, _⟩ => rfl)
  rw [val_main_v39_apply, val_main_v37_apply, val_main_v36_apply, val_main_cst_5_apply, val_main_v38_apply,
    val_main_cst_6_apply]
  simp only [e, val_main_v35_apply, centred1_at x0 x1 x2 x3 x4 x5 x6 x7 x8 x9 x10 x11 x12, Ideal.ofBits_def, Ideal.ofBits_zero_f32, zero_add]
  rfl

/-- The first normalisation. -/
theorem x1_at (b : Fin 4) (s : Fin 4096) (j : Fin 1024) :
    val_main_v52 (F := Ideal) x0 x1 x2 x3 x4 x9 x10 (ix3 b s j) = Cert.Enc.x1 (tailOf x3 x4 x5 x6 x7 x8 x9 x10 x11 x12) (rowOf x0 b s) (qkvOf x0 x1 x2 b s 0) (qkvOf x0 x1 x2 b s 1) (qkvOf x0 x1 x2 b s 2) j := by
  have e40 : idx_main_v40 (ix3 b s j) = ix3 b s (⟨0, Nat.one_pos⟩ : Fin 1) := funext fun a => Fin.ext (by
    match a with | ⟨0, _⟩ => rfl | ⟨1, _⟩ => rfl | ⟨2, _⟩ => rfl)
  have e45 : idx_main_v45 (ix3 b s j) = ix3 b s (⟨0, Nat.one_pos⟩ : Fin 1) := funext fun a => Fin.ext (by
    match a with | ⟨0, _⟩ => rfl | ⟨1, _⟩ => rfl | ⟨2, _⟩ => rfl)
  have e48 : idx_main_v47 (idx_main_v48 (ix3 b s j)) = ix1 j := funext fun a => Fin.ext (by
    match a with | ⟨0, _⟩ => rfl)
  have e51 : idx_main_v50 (idx_main_v51 (ix3 b s j)) = ix1 j := funext fun a => Fin.ext (by
    match a with | ⟨0, _⟩ => rfl)
  rw [val_main_v52_apply, val_main_v49_apply, val_main_v46_apply, val_main_v41_apply, val_main_v40_apply, e40,
    mean1_at x0 x1 x2 x3 x4 x5 x6 x7 x8 x9 x10 x11 x12, res1_at x0 x1 x2 x3 x4 x5 x6 x7 x8 x9 x10 x11 x12,
    val_main_v45_apply, e45, val_main_v44_apply, val_main_v43_apply, var1_at x0 x1 x2 x3 x4 x5 x6 x7 x8 x9 x10 x11 x12, val_main_v42_apply,
    val_main_cst_7_apply, val_main_v48_apply, val_main_v47_apply, e48, val_main_v51_apply, val_main_v50_apply, e51]
  rfl

/-- The hidden layer: an affine map of the normalised token, cut off below at zero. -/
theorem hid_at (b : Fin 4) (s : Fin 4096) (f : Fin 4096) :
    val_main_v57 (F := Ideal) x0 x1 x2 x3 x4 x5 x6 x9 x10 (ix3 b s f) = hid (tailOf x3 x4 x5 x6 x7 x8 x9 x10 x11 x12) (rowOf x0 b s) (qkvOf x0 x1 x2 b s 0) (qkvOf x0 x1 x2 b s 1) (qkvOf x0 x1 x2 b s 2) f := by
  have el : ∀ k : Fin 1024, lidx_main_v53 (ix3 b s f) k = ix3 b s k := fun k => funext fun a => Fin.ext (by
    match a with | ⟨0, _⟩ => rfl | ⟨1, _⟩ => rfl | ⟨2, _⟩ => rfl)
  have er : ∀ k : Fin 1024, ridx_main_v53 (ix3 b s f) k = ix2 k f := fun k => funext fun a => Fin.ext (by
    match a with | ⟨0, _⟩ => rfl | ⟨1, _⟩ => rfl)
  have eb : idx_main_v54 (idx_main_v55 (ix3 b s f)) = ix1 f := funext fun a => Fin.ext (by
    match a with | ⟨0, _⟩ => rfl)
  rw [val_main_v57_apply, val_main_v56_apply, val_main_v53_apply, val_main_v55_apply, val_main_v54_apply, eb,
    val_main_call0_v0_apply, val_main_call0_cst_apply]
  simp only [el, er, x1_at x0 x1 x2 x3 x4 x5 x6 x7 x8 x9 x10 x11 x12]
  rfl

/-- The normalised token plus the second affine map of the hidden layer. -/
theorem res2_at (b : Fin 4) (s : Fin 4096) (j : Fin 1024) :
    val_main_v62 (F := Ideal) x0 x1 x2 x3 x4 x5 x6 x7 x8 x9 x10 (ix3 b s j) = res2 (tailOf x3 x4 x5 x6 x7 x8 x9 x10 x11 x12) (rowOf x0 b s) (qkvOf x0 x1 x2 b s 0) (qkvOf x0 x1 x2 b s 1) (qkvOf x0 x1 x2 b s 2) j := by
  have el : ∀ f : Fin 4096, lidx_main_v58 (ix3 b s j) f = ix3 b s f := fun f => funext fun a => Fin.ext (by
    match a with | ⟨0, _⟩ => rfl | ⟨1, _⟩ => rfl | ⟨2, _⟩ => rfl)
  have er : ∀ f : Fin 4096, ridx_main_v58 (ix3 b s j) f = ix2 f j := fun f => funext fun a => Fin.ext (by
    match a with | ⟨0, _⟩ => rfl | ⟨1, _⟩ => rfl)
  have eb : idx_main_v59 (idx_main_v60 (ix3 b s j)) = ix1 j := funext fun a => Fin.ext (by
    match a with | ⟨0, _⟩ => rfl)
  rw [val_main_v62_apply, val_main_v61_apply, val_main_v58_apply, val_main_v60_apply, val_main_v59_apply, eb,
    x1_at x0 x1 x2 x3 x4 x5 x6 x7 x8 x9 x10 x11 x12]
  simp only [el, er, hid_at x0 x1 x2 x3 x4 x5 x6 x7 x8 x9 x10 x11 x12]
  rfl

/-- Its mean … -/
theorem mean2_at (b : Fin 4) (s : Fin 4096) (z : Fin 1) :
    val_main_v66 (F := Ideal) x0 x1 x2 x3 x4 x5 x6 x7 x8 x9 x10 (ix3 b s z) = mean (res2 (tailOf x3 x4 x5 x6 x7 x8 x9 x10 x11 x12) (rowOf x0 b s) (qkvOf x0 x1 x2 b s 0) (qkvOf x0 x1 x2 b s 1) (qkvOf x0 x1 x2 b s 2)) := by
  have e : ∀ k : Fin 1024, idx_main_v63 (idx_main_v64 (ix3 b s z)) k = ix3 b s k := fun k => funext fun a =>
    Fin.ext (by match a with | ⟨0, _⟩ => rfl | ⟨1, _⟩ => rfl | ⟨2, _⟩ => rfl)
  rw [val_main_v66_apply, val_main_v64_apply, val_main_v63_apply, val_main_cst_8_apply, val_main_v65_apply,
    val_main_cst_9_apply]
  simp only [e, res2_at x0 x1 x2 x3 x4 x5 x6 x7 x8 x9 x10 x11 x12, Ideal.ofBits_def, Ideal.ofBits_zero_f32, zero_add]
  rfl

/-- … an entry less the mean … -/
theorem centred2_at (b : Fin 4) (s : Fin 4096) (j : Fin 1024) :
    val_main_v68 (F := Ideal) x0 x1 x2 x3 x4 x5 x6 x7 x8 x9 x10 (ix3 b s j) = (res2 (tailOf x3 x4 x5 x6 x7 x8 x9 x10 x11 x12) (rowOf x0 b s) (qkvOf x0 x1 x2 b s 0) (qkvOf x0 x1 x2 b s 1) (qkvOf x0 x1 x2 b s 2)) j - mean (res2 (tailOf x3 x4 x5 x6 x7 x8 x9 x10 x11 x12) (rowOf x0 b s) (qkvOf x0 x1 x2 b s 0) (qkvOf x0 x1 x2 b s 1) (qkvOf x0 x1 x2 b s 2)) := by
  have e : idx_main_v67 (ix3 b s j) = ix3 b s (⟨0, Nat.one_pos⟩ : Fin 1) := funext fun a => Fin.ext (by
    match a with | ⟨0, _⟩ => rfl | ⟨1, _⟩ => rfl | ⟨2, _⟩ => rfl)
  rw [val_main_v68_apply, val_main_v67_apply, e, mean2_at x0 x1 x2 x3 x4 x5 x6 x7 x8 x9 x10 x11 x12, res2_at x0 x1 x2 x3 x4 x5 x6 x7 x8 x9 x10 x11 x12]
  rfl

/-- … and its variance. -/
theorem var2_at (b : Fin 4) (s : Fin 4096) (z : Fin 1) :
    val_main_v73 (F := Ideal) x0 x1 x2 x3 x4 x5 x6 x7 x8 x9 x10 (ix3 b s z) = var (res2 (tailOf x3 x4 x5 x6 x7 x8 x9 x10 x11 x12) (rowOf x0 b s) (qkvOf x0 x1 x2 b s 0) (qkvOf x0 x1 x2 b s 1) (qkvOf x0 x1 x2 b s 2)) := by
  have e : ∀ k : Fin 1024, idx_main_v70 (idx_main_v71 (ix3 b s z)) k = ix3 b s k := fun k => funext fun a =>
    Fin.ext (by match a with | ⟨0, _⟩ => rfl | ⟨1, _⟩ => rfl | ⟨2, _⟩ => rfl)
  rw [val_main_v73_apply, val_main_v71_apply, val_main_v70_apply, val_main_cst_10_apply, val_main_v72_apply,
    val_main_cst_11_apply]
  simp only [e, val_main_v69_apply, centred2_at x0 x1 x2 x3 x4 x5 x6 x7 x8 x9 x10 x11 x12, Ideal.ofBits_def, Ideal.ofBits_zero_f32, zero_add]
  rfl

/-- The second normalisation: the layer's result. -/
theorem enc_at (b : Fin 4) (s : Fin 4096) (j : Fin 1024) :
    val_main_v86 (F := Ideal) x0 x1 x2 x3 x4 x5 x6 x7 x8 x9 x10 x11 x12 (ix3 b s j) = enc (tailOf x3 x4 x5 x6 x7 x8 x9 x10 x11 x12) (rowOf x0 b s) (qkvOf x0 x1 x2 b s 0) (qkvOf x0 x1 x2 b s 1) (qkvOf x0 x1 x2 b s 2) j := by
  have e74 : idx_main_v74 (ix3 b s j) = ix3 b s (⟨0, Nat.one_pos⟩ : Fin 1) := funext fun a => Fin.ext (by
    match a with | ⟨0, _⟩ => rfl | ⟨1, _⟩ => rfl | ⟨2, _⟩ => rfl)
  have e79 : idx_main_v79 (ix3 b s j) = ix3 b s (⟨0, Nat.one_pos⟩ : Fin 1) := funext fun a => Fin.ext (by
    match a with | ⟨0, _⟩ => rfl | ⟨1, _⟩ => rfl | ⟨2, _⟩ => rfl)
  have e82 : idx_main_v81 (idx_main_v82 (ix3 b s j)) = ix1 j := funext fun a => Fin.ext (by
    match a with | ⟨0, _⟩ => rfl)
  have e85 : idx_main_v84 (idx_main_v85 (ix3 b s j)) = ix1 j := funext fun a => Fin.ext (by
    match a with | ⟨0, _⟩ => rfl)
  rw [val_main_v86_apply, val_main_v83_apply, val_main_v80_apply, val_main_v75_apply, val_main_v74_apply, e74,
    mean2_at x0 x1 x2 x3 x4 x5 x6 x7 x8 x9 x10 x11 x12, res2_at x0 x1 x2 x3 x4 x5 x6 x7 x8 x9 x10 x11 x12,
    val_main_v79_apply, e79, val_main_v78_apply, val_main_v77_apply, var2_at x0 x1 x2 x3 x4 x5 x6 x7 x8 x9 x10 x11 x12, val_main_v76_apply,
    val_main_cst_12_apply, val_main_v82_apply, val_main_v81_apply, e82, val_main_v85_apply, val_main_v84_apply, e85]
  rfl

/-- THE REFERENCE IS THE LAYER: its last stage is the result array of Whole.lean. -/
theorem ref_eq :
    Cert.ReferenceIdeal.ReadP.val_main_v86 (F := Ideal) x0 x1 x2 x3 x4 x5 x6 x7 x8 x9 x10 x11 x12 = Cert.Enc.G x0 x1 x2 x3 x4 x5 x6 x7 x8 x9 x10 x11 x12 := by
  funext i
  obtain ⟨b, s, j, rfl⟩ : ∃ (b : Fin 4) (s : Fin 4096) (j : Fin 1024), i = ix3 b s j := ⟨i 0, i 1, i 2, eq_ix3 i⟩
  rw [enc_at]
  rfl

end Rest

end Cert.RefEnc

end
-- ==== Proof.LibHostRead.lean ====
/-
  Three host (StableHLO) operations READ AT AN INDEX, for the dimension numbers an indexed row read, an indexed
  accumulation and a two-piece join of flat arrays lower to. Generic over the sizes; nothing here mentions a program.

  * `stablehlo.gather` of rows (`x[idx]` along axis 0, `idx : [E, 1]`), of a matrix and of a flat array: the operand
    at the start index read signed and clamped into `[0, N − 1]` (`gather_rows2_apply`, `gather_rows1_apply`);
  * the accumulating `stablehlo.scatter` of rows (`x.at[idx].add(u)`), at the ideal instance: each operand element
    plus the sum, over the updates whose raw signed index IS that row, of the update's element — an index outside
    `[0, N)` lands nowhere and contributes nothing (`scatterAdd_rows2_apply`, `scatterAdd_rows1_apply`);
  * `concatenate` of two flat arrays: the first below the first extent, the second past it (`concat1_apply`).
-/
import Idealize.ShloMosaic.Lib.ValueIdx
import Idealize.ShloMosaic.Lib.Pipeline.Value
import Idealize.ShloMosaic.PureOps.Ideal
import Idealize.ShloMosaic.PureOps.Ideal.Laws

noncomputable section

open scoped BigOperators

namespace Idealize.ShloMosaic.HostRead

open Idealize.ShloMosaic Idealize.ShloMosaic.ValueIdx

/-! ## `stablehlo.gather` of whole rows, read at an index

What `x[idx]` of a matrix `x : [N, D]` (or of a flat array `x : [N]`) at a column of row numbers `idx : [E, 1]`
lowers to: the start index is one scalar, mapped to operand axis 0, which is collapsed; the slice is one whole row.
Result element `(e, c)` is the operand at row `idx[e, 0]`, read as a signed integer and clamped into `[0, N − 1]`
(StableHLO clamps every gather start index so that the slice fits), column `c`. -/

section Gather
variable {α : Type}

/-- The row-gather dimension numbers for an operand `[N, D]`, start indices `[E, 1]` and result `[E, D]`: offset axis
    `1` of the result, operand axis `0` collapsed and indexed, slice `1 × D`. The conditions `wf` are decided on a
    program's literal shapes. -/
abbrev gdims2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER OF A MATRIX READ AT `y = (e, c)`: the operand at row `idx[e, 0]` — read signed and clamped into
    `[0, N − 1]` — and column `c`. -/
theorem gather_rows2_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (gdims2 N E D wf) x idx y
      = x (ix2 ⟨min (idx (ix2 (y 0) (0 : Fin 1))).toInt.toNat (N - 1), by omega⟩ (y 1)) := by
  unfold Host.gather
  congr 1
  funext a
  refine Fin.ext ?_
  match a with
  | ⟨0, _⟩ =>
    show (gdims2 N E D wf).start y idx 0 + (gdims2 N E D wf).batchCoord y 0 + (gdims2 N E D wf).offCoord y 0 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gdims2 N E D wf).startIndexMap from List.mem_singleton.mpr rfl)]
    have hsi : (gdims2 N E D wf).siIdx y ⟨List.idxOf (0 : Fin 2) (gdims2 N E D wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (gdims2 N E D wf).start y idx 1 + (gdims2 N E D wf).batchCoord y 1 + (gdims2 N E D wf).offCoord y 1 = (y 1).val
    rw [GatherDims.batchCoord_eq_zero _ _ _ List.not_mem_nil]
    have hs : (gdims2 N E D wf).start y idx 1 = 0 := by
      unfold GatherDims.start
      rw [dif_neg (show (1 : Fin 2) ∉ [(0 : Fin 2)] by decide)]
    rw [hs]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same at a result index given by its coordinates: row `e`, column `c` of the gather is the operand at the
    clamped row `idx[e, 0]`, column `c`. -/
theorem gather_rows2_ix2 {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (gdims2 N E D wf) x idx (ix2 e c)
      = x (ix2 ⟨min (idx (ix2 e (0 : Fin 1))).toInt.toNat (N - 1), by omega⟩ c) :=
  gather_rows2_apply hN wf x idx (ix2 e c)

/-- The row-gather dimension numbers for a flat operand `[N]`, start indices `[E, 1]` and result `[E]`: no offset
    axis, operand axis `0` collapsed and indexed, slice of one element. -/
abbrev gdims1 (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ROW GATHER OF A FLAT ARRAY READ AT `y = (e)`: the operand at `idx[e, 0]`, read signed and clamped into
    `[0, N − 1]`. -/
theorem gather_rows1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gdims1 N E wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (gdims1 N E wf).start y idx 0 + (gdims1 N E wf).batchCoord y 0 + (gdims1 N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gdims1 N E wf).startIndexMap from List.mem_singleton.mpr rfl)]
  have hsi : (gdims1 N E wf).siIdx y ⟨List.idxOf (0 : Fin 1) (gdims1 N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The same at a result index given by its coordinate: element `e` of the gather is the operand at the clamped
    `idx[e, 0]`. -/
theorem gather_rows1_ix1 {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gdims1 N E wf) x idx (ix1 e)
      = x (ix1 ⟨min (idx (ix2 e (0 : Fin 1))).toInt.toNat (N - 1), by omega⟩) :=
  gather_rows1_apply hN wf x idx (ix1 e)

end Gather

/-! ## The accumulating `stablehlo.scatter` of rows, at the ideal instance, read at an index

What `x.at[idx].add(u)` of a matrix `x : [N, D]` (or a flat array `x : [N]`) at a column of row numbers `idx : [E, 1]`
lowers to: the scatter index is one scalar, mapped to operand axis 0, which is an inserted window axis; an update is one
whole row. Update `(e, c)` lands at row `idx[e, 0]` — read as a signed integer and NOT clamped —, column `c`, when that
row is in `[0, N)`, and nowhere otherwise. At the ideal instance the result element is the operand's plus the exact sum
of the updates landing on it. -/

section Scatter

/-- The row-scatter dimension numbers for an operand `[N, D]`, scatter indices `[E, 1]` and updates `[E, D]`: window
    axis `1` of the updates, operand axis `0` inserted and indexed. The conditions `wf` are decided on a program's
    literal shapes. -/
abbrev sdims2 (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Where update `(e, b)` lands: on operand element `(n, d)` exactly when its raw signed index `idx[e, 0]` is `n` and
    its column `b` is `d` (the start on axis 0 is the index, unclamped, and on axis 1 zero; the window coordinate is
    zero on axis 0 and `b` on axis 1; an index outside `[0, N)` lands nowhere). -/
theorem sdims2_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (b : Fin D) (n : Fin N) (d : Fin D) :
    (sdims2 N E D wf).resultIdx? (ix2 e b) idx = some (ix2 n d)
      ↔ (idx (ix2 e (0 : Fin 1))).toInt = (n.val : Int) ∧ b = d := by
  have hs0 : (sdims2 N E D wf).start (ix2 e b) idx 0 = (idx (ix2 e (0 : Fin 1))).toInt := by
    unfold ScatterDims.start
    rw [dif_pos (show (0 : Fin 2) ∈ (sdims2 N E D wf).scatterDimsToOperandDims from List.mem_singleton.mpr rfl)]
    have hsi : (sdims2 N E D wf).siIdx (ix2 e b) ⟨List.idxOf (0 : Fin 2) (sdims2 N E D wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hs1 : (sdims2 N E D wf).start (ix2 e b) idx 1 = 0 := by
    unfold ScatterDims.start
    rw [dif_neg (show (1 : Fin 2) ∉ [(0 : Fin 2)] by decide)]
  have hw0 : (sdims2 N E D wf).window (ix2 e b) 0 = 0 := by
    unfold ScatterDims.window
    rw [dif_neg (show (0 : Fin 2) ∉ (sdims2 N E D wf).sKept from (show (0 : Fin 2) ∉ (List.finRange 2).filter (· ∉ [(0 : Fin 2)]) by decide))]
  have hw1 : (sdims2 N E D wf).window (ix2 e b) 1 = b.val := by
    unfold ScatterDims.window
    rw [dif_pos (show (1 : Fin 2) ∈ (sdims2 N E D wf).sKept from (show (1 : Fin 2) ∈ (List.finRange 2).filter (· ∉ [(0 : Fin 2)]) by decide))]
    rfl
  unfold ScatterDims.resultIdx?
  constructor
  · intro h
    split at h
    · rename_i hall
      have hf := Option.some.inj h
      have h0 := congrArg (fun f => (f 0).val) hf
      have h1 := congrArg (fun f => (f 1).val) hf
      simp only [hs0, hs1, hw0, hw1] at h0 h1
      have hall0 := (hall 0).1
      rw [hs0, hw0] at hall0
      have hn : ((ix2 n d : (⟨2, ![N, D]⟩ : Shape).Idx) 0).val = n.val := rfl
      have hd : ((ix2 n d : (⟨2, ![N, D]⟩ : Shape).Idx) 1).val = d.val := rfl
      rw [hn] at h0; rw [hd] at h1
      refine ⟨by omega, Fin.ext (by omega)⟩
    · exact absurd h (by simp)
  · rintro ⟨h0, rfl⟩
    have hall : ∀ a, 0 ≤ (sdims2 N E D wf).start (ix2 e b) idx a + (sdims2 N E D wf).window (ix2 e b) a ∧
        (sdims2 N E D wf).start (ix2 e b) idx a + (sdims2 N E D wf).window (ix2 e b) a < (⟨2, ![N, D]⟩ : Shape).size a := by
      intro a
      match a with
      | ⟨0, _⟩ =>
        show 0 ≤ (sdims2 N E D wf).start (ix2 e b) idx 0 + (sdims2 N E D wf).window (ix2 e b) 0 ∧
          (sdims2 N E D wf).start (ix2 e b) idx 0 + (sdims2 N E D wf).window (ix2 e b) 0 < (N : Int)
        rw [hs0, hw0, h0]; have := n.isLt; omega
      | ⟨1, _⟩ =>
        show 0 ≤ (sdims2 N E D wf).start (ix2 e b) idx 1 + (sdims2 N E D wf).window (ix2 e b) 1 ∧
          (sdims2 N E D wf).start (ix2 e b) idx 1 + (sdims2 N E D wf).window (ix2 e b) 1 < (D : Int)
        rw [hs1, hw1]; have := b.isLt; omega
    rw [dif_pos hall]
    congr 1
    funext a; refine Fin.ext ?_
    match a with
    | ⟨0, _⟩ =>
      show ((sdims2 N E D wf).start (ix2 e b) idx 0 + (sdims2 N E D wf).window (ix2 e b) 0).toNat = n.val
      rw [hs0, hw0, h0]; omega
    | ⟨1, _⟩ =>
      show ((sdims2 N E D wf).start (ix2 e b) idx 1 + (sdims2 N E D wf).window (ix2 e b) 1).toNat = b.val
      rw [hs1, hw1]; omega

/-- THE ACCUMULATING ROW SCATTER INTO A MATRIX READ AT `(n, d)`: the operand's element plus the sum, over the updates
    `e` whose raw signed index `idx[e, 0]` equals `n`, of `upd[e, d]`. (The sum over the rank-2 update indices splits by
    coordinates; in row `e` only column `d` can land on `(n, d)`.) -/
theorem scatterAdd_rows2_ix2 {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (d : Fin D) :
    Host.scatterAdd (F := Ideal) (sdims2 N E D wf) x idx upd (ix2 n d)
      = x (ix2 n d) + ∑ e ∈ Finset.univ.filter (fun e : Fin E => (idx (ix2 e (0 : Fin 1))).toInt = (n.val : Int)),
          upd (ix2 e d) := by
  show x (ix2 n d) + ∑ j ∈ Finset.univ.filter (fun j => (sdims2 N E D wf).resultIdx? j idx = some (ix2 n d)), upd j = _
  congr 1
  rw [Finset.sum_filter, sum_idx2, Finset.sum_filter]
  refine Finset.sum_congr rfl fun e _ => ?_
  rw [Finset.sum_eq_single d]
  · by_cases hq : (idx (ix2 e (0 : Fin 1))).toInt = (n.val : Int)
    · rw [if_pos hq, if_pos ((sdims2_resultIdx?_eq_some wf idx e d n d).mpr ⟨hq, rfl⟩)]
    · rw [if_neg hq, if_neg (fun h => hq ((sdims2_resultIdx?_eq_some wf idx e d n d).mp h).1)]
  · intro b _ hb
    exact if_neg (fun h => hb ((sdims2_resultIdx?_eq_some wf idx e b n d).mp h).2)
  · intro h; exact absurd (Finset.mem_univ d) h

/-- The same at any operand index `i`: `x i` plus the sum over the updates whose raw signed index is `i`'s row of the
    update's element in `i`'s column. -/
theorem scatterAdd_rows2_apply {N E D w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : (⟨2, ![N, D]⟩ : Shape).Idx) :
    Host.scatterAdd (F := Ideal) (sdims2 N E D wf) x idx upd i
      = x i + ∑ e ∈ Finset.univ.filter (fun e : Fin E => (idx (ix2 e (0 : Fin 1))).toInt = ((i 0).val : Int)),
          upd (ix2 e (i 1)) := by
  obtain ⟨n, d, rfl⟩ : ∃ (n : Fin N) (d : Fin D), i = ix2 n d := ⟨i 0, i 1, eq_ix2 i⟩
  exact scatterAdd_rows2_ix2 wf x idx upd n d

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The element-scatter dimension numbers for a flat operand `[N]`, scatter indices `[E, 1]` and updates `[E]`: no
    window axis, operand axis `0` inserted and indexed. -/
abbrev sdims1 (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Where update `e` lands: on operand element `n` exactly when its raw signed index `idx[e, 0]` is `n` (the start on
    axis 0 is the index, unclamped; the window coordinate is zero; an index outside `[0, N)` lands nowhere). -/
theorem sdims1_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (sdims1 N E wf).resultIdx? (ix1 e) idx = some (ix1 n)
      ↔ (idx (ix2 e (0 : Fin 1))).toInt = (n.val : Int) := by
  have hs0 : (sdims1 N E wf).start (ix1 e) idx 0 = (idx (ix2 e (0 : Fin 1))).toInt := by
    unfold ScatterDims.start
    rw [dif_pos (show (0 : Fin 1) ∈ (sdims1 N E wf).scatterDimsToOperandDims from List.mem_singleton.mpr rfl)]
    have hsi : (sdims1 N E wf).siIdx (ix1 e) ⟨List.idxOf (0 : Fin 1) (sdims1 N E wf).scatterDimsToOperandDims,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
  have hw0 : (sdims1 N E wf).window (ix1 e) 0 = 0 := by
    unfold ScatterDims.window
    rw [dif_neg (show (0 : Fin 1) ∉ (sdims1 N E wf).sKept from
      (show (0 : Fin 1) ∉ (List.finRange 1).filter (· ∉ [(0 : Fin 1)]) by decide))]
  unfold ScatterDims.resultIdx?
  constructor
  · intro h
    split at h
    · rename_i hall
      have hf := Option.some.inj h
      have h0 := congrArg (fun f => (f 0).val) hf
      simp only [hs0, hw0] at h0
      have hall0 := (hall 0).1
      rw [hs0, hw0] at hall0
      have hn : ((ix1 n : (⟨1, ![N]⟩ : Shape).Idx) 0).val = n.val := rfl
      rw [hn] at h0
      omega
    · exact absurd h (by simp)
  · intro h0
    have hall : ∀ a, 0 ≤ (sdims1 N E wf).start (ix1 e) idx a + (sdims1 N E wf).window (ix1 e) a ∧
        (sdims1 N E wf).start (ix1 e) idx a + (sdims1 N E wf).window (ix1 e) a < (⟨1, ![N]⟩ : Shape).size a := by
      intro a
      obtain rfl : a = 0 := Subsingleton.elim _ _
      show 0 ≤ (sdims1 N E wf).start (ix1 e) idx 0 + (sdims1 N E wf).window (ix1 e) 0 ∧
        (sdims1 N E wf).start (ix1 e) idx 0 + (sdims1 N E wf).window (ix1 e) 0 < (N : Int)
      rw [hs0, hw0, h0]; have := n.isLt; omega
    rw [dif_pos hall]
    congr 1
    funext a; refine Fin.ext ?_
    obtain rfl : a = 0 := Subsingleton.elim _ _
    show ((sdims1 N E wf).start (ix1 e) idx 0 + (sdims1 N E wf).window (ix1 e) 0).toNat = n.val
    rw [hs0, hw0, h0]; omega

/-- THE ACCUMULATING SCATTER INTO A FLAT ARRAY READ AT `n`: the operand's element plus the sum, over the updates `e`
    whose raw signed index `idx[e, 0]` equals `n`, of `upd[e]`. -/
theorem scatterAdd_rows1_ix1 {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (sdims1 N E wf) x idx upd (ix1 n)
      = x (ix1 n) + ∑ e ∈ Finset.univ.filter (fun e : Fin E => (idx (ix2 e (0 : Fin 1))).toInt = (n.val : Int)),
          upd (ix1 e) := by
  show x (ix1 n) + ∑ j ∈ Finset.univ.filter (fun j => (sdims1 N E wf).resultIdx? j idx = some (ix1 n)), upd j = _
  congr 1
  rw [Finset.sum_filter, sum_idx1, Finset.sum_filter]
  refine Finset.sum_congr rfl fun e _ => ?_
  by_cases hq : (idx (ix2 e (0 : Fin 1))).toInt = (n.val : Int)
  · rw [if_pos hq, if_pos ((sdims1_resultIdx?_eq_some wf idx e n).mpr hq)]
  · rw [if_neg hq, if_neg (fun h => hq ((sdims1_resultIdx?_eq_some wf idx e n).mp h))]

/-- The same at any operand index `i`: `x i` plus the sum over the updates whose raw signed index is `i`'s coordinate. -/
theorem scatterAdd_rows1_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (i : (⟨1, ![N]⟩ : Shape).Idx) :
    Host.scatterAdd (F := Ideal) (sdims1 N E wf) x idx upd i
      = x i + ∑ e ∈ Finset.univ.filter (fun e : Fin E => (idx (ix2 e (0 : Fin 1))).toInt = ((i 0).val : Int)),
          upd (ix1 e) := by
  obtain ⟨n, rfl⟩ : ∃ n : Fin N, i = ix1 n := ⟨i 0, eq_ix1 i⟩
  exact scatterAdd_rows1_ix1 wf x idx upd n

end Scatter

/-! ## A two-piece `concatenate` of flat arrays, read at an index

`jnp.concatenate([a, b])` of `a : [A]` and `b : [B]` into `[T]`, `T = A + B`: position `k` reads `a` at `k` below `A`
and `b` at `k − A` from `A` on. The total `T` is a parameter of its own (with `T = A + B` a hypothesis) so that the
lemmas apply to a program's literal total. -/

section Concatenate
variable {α : Type}

/-- A position below the first extent reads the first piece there. -/
theorem concat1_apply_left {A B T : Nat} (a : (⟨1, ![A]⟩ : Shape).Idx → α) (b : (⟨1, ![B]⟩ : Shape).Idx → α)
    (h : Shape.Concatenates [⟨1, ![A]⟩, ⟨1, ![B]⟩] ⟨1, ![T]⟩ 0) (k : Fin T) (hk : k.val < A) :
    concatenate ⟨1, ![T]⟩ 0 [⟨⟨1, ![A]⟩, a⟩, ⟨⟨1, ![B]⟩, b⟩] h (ix1 k) = a (ix1 ⟨k.val, hk⟩) := by
  refine concatenate_pair_apply_left 0 a b h (ix1 k) rfl (ix1 ⟨k.val, hk⟩) ?_
  intro c
  obtain rfl : c = 0 := Subsingleton.elim _ _
  rfl

/-- A position at or past the first extent reads the second piece, the first extent less. -/
theorem concat1_apply_right {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T)
    (hk : A ≤ k.val) :
    concatenate ⟨1, ![T]⟩ 0 [⟨⟨1, ![A]⟩, a⟩, ⟨⟨1, ![B]⟩, b⟩] h (ix1 k)
      = b (ix1 ⟨k.val - A, by have := k.isLt; omega⟩) := by
  refine concatenate_pair_apply_right 0 a b h (ix1 k) rfl rfl (ix1 ⟨k.val - A, by have := k.isLt; omega⟩) ?_ ?_
  · intro c hc
    exact absurd (Subsingleton.elim _ _) hc
  · show (k.val - A) + A = k.val
    omega

/-- Both at once: the concatenation read at `k` is the two pieces' coordinate functions appended, at `k`. -/
theorem concat1_apply {A B T : Nat} (hT : T = A + B) (a : (⟨1, ![A]⟩ : Shape).Idx → α)
    (b : (⟨1, ![B]⟩ : Shape).Idx → α) (h : Shape.Concatenates [⟨1, ![A]⟩, ⟨1, ![B]⟩] ⟨1, ![T]⟩ 0) (k : Fin T) :
    concatenate ⟨1, ![T]⟩ 0 [⟨⟨1, ![A]⟩, a⟩, ⟨⟨1, ![B]⟩, b⟩] h (ix1 k)
      = Fin.append (fun e => a (ix1 e)) (fun j => b (ix1 j)) (k.cast hT) := by
  by_cases hk : k.val < A
  · rw [concat1_apply_left a b h k hk]
    have hc : k.cast hT = Fin.castAdd B ⟨k.val, hk⟩ := Fin.ext rfl
    rw [hc, Fin.append_left]
  · have hk' : A ≤ k.val := Nat.le_of_not_lt hk
    rw [concat1_apply_right hT a b h k hk']
    have hc : k.cast hT = Fin.natAdd A ⟨k.val - A, by have := k.isLt; omega⟩ :=
      Fin.ext (by show k.val = A + (k.val - A); omega)
    rw [hc, Fin.append_right]

end Concatenate

end Idealize.ShloMosaic.HostRead

end
-- ==== Proof.LibRows.lean ====
/-
  Rank-3 blocks `[a, b, c]` read at an index `(r, g, d)`, at the exact (extended-real) instance where it matters:
  a sum over the middle or the last axis as a `Fin`-indexed sum; a unit axis added in the middle or at the end of
  a matrix, or dropped from the middle; a unit axis broadcast along the middle or the last axis; a slice of one
  position along the middle axis; a stack of unit-thick pieces along the middle axis read at one of them.
  All of it generic in the extents: nothing here knows a particular kernel.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowsRead

open Idealize.ShloMosaic Idealize.ShloMosaic.ValueIdx
open scoped BigOperators

variable {α : Type}

/-! ## One-axis sums -/

/-- A sum over the LAST axis of `[a, b, c]` read at `(r, g)`. -/
theorem sum_last3 {a b c : Nat} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (g : Fin b) :
    multiReduction .add [2] ⟨2, ![a, b]⟩ src acc h hφ hacc (ix2 r g) = ∑ d : Fin c, src (ix3 r g d) := by
  rw [Ideal.multiReduction_add_single]
  refine Finset.sum_congr rfl fun d _ => congrArg src (funext fun ax => Fin.ext ?_)
  match ax with
  | ⟨0, _⟩ => rfl
  | ⟨1, _⟩ => rfl
  | ⟨2, _⟩ => rfl

/-- A sum over the MIDDLE axis of `[a, b, c]` read at `(r, d)`. -/
theorem sum_mid3 {a b c : Nat} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (r : Fin a) (d : Fin c) :
    multiReduction .add [1] ⟨2, ![a, c]⟩ src acc h hφ hacc (ix2 r d) = ∑ g : Fin b, src (ix3 r g d) := by
  rw [Ideal.multiReduction_add_single]
  refine Finset.sum_congr rfl fun g _ => congrArg src (funext fun ax => Fin.ext ?_)
  match ax with
  | ⟨0, _⟩ => rfl
  | ⟨1, _⟩ => rfl
  | ⟨2, _⟩ => rfl

/-- A sum over the columns of a matrix `[a, b]` read at row `r`. -/
theorem sum_cols2 {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ j : Fin b, src (ix2 r j) := by
  rw [Ideal.multiReduction_add_single]
  refine Finset.sum_congr rfl fun j _ => congrArg src (funext fun ax => Fin.ext ?_)
  match ax with
  | ⟨0, _⟩ => rfl
  | ⟨1, _⟩ => rfl

/-- A maximum over the LAST axis of `[a, b, c]` read at `(r, g)`: the fold of `max` from the accumulator's value. -/
theorem max_last3 {a b c : Nat} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (r : Fin a) (g : Fin b) :
    multiReduction .maximumf [2] ⟨2, ![a, b]⟩ src acc h hφ hacc (ix2 r g)
      = (Finset.univ : Finset (Fin c)).fold max (Ideal.ofBits φ acc) (fun d => src (ix3 r g d)) := by
  rw [Ideal.multiReduction_maximumf_single]
  have e : (src ∘ h.lift (ix2 r g)) = fun d => src (ix3 r g d) :=
    funext fun d => congrArg src (funext fun ax => Fin.ext (by
      match ax with
      | ⟨0, _⟩ => rfl
      | ⟨1, _⟩ => rfl
      | ⟨2, _⟩ => rfl))
  rw [e]
  rfl

/-! ## Unit axes added and dropped -/

/-- `[a, b] → [a, 1, b]`. -/
theorem cast_ab_a1b {a b : Nat} (x : (⟨2, ![a, b]⟩ : Shape).Idx → α)
    (h : (⟨2, ![a, b]⟩ : Shape).ShapeCasts ⟨3, ![a, 1, b]⟩) (r : Fin a) (g : Fin b) :
    shapeCast ⟨3, ![a, 1, b]⟩ x h (ix3 r (0 : Fin 1) g) = x (ix2 r g) :=
  shapeCast_apply x h _ _ (by
    rw [Shape.rowMajor_val_two, Shape.rowMajor_val_three]
    show r.val * b + g.val = (r.val * 1 + 0) * b + g.val
    rw [Nat.mul_one, Nat.add_zero])

/-- `[a, 1, b] → [a, b]`. -/
theorem cast_a1b_ab {a b : Nat} (x : (⟨3, ![a, 1, b]⟩ : Shape).Idx → α)
    (h : (⟨3, ![a, 1, b]⟩ : Shape).ShapeCasts ⟨2, ![a, b]⟩) (r : Fin a) (g : Fin b) :
    shapeCast ⟨2, ![a, b]⟩ x h (ix2 r g) = x (ix3 r (0 : Fin 1) g) :=
  shapeCast_apply x h _ _ (by
    rw [Shape.rowMajor_val_two, Shape.rowMajor_val_three]
    show (r.val * 1 + 0) * b + g.val = r.val * b + g.val
    rw [Nat.mul_one, Nat.add_zero])

/-- `[a, b] → [a, b, 1]`. -/
theorem cast_ab_ab1 {a b : Nat} (x : (⟨2, ![a, b]⟩ : Shape).Idx → α)
    (h : (⟨2, ![a, b]⟩ : Shape).ShapeCasts ⟨3, ![a, b, 1]⟩) (r : Fin a) (g : Fin b) :
    shapeCast ⟨3, ![a, b, 1]⟩ x h (ix3 r g (0 : Fin 1)) = x (ix2 r g) :=
  shapeCast_apply x h _ _ (by
    rw [Shape.rowMajor_val_two, Shape.rowMajor_val_three]
    show r.val * b + g.val = (r.val * b + g.val) * 1 + 0
    rw [Nat.mul_one, Nat.add_zero])

/-- `[a] → [a, 1]`. -/
theorem cast_a_a1 {a : Nat} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_two, Shape.rowMajor_val_one]
    show r.val = r.val * 1 + 0
    rw [Nat.mul_one, Nat.add_zero])

/-! ## Unit axes broadcast -/

/-- `[a, 1, c] → [a, b, c]`: every middle position reads the one there is. -/
theorem bcast_a1c {a b c : Nat} (v : (⟨3, ![a, 1, c]⟩ : Shape).Idx → α)
    (h : (⟨3, ![a, 1, c]⟩ : Shape).Broadcasts ⟨3, ![a, b, c]⟩) (r : Fin a) (g : Fin b) (d : Fin c) :
    broadcastTo ⟨3, ![a, b, c]⟩ v h (ix3 r g d) = v (ix3 r (0 : Fin 1) d) := by
  refine broadcastTo_apply v h (ix3 r g d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- `[a, b, 1] → [a, b, c]`: every last position reads the one there is. -/
theorem bcast_ab1 {a b c : Nat} (v : (⟨3, ![a, b, 1]⟩ : Shape).Idx → α)
    (h : (⟨3, ![a, b, 1]⟩ : Shape).Broadcasts ⟨3, ![a, b, c]⟩) (r : Fin a) (g : Fin b) (d : Fin c) :
    broadcastTo ⟨3, ![a, b, c]⟩ v h (ix3 r g d) = v (ix3 r g (0 : Fin 1)) := by
  refine broadcastTo_apply v h (ix3 r g d) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-! ## One position of the middle axis -/

/-- The slice `[a, 1, c]` of `[a, b, c]` at middle position `o`. -/
theorem slice_mid1 {a b c : Nat} (o : Nat) (X : (⟨3, ![a, b, c]⟩ : Shape).Idx → α)
    (h : (⟨3, ![a, b, c]⟩ : Shape).Slices ![0, o, 0] ⟨3, ![a, 1, c]⟩) (r : Fin a) (d : Fin c) (k : Fin b) (hk : k.val = o) :
    extractStridedSlice ⟨3, ![a, 1, c]⟩ ![0, o, 0] X h (ix3 r (0 : Fin 1) d) = X (ix3 r k d) :=
  slice3_axis1_apply o X h r (0 : Fin 1) d k (by rw [hk]; rfl)

/-! ## A stack of unit-thick pieces along the middle axis -/

/-- `N` pieces `[a, 1, c]` stacked along the middle axis into `[a, N, c]`: position `n` of the middle axis reads piece `n`. -/
theorem stack_mid {a N c : Nat} (f : Fin N → ((⟨3, ![a, 1, c]⟩ : Shape).Idx → α))
    (h : Shape.Concatenates ((List.ofFn fun n : Fin N => (⟨⟨3, ![a, 1, c]⟩, f n⟩ : (s : Shape) × (s.Idx → α))).map (·.1))
      ⟨3, ![a, N, c]⟩ 1)
    (r : Fin a) (n : Fin N) (d : Fin c) :
    concatenate ⟨3, ![a, N, c]⟩ 1 (List.ofFn fun n : Fin N => (⟨⟨3, ![a, 1, c]⟩, f n⟩ : (s : Shape) × (s.Idx → α))) h (ix3 r n d)
      = f n (ix3 r (0 : Fin 1) d) :=
  concatenate_ofFn_unit_apply (t := ⟨3, ![a, N, c]⟩) (s₁ := ⟨3, ![a, 1, c]⟩) 1 f h rfl rfl (ix3 r n d) n rfl
    (ix3 r (0 : Fin 1) d) (fun b hb => by
      match b with
      | ⟨0, _⟩ => rfl
      | ⟨1, _⟩ => exact absurd rfl hb
      | ⟨2, _⟩ => rfl)

/-! ## One head against all heads -/

/-- The products of ONE head's channels (middle position `o` of `q`, repeated along the middle axis) with every head of
    `k`, summed over the channels: at `(r, g)` the dot product of head `o` of `q` with head `g` of `k`. -/
theorem head_scores {a b c : Nat} {φ : FTy} (q k : FVec Ideal ⟨3, ![a, b, c]⟩ φ) (o : Nat)
    (hs : (⟨3, ![a, b, c]⟩ : Shape).Slices ![0, o, 0] ⟨3, ![a, 1, c]⟩)
    (hb : (⟨3, ![a, 1, c]⟩ : Shape).Broadcasts ⟨3, ![a, b, c]⟩) (acc : BitVec φ.bits)
    (hr : (⟨3, ![a, b, c]⟩ : Shape).Reduces [2] ⟨2, ![a, b]⟩) (hφ : FKind.Formats φ) (hacc : acc = FKind.add.neutral φ hφ)
    (r : Fin a) (g : Fin b) (hh : Fin b) (ho : hh.val = o) :
    multiReduction .add [2] ⟨2, ![a, b]⟩
        (mulf (broadcastTo ⟨3, ![a, b, c]⟩ (extractStridedSlice ⟨3, ![a, 1, c]⟩ ![0, o, 0] q hs) hb) k) acc hr hφ hacc (ix2 r g)
      = ∑ d : Fin c, q (ix3 r hh d) * k (ix3 r g d) := by
  rw [sum_last3]
  refine Finset.sum_congr rfl fun d _ => ?_
  rw [mulf_apply, bcast_a1c, slice_mid1 o q hs r d hh ho]

/-- The same with the head's slice already taken. -/
theorem slice_scores {a b c : Nat} {φ : FTy} (qh : FVec Ideal ⟨3, ![a, 1, c]⟩ φ) (k : FVec Ideal ⟨3, ![a, b, c]⟩ φ)
    (hb : (⟨3, ![a, 1, c]⟩ : Shape).Broadcasts ⟨3, ![a, b, c]⟩) (acc : BitVec φ.bits)
    (hr : (⟨3, ![a, b, c]⟩ : Shape).Reduces [2] ⟨2, ![a, b]⟩) (hφ : FKind.Formats φ) (hacc : acc = FKind.add.neutral φ hφ)
    (r : Fin a) (g : Fin b) :
    multiReduction .add [2] ⟨2, ![a, b]⟩ (mulf (broadcastTo ⟨3, ![a, b, c]⟩ qh hb) k) acc hr hφ hacc (ix2 r g)
      = ∑ d : Fin c, qh (ix3 r (0 : Fin 1) d) * k (ix3 r g d) := by
  rw [sum_last3]
  refine Finset.sum_congr rfl fun d _ => ?_
  rw [mulf_apply, bcast_a1c]

/-- ONE row `o` of a weight array `A : [a, b, b]` spread along the channels, against the values `v : [a, b, c]`: what the
    two casts and the broadcast leave at `(r, g, d)` is `A (r, o, g)`. -/
theorem row_spread {a b c : Nat} (A : (⟨3, ![a, b, b]⟩ : Shape).Idx → α) (o : Nat)
    (hs : (⟨3, ![a, b, b]⟩ : Shape).Slices ![0, o, 0] ⟨3, ![a, 1, b]⟩)
    (hc1 : (⟨3, ![a, 1, b]⟩ : Shape).ShapeCasts ⟨2, ![a, b]⟩) (hc2 : (⟨2, ![a, b]⟩ : Shape).ShapeCasts ⟨3, ![a, b, 1]⟩)
    (hb : (⟨3, ![a, b, 1]⟩ : Shape).Broadcasts ⟨3, ![a, b, c]⟩) (r : Fin a) (g : Fin b) (d : Fin c) (hh : Fin b) (ho : hh.val = o) :
    broadcastTo ⟨3, ![a, b, c]⟩ (shapeCast ⟨3, ![a, b, 1]⟩ (shapeCast ⟨2, ![a, b]⟩
        (extractStridedSlice ⟨3, ![a, 1, b]⟩ ![0, o, 0] A hs) hc1) hc2) hb (ix3 r g d) = A (ix3 r hh g) := by
  rw [bcast_ab1, cast_ab_ab1, cast_a1b_ab, slice_mid1 o A hs r g hh ho]

/-- … and the weighted sum over the heads: at `(r, d)`, `∑ g, A (r, o, g) · v (r, g, d)`. -/
theorem head_context {a b c : Nat} {φ : FTy} (A : FVec Ideal ⟨3, ![a, b, b]⟩ φ) (v : FVec Ideal ⟨3, ![a, b, c]⟩ φ) (o : Nat)
    (hs : (⟨3, ![a, b, b]⟩ : Shape).Slices ![0, o, 0] ⟨3, ![a, 1, b]⟩)
    (hc1 : (⟨3, ![a, 1, b]⟩ : Shape).ShapeCasts ⟨2, ![a, b]⟩) (hc2 : (⟨2, ![a, b]⟩ : Shape).ShapeCasts ⟨3, ![a, b, 1]⟩)
    (hb : (⟨3, ![a, b, 1]⟩ : Shape).Broadcasts ⟨3, ![a, b, c]⟩) (acc : BitVec φ.bits)
    (hr : (⟨3, ![a, b, c]⟩ : Shape).Reduces [1] ⟨2, ![a, c]⟩) (hφ : FKind.Formats φ) (hacc : acc = FKind.add.neutral φ hφ)
    (r : Fin a) (d : Fin c) (hh : Fin b) (ho : hh.val = o) :
    multiReduction .add [1] ⟨2, ![a, c]⟩
        (mulf (broadcastTo ⟨3, ![a, b, c]⟩ (shapeCast ⟨3, ![a, b, 1]⟩ (shapeCast ⟨2, ![a, b]⟩
          (extractStridedSlice ⟨3, ![a, 1, b]⟩ ![0, o, 0] A hs) hc1) hc2) hb) v) acc hr hφ hacc (ix2 r d)
      = ∑ g : Fin b, A (ix3 r hh g) * v (ix3 r g d) := by
  rw [sum_mid3]
  refine Finset.sum_congr rfl fun g _ => ?_
  rw [mulf_apply, row_spread A o hs hc1 hc2 hb r g d hh ho]

/-- The same with the spread weights given. -/
theorem spread_context {a b c : Nat} {φ : FTy} (S v : FVec Ideal ⟨3, ![a, b, c]⟩ φ) (acc : BitVec φ.bits)
    (hr : (⟨3, ![a, b, c]⟩ : Shape).Reduces [1] ⟨2, ![a, c]⟩) (hφ : FKind.Formats φ) (hacc : acc = FKind.add.neutral φ hφ)
    (r : Fin a) (d : Fin c) :
    multiReduction .add [1] ⟨2, ![a, c]⟩ (mulf S v) acc hr hφ hacc (ix2 r d) = ∑ g : Fin b, S (ix3 r g d) * v (ix3 r g d) := by
  rw [sum_mid3]
  exact Finset.sum_congr rfl fun g _ => mulf_apply _ _ _

/-! ## Sixteen heads of sixty-four channels, flat and head-major -/

/-- `[a, 1024] → [a, 16, 64]`: head `h`, channel `d` is flat position `64 h + d`. -/
theorem cast_flat_heads {a : Nat} (x : (⟨2, ![a, 1024]⟩ : Shape).Idx → α)
    (h : (⟨2, ![a, 1024]⟩ : Shape).ShapeCasts ⟨3, ![a, 16, 64]⟩) (r : Fin a) (hh : Fin 16) (d : Fin 64) (j : Fin 1024)
    (hj : j.val = 64 * hh.val + d.val) :
    shapeCast ⟨3, ![a, 16, 64]⟩ x h (ix3 r hh d) = x (ix2 r j) :=
  shapeCast_apply x h _ _ (by
    rw [Shape.rowMajor_val_two, Shape.rowMajor_val_three]
    show r.val * 1024 + j.val = (r.val * 16 + hh.val) * 64 + d.val
    omega)

/-- `[a, 16, 64] → [a, 1024]`: flat position `j` is head `j / 64`, channel `j % 64`. -/
theorem cast_heads_flat {a : Nat} (x : (⟨3, ![a, 16, 64]⟩ : Shape).Idx → α)
    (h : (⟨3, ![a, 16, 64]⟩ : Shape).ShapeCasts ⟨2, ![a, 1024]⟩) (r : Fin a) (j : Fin 1024) (hh : Fin 16) (d : Fin 64)
    (hj : j.val = 64 * hh.val + d.val) :
    shapeCast ⟨2, ![a, 1024]⟩ x h (ix2 r j) = x (ix3 r hh d) :=
  shapeCast_apply x h _ _ (by
    rw [Shape.rowMajor_val_two, Shape.rowMajor_val_three]
    show (r.val * 16 + hh.val) * 64 + d.val = r.val * 1024 + j.val
    omega)

end Idealize.ShloMosaic.RowsRead

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.PayProj.lean ====
/-
  The first part of the kernel's body on one block of 256 tokens, read at an index: the fused projection
  (row r, column e is the token's affine image), and its three 1024-wide slabs seen as 16 heads of 64 channels —
  the queries from column 0, the keys from column 1024, the values from column 2048.
-/
import proofs.«100041_j64132451663945_2_alg».proof.Proof.Gen.KernelIdeal.Skeleton
import proofs.«100041_j64132451663945_2_alg».proof.Proof.Spec
import proofs.«100041_j64132451663945_2_alg».proof.Proof.LibRows
import proofs.«100041_j64132451663945_2_alg».proof.Proof.LibMatmul
import Idealize.ShloMosaic.Lib.ValueLayout

noncomputable section

namespace Cert.KRow

open Cert.KernelIdeal Cert.KernelIdeal.Gen Idealize.ShloMosaic Idealize.ShloMosaic.ValueIdx
open Idealize.ShloMosaic.RowsRead Idealize.ShloMosaic.MatmulRead Cert.Enc
open scoped BigOperators

/-- The column of field `f`, head `h`, channel `d` when the three fields are three contiguous slabs. -/
def slab (f : Fin 3) (h : Fin 16) (d : Fin 64) : Fin 3072 :=
  ⟨f.val * 1024 + h.val * 64 + d.val, by have := f.isLt; have := h.isLt; have := d.isLt; omega⟩

/-- Row `r` of a block of tokens. -/
def brow (x0 : (⟨2, ![256, 1024]⟩ : Shape).Idx → EReal) (r : Fin 256) : Fin 1024 → EReal := fun k => x0 (ix2 r k)

/-- A weight block by its coordinates; a one-row block by its column. -/
def bmat {n p : Nat} (W : (⟨2, ![n, p]⟩ : Shape).Idx → EReal) : Fin n → Fin p → EReal := fun k e => W (ix2 k e)
def brow1 {p : Nat} (b : (⟨2, ![1, p]⟩ : Shape).Idx → EReal) : Fin p → EReal := fun e => b (ix2 (0 : Fin 1) e)

/-- The fused projection of row `r` at column `e`. -/
theorem pay3_at (x0 : Vec Ideal S256x1024 .f32) (x1 : Vec Ideal S1024x3072 .bf16) (x2 : Vec Ideal S1x3072 .f32)
    (r : Fin 256) (e : Fin 3072) :
    k0_pay3 (F := Ideal) x0 x1 x2 (ix2 r e) = lin (brow x0 r) (bmat x1) (brow1 x2) e := by
  unfold k0_pay3 k0_pay2
  dsimp only
  rw [addf_apply, shapeCast_self, shapeCast_self, shapeCast_self, broadcastTo_1b_ab_apply]
  unfold lin
  congr 1
  simp only [matmul]
  exact matmul_zero_apply _ _ _ _ _ _ rfl rfl rfl rfl rfl rfl
    dot_S256x1024_S1024x3072_S256x3072_1_0_0_1_n_n.wf none _ _ (ix2 r e)

/-- Head `h`, channel `d` of the queries, the keys and the values of row `r`. -/
theorem pay4_at (x0 : Vec Ideal S256x1024 .f32) (x1 : Vec Ideal S1024x3072 .bf16) (x2 : Vec Ideal S1x3072 .f32)
    (r : Fin 256) (h : Fin 16) (d : Fin 64) :
    k0_pay4 (F := Ideal) x0 x1 x2 (ix3 r h d) = lin (brow x0 r) (bmat x1) (brow1 x2) (slab 0 h d) := by
  unfold k0_pay4
  rw [cast_flat_heads _ _ r h d ⟨64 * h.val + d.val, by have := h.isLt; have := d.isLt; omega⟩ rfl,
    slice2_axis1_apply 0 _ _ r _ (slab 0 h d) (by show 0 * 1024 + h.val * 64 + d.val = 0 + (64 * h.val + d.val); omega)]
  exact pay3_at x0 x1 x2 r _

theorem pay5_at (x0 : Vec Ideal S256x1024 .f32) (x1 : Vec Ideal S1024x3072 .bf16) (x2 : Vec Ideal S1x3072 .f32)
    (r : Fin 256) (h : Fin 16) (d : Fin 64) :
    k0_pay5 (F := Ideal) x0 x1 x2 (ix3 r h d) = lin (brow x0 r) (bmat x1) (brow1 x2) (slab 1 h d) := by
  unfold k0_pay5
  rw [cast_flat_heads _ _ r h d ⟨64 * h.val + d.val, by have := h.isLt; have := d.isLt; omega⟩ rfl,
    slice2_axis1_apply 1024 _ _ r _ (slab 1 h d) (by show 1 * 1024 + h.val * 64 + d.val = 1024 + (64 * h.val + d.val); omega)]
  exact pay3_at x0 x1 x2 r _

theorem pay6_at (x0 : Vec Ideal S256x1024 .f32) (x1 : Vec Ideal S1024x3072 .bf16) (x2 : Vec Ideal S1x3072 .f32)
    (r : Fin 256) (h : Fin 16) (d : Fin 64) :
    k0_pay6 (F := Ideal) x0 x1 x2 (ix3 r h d) = lin (brow x0 r) (bmat x1) (brow1 x2) (slab 2 h d) := by
  unfold k0_pay6
  rw [cast_flat_heads _ _ r h d ⟨64 * h.val + d.val, by have := h.isLt; have := d.isLt; omega⟩ rfl,
    slice2_axis1_apply 2048 _ _ r _ (slab 2 h d) (by show 2 * 1024 + h.val * 64 + d.val = 2048 + (64 * h.val + d.val); omega)]
  exact pay3_at x0 x1 x2 r _

end Cert.KRow

end
-- ==== Proof.KTable.lean ====
/-
  The kernel's column order. The kernel keeps the 3072 columns of the fused projection as three contiguous
  slabs — queries, keys, values, each 16 heads of 64 channels — where the arguments interleave them head by
  head. The program carries a table of 3072 words that sends slab position e to the interleaved column it
  holds, 192 (e mod 1024 div 64) + 64 (e div 1024) + e mod 64; it gathers the projection matrix's columns
  and the projection bias through that table. Here: the table's closed form, that it sends the slab position
  of (field, head, channel) to that triple's interleaved column, and a gather of columns read at an index.
-/
import proofs.«100041_j64132451663945_2_alg».proof.KernelIdeal
import proofs.«100041_j64132451663945_2_alg».proof.Proof.PayProj
import proofs.«100041_j64132451663945_2_alg».proof.Proof.Whole
import Idealize.ShloMosaic.Lib.ValueIdx
import Idealize.ShloMosaic.PureOps.Ideal

noncomputable section

namespace Cert.KArr

open Cert.KernelIdeal Idealize.ShloMosaic Idealize.ShloMosaic.ValueIdx Cert.Enc Cert.KRow

/-- The interleaved column that slab position `e` holds. -/
def table (e : Fin 3072) : Fin 3072 :=
  ⟨(e.val % 1024 / 64) * 192 + (e.val / 1024) * 64 + e.val % 64, by have := e.isLt; omega⟩

/-- Every word of the program's table, read as a signed integer, is that column: checked entry by entry. -/
theorem lit0_signed : ∀ e : Fin 3072,
    (lit0 e).toInt.toNat = (e.val % 1024 / 64) * 192 + (e.val / 1024) * 64 + e.val % 64 := by
  decide +kernel

theorem lit0_table (e : Fin 3072) : (lit0 e).toInt.toNat = (table e).val := lit0_signed e

/-- A table word is a column of the matrix already: clamping it into the column range changes nothing. -/
theorem clamp_table (e : Fin 3072) : min (lit0 e).toInt.toNat (3072 - 1) = (table e).val := by
  rw [lit0_table]; have := (table e).isLt; omega

/-- The slab position of field `f`, head `h`, channel `d` holds that triple's interleaved column. -/
theorem table_slab (f : Fin 3) (h : Fin 16) (d : Fin 64) : table (slab f h d) = colI f h d :=
  Fin.ext (by
    have hf := f.isLt; have hh := h.isLt; have hd := d.isLt
    show ((f.val * 1024 + h.val * 64 + d.val) % 1024 / 64) * 192 + ((f.val * 1024 + h.val * 64 + d.val) / 1024) * 64
        + (f.val * 1024 + h.val * 64 + d.val) % 64 = h.val * 192 + f.val * 64 + d.val
    omega)

/-! ## A gather of columns, read at an index

What `x[:, idx]` of a matrix `x : [N, D]` at a column of column numbers `idx : [E, 1]` lowers to: the start index
is one scalar, mapped to operand axis 1, which is collapsed; the slice is one whole column. Result element (k, e)
is the operand at row k and column `idx[e, 0]`, read as a signed integer and clamped into [0, D − 1]. -/

section GatherColumns
variable {α : Type}

/-- The column-gather dimension numbers for an operand `[N, D]`, start indices `[E, 1]` and result `[N, E]`: offset
    axis 0 of the result, operand axis 1 collapsed and indexed, slice `N × 1`. -/
abbrev gcols (N D E : Nat)
    (wf : GatherDims.WF ⟨2, ![N, D]⟩ ⟨2, ![E, 1]⟩ ⟨2, ![N, E]⟩ [0] [1] [] [1] [] 1 ![N, 1]) :
    GatherDims ⟨2, ![N, D]⟩ ⟨2, ![E, 1]⟩ ⟨2, ![N, E]⟩ where
  offsetDims := [0]
  collapsedSliceDims := [1]
  operandBatchingDims := []
  startIndicesBatchingDims := []
  startIndexMap := [1]
  indexVectorDim := 1
  sliceSizes := ![N, 1]
  wf := wf

/-- THE COLUMN GATHER READ AT `y = (k, e)`: the operand at row `k` and at column `idx[e, 0]`, read signed and
    clamped into `[0, D − 1]`. -/
theorem gather_cols_apply {N D E w : Nat} (hD : 0 < D)
    (wf : GatherDims.WF ⟨2, ![N, D]⟩ ⟨2, ![E, 1]⟩ ⟨2, ![N, E]⟩ [0] [1] [] [1] [] 1 ![N, 1])
    (x : (⟨2, ![N, D]⟩ : Shape).Idx → α) (idx : IVec ⟨2, ![E, 1]⟩ w) (y : (⟨2, ![N, E]⟩ : Shape).Idx) :
    Host.gather (gcols N D E wf) x idx y
      = x (ix2 (y 0) ⟨min (idx (ix2 (y 1) (0 : Fin 1))).toInt.toNat (D - 1), by omega⟩) := by
  unfold Host.gather
  congr 1
  funext a
  refine Fin.ext ?_
  match a with
  | ⟨0, _⟩ =>
    show (gcols N D E wf).start y idx 0 + (gcols N D E wf).batchCoord y 0 + (gcols N D E wf).offCoord y 0 = (y 0).val
    rw [GatherDims.batchCoord_eq_zero _ _ _ List.not_mem_nil]
    have hs : (gcols N D E wf).start y idx 0 = 0 := by
      unfold GatherDims.start
      rw [dif_neg (show (0 : Fin 2) ∉ [(1 : Fin 2)] by decide)]
    rw [hs]
    simp only [Nat.add_zero, Nat.zero_add]
    unfold GatherDims.offCoord
    rw [dif_pos ((GatherDims.mem_sKept _ _).mpr ⟨(show (0 : Fin 2) ∉ [(1 : Fin 2)] by decide), List.not_mem_nil⟩)]
    rfl
  | ⟨1, _⟩ =>
    show (gcols N D E wf).start y idx 1 + (gcols N D E wf).batchCoord y 1 + (gcols N D E wf).offCoord y 1 = _
    rw [GatherDims.batchCoord_eq_zero _ _ _ List.not_mem_nil]
    rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (gcols N D E wf).startIndexMap from List.mem_singleton.mpr rfl)]
    have hsi : (gcols N D E wf).siIdx y ⟨List.idxOf (1 : Fin 2) (gcols N D E wf).startIndexMap,
        List.idxOf_lt_length_iff.2 (List.mem_singleton.mpr rfl)⟩ = ix2 (y 1) (0 : Fin 1) := by
      funext b; refine Fin.ext ?_
      match b with
      | ⟨0, _⟩ => rfl
      | ⟨1, _⟩ => rfl
    rw [hsi]
    rfl

/-- The same at a result index given by its coordinates. -/
theorem gather_cols_ix2 {N D E w : Nat} (hD : 0 < D)
    (wf : GatherDims.WF ⟨2, ![N, D]⟩ ⟨2, ![E, 1]⟩ ⟨2, ![N, E]⟩ [0] [1] [] [1] [] 1 ![N, 1])
    (x : (⟨2, ![N, D]⟩ : Shape).Idx → α) (idx : IVec ⟨2, ![E, 1]⟩ w) (k : Fin N) (e : Fin E) :
    Host.gather (gcols N D E wf) x idx (ix2 k e)
      = x (ix2 k ⟨min (idx (ix2 e (0 : Fin 1))).toInt.toNat (D - 1), by omega⟩) :=
  gather_cols_apply hD wf x idx (ix2 k e)

end GatherColumns

end Cert.KArr

end
-- ==== Proof.KHost.lean ====
/-
  The arrays the kernel's windows stage, as the region finds them, read at an index in terms of the program's
  arguments. The token array is the argument with its two leading axes merged: row T is token (T div 4096,
  T mod 4096). The projection matrix and bias are the arguments' with their columns gathered through the table
  (KTable.lean): column e holds the argument's column `table e`. The three other weight matrices are the
  arguments' (a change of float format is the identity on the extended reals), and each remaining vector is the
  argument's seen as one row.
-/
import proofs.«100041_j64132451663945_2_alg».proof.Proof.Gen.KernelIdeal.Frame
import proofs.«100041_j64132451663945_2_alg».proof.Proof.LibHostRead
import proofs.«100041_j64132451663945_2_alg».proof.Proof.KTable
import Idealize.ShloMosaic.Lib.ValueLayout
import Idealize.ShloMosaic.Lib.Pipeline.Value

noncomputable section

namespace Cert.KArr

open Cert.KernelIdeal Cert.KernelIdeal.Gen Idealize.ShloMosaic Idealize.ShloMosaic.TcCoe Idealize.SL.Sem
open Idealize.ShloMosaic.ValueIdx Idealize.ShloMosaic.HostRead

/-! ## The table as a column of start indices -/

/-- The start indices both gathers read are the table: the program would add 3072 to an entry under a mask, and
    the mask is false everywhere. -/
theorem tbl_at (e : Fin 3072) :
    (broadcastInDim S3072x1 ![0] bcast_S3072_S3072x1_0
      (select (constantI S3072 1 0#1)
        (addi (fun i => lit0 (S3072.rowMajor i)) (broadcastInDim S3072 ![] bcast_S_S3072 (constantI S_ 32 3072#32)))
        fun i => lit0 (S3072.rowMajor i)) : IVec S3072x1 32) (ix2 e (0 : Fin 1)) = lit0 e := by
  rw [broadcastInDim_apply _ bcast_S3072_S3072x1_0 _ (ix2 e (0 : Fin 1)) (ix1 e) (fun a => match a with
    | ⟨0, _⟩ => by show e.val = if (3072 : Nat) = 1 then 0 else e.val; rw [if_neg (by decide)])]
  rw [select_apply]
  show Scalar.select 0#1 _ _ = _
  rw [select_zero]
  exact congrArg lit0 (Fin.ext (Shape.rowMajor_val_one _))

/-- A gather of the matrix's columns through start indices that are the table: column `e` is column `table e`. -/
theorem gather_cols_tbl {α : Type} (x : S1024x3072.Idx → α) (idx : IVec S3072x1 32)
    (hidx : ∀ e : Fin 3072, idx (ix2 e (0 : Fin 1)) = lit0 e) (k : Fin 1024) (e : Fin 3072) :
    Host.gather gather_S1024x3072_S3072x1_S1024x3072_0_1_n_n_1_1_10241 x idx (ix2 k e) = x (ix2 k (table e)) := by
  refine (gather_cols_ix2 (by decide) gather_S1024x3072_S3072x1_S1024x3072_0_1_n_n_1_1_10241_wf x idx k e).trans ?_
  refine congrArg (fun j => x (ix2 k j)) (Fin.ext ?_)
  show min (idx (ix2 e (0 : Fin 1))).toInt.toNat (3072 - 1) = (table e).val
  rw [hidx]; exact clamp_table e

/-- A gather of the bias's entries through the table: entry `e` is entry `table e`. -/
theorem gather_rows_tbl {α : Type} (x : S3072.Idx → α) (idx : IVec S3072x1 32)
    (hidx : ∀ e : Fin 3072, idx (ix2 e (0 : Fin 1)) = lit0 e) (e : Fin 3072) :
    Host.gather gather_S3072_S3072x1_S3072_n_0_n_n_0_1_1 x idx (ix1 e) = x (ix1 (table e)) := by
  refine (gather_rows1_ix1 (by decide) gather_S3072_S3072x1_S3072_n_0_n_n_0_1_1_wf x idx e).trans ?_
  refine congrArg (fun j => x (ix1 j)) (Fin.ext ?_)
  show min (idx (ix2 e (0 : Fin 1))).toInt.toNat (3072 - 1) = (table e).val
  rw [hidx]; exact clamp_table e

/-! ## The staged arrays at the region's entry -/

variable (m : (ℓ : Loc nD τ sig) → Buf (Elt Ideal) ℓ)

/-- The token array: row `T` of the 16384 rows is token (T div 4096, T mod 4096). -/
theorem V_v0_at (c : Dev nD) (T : Fin 16384) (k : Fin 1024) :
    V m c main_v0 (ix2 T k)
      = m ((c : Thread nD τ).loc main_arg0) (ix3 (⟨T.val / 4096, by have := T.isLt; omega⟩ : Fin 4) (⟨T.val % 4096, by omega⟩ : Fin 4096) k) := by
  show StableHlo.after hostOps0 (fun b => m (c, b)) (Proc.devRef .tc main_v0) (ix2 T k) = _
  after_results
  show shapeCast S16384x1024 (m (c, Proc.devRef .tc main_arg0)) shapeCasts_S4x4096x1024_S16384x1024 (ix2 T k) = _
  exact shapeCast_apply _ _ _ _ (by
    show (S4x4096x1024.rowMajor (ix3 (⟨T.val / 4096, _⟩ : Fin 4) (⟨T.val % 4096, _⟩ : Fin 4096) k)).val
      = (S16384x1024.rowMajor (ix2 T k)).val
    rw [Shape.rowMajor_val_three, Shape.rowMajor_val_two]
    show (T.val / 4096 * 4096 + T.val % 4096) * 1024 + k.val = T.val * 1024 + k.val
    omega)

/-- The projection matrix: column `e` is the argument's column `table e`. -/
theorem V_v11_at (c : Dev nD) (k : Fin 1024) (e : Fin 3072) :
    V m c main_v11 (ix2 k e) = m ((c : Thread nD τ).loc main_arg1) (ix2 k (table e)) := by
  show StableHlo.after hostOps0 (fun b => m (c, b)) (Proc.devRef .tc main_v11) (ix2 k e) = _
  after_results
  show Host.gather gather_S1024x3072_S3072x1_S1024x3072_0_1_n_n_1_1_10241 (m (c, Proc.devRef .tc main_arg1)) _ (ix2 k e) = _
  exact gather_cols_tbl _ _ tbl_at k e

/-- The projection bias, as one row: entry `e` is the argument's entry `table e`. -/
theorem V_v15_at (c : Dev nD) (u : Fin 1) (e : Fin 3072) :
    V m c main_v15 (ix2 u e) = m ((c : Thread nD τ).loc main_arg2) (ix1 (table e)) := by
  show StableHlo.after hostOps0 (fun b => m (c, b)) (Proc.devRef .tc main_v15) (ix2 u e) = _
  after_results
  show shapeCast S1x3072 (Host.gather gather_S3072_S3072x1_S3072_n_0_n_n_0_1_1 (m (c, Proc.devRef .tc main_arg2)) _)
    shapeCasts_S3072_S1x3072 (ix2 u e) = _
  refine (shapeCast_a_1a_apply _ _ u e).trans ?_
  exact gather_rows_tbl _ _ tbl_at e

/-- The output map's matrix is the argument's. -/
theorem V_v12_at (c : Dev nD) (i : S1024x1024.Idx) : V m c main_v12 i = m ((c : Thread nD τ).loc main_arg3) i := by
  show StableHlo.after hostOps0 (fun b => m (c, b)) (Proc.devRef .tc main_v12) i = _
  after_results
  rfl

/-- The first feed-forward matrix is the argument's. -/
theorem V_v13_at (c : Dev nD) (i : S1024x4096.Idx) : V m c main_v13 i = m ((c : Thread nD τ).loc main_arg5) i := by
  show StableHlo.after hostOps0 (fun b => m (c, b)) (Proc.devRef .tc main_v13) i = _
  after_results
  rfl

/-- The second feed-forward matrix is the argument's. -/
theorem V_v14_at (c : Dev nD) (i : S4096x1024.Idx) : V m c main_v14 i = m ((c : Thread nD τ).loc main_arg7) i := by
  show StableHlo.after hostOps0 (fun b => m (c, b)) (Proc.devRef .tc main_v14) i = _
  after_results
  rfl

/-- The output map's bias, as one row. -/
theorem V_v16_at (c : Dev nD) (u : Fin 1) (e : Fin 1024) :
    V m c main_v16 (ix2 u e) = m ((c : Thread nD τ).loc main_arg4) (ix1 e) := by
  show StableHlo.after hostOps0 (fun b => m (c, b)) (Proc.devRef .tc main_v16) (ix2 u e) = _
  after_results
  show shapeCast S1x1024 (m (c, Proc.devRef .tc main_arg4)) shapeCasts_S1024_S1x1024 (ix2 u e) = _
  exact shapeCast_a_1a_apply _ _ u e

/-- The first feed-forward bias, as one row. -/
theorem V_v17_at (c : Dev nD) (u : Fin 1) (e : Fin 4096) :
    V m c main_v17 (ix2 u e) = m ((c : Thread nD τ).loc main_arg6) (ix1 e) := by
  show StableHlo.after hostOps0 (fun b => m (c, b)) (Proc.devRef .tc main_v17) (ix2 u e) = _
  after_results
  show shapeCast S1x4096 (m (c, Proc.devRef .tc main_arg6)) shapeCasts_S4096_S1x4096 (ix2 u e) = _
  exact shapeCast_a_1a_apply _ _ u e

/-- The second feed-forward bias, as one row. -/
theorem V_v18_at (c : Dev nD) (u : Fin 1) (e : Fin 1024) :
    V m c main_v18 (ix2 u e) = m ((c : Thread nD τ).loc main_arg8) (ix1 e) := by
  show StableHlo.after hostOps0 (fun b => m (c, b)) (Proc.devRef .tc main_v18) (ix2 u e) = _
  after_results
  show shapeCast S1x1024 (m (c, Proc.devRef .tc main_arg8)) shapeCasts_S1024_S1x1024 (ix2 u e) = _
  exact shapeCast_a_1a_apply _ _ u e

/-- The first normalisation's scale, as one row. -/
theorem V_v19_at (c : Dev nD) (u : Fin 1) (e : Fin 1024) :
    V m c main_v19 (ix2 u e) = m ((c : Thread nD τ).loc main_arg9) (ix1 e) := by
  show StableHlo.after hostOps0 (fun b => m (c, b)) (Proc.devRef .tc main_v19) (ix2 u e) = _
  after_results
  show shapeCast S1x1024 (m (c, Proc.devRef .tc main_arg9)) shapeCasts_S1024_S1x1024 (ix2 u e) = _
  exact shapeCast_a_1a_apply _ _ u e

/-- The first normalisation's shift, as one row. -/
theorem V_v20_at (c : Dev nD) (u : Fin 1) (e : Fin 1024) :
    V m c main_v20 (ix2 u e) = m ((c : Thread nD τ).loc main_arg10) (ix1 e) := by
  show StableHlo.after hostOps0 (fun b => m (c, b)) (Proc.devRef .tc main_v20) (ix2 u e) = _
  after_results
  show shapeCast S1x1024 (m (c, Proc.devRef .tc main_arg10)) shapeCasts_S1024_S1x1024 (ix2 u e) = _
  exact shapeCast_a_1a_apply _ _ u e

/-- The second normalisation's scale, as one row. -/
theorem V_v21_at (c : Dev nD) (u : Fin 1) (e : Fin 1024) :
    V m c main_v21 (ix2 u e) = m ((c : Thread nD τ).loc main_arg11) (ix1 e) := by
  show StableHlo.after hostOps0 (fun b => m (c, b)) (Proc.devRef .tc main_v21) (ix2 u e) = _
  after_results
  show shapeCast S1x1024 (m (c, Proc.devRef .tc main_arg11)) shapeCasts_S1024_S1x1024 (ix2 u e) = _
  exact shapeCast_a_1a_apply _ _ u e

/-- The second normalisation's shift, as one row. -/
theorem V_v22_at (c : Dev nD) (u : Fin 1) (e : Fin 1024) :
    V m c main_v22 (ix2 u e) = m ((c : Thread nD τ).loc main_arg12) (ix1 e) := by
  show StableHlo.after hostOps0 (fun b => m (c, b)) (Proc.devRef .tc main_v22) (ix2 u e) = _
  after_results
  show shapeCast S1x1024 (m (c, Proc.devRef .tc main_arg12)) shapeCasts_S1024_S1x1024 (ix2 u e) = _
  exact shapeCast_a_1a_apply _ _ u e

end Cert.KArr

end
-- ==== Proof.LibSoftmax.lean ====
/-
  A softmax over the last axis of a rank-3 block `[a, b, c]`, as vector operations spell it — the maximum over the
  axis (guarded once more against its own starting value), the exponentials of the differences, their sum, the
  quotient — read at an index `(r, g, d)` at the exact (extended-real) instance. Generic in the extents and in the
  two accumulator words.
-/
import proofs.«100041_j64132451663945_2_alg».proof.Proof.LibRows

noncomputable section

namespace Idealize.ShloMosaic.RowsRead

open Idealize.ShloMosaic Idealize.ShloMosaic.ValueIdx
open scoped BigOperators

/-- The guarded maximum of row `(r, g)`. -/
def lastMax {a b c : Nat} {φ : FTy} (S : FVec Ideal ⟨3, ![a, b, c]⟩ φ) (nw : BitVec φ.bits) (r : Fin a) (g : Fin b) : EReal :=
  max (Ideal.ofBits φ nw) ((Finset.univ : Finset (Fin c)).fold max (Ideal.ofBits φ nw) (fun d => S (ix3 r g d)))

/-- The row maximum as the vector operations leave it, spread back over the row. -/
theorem spread_max_last3 {a b c : Nat} {φ : FTy} (S : FVec Ideal ⟨3, ![a, b, c]⟩ φ) (nw : BitVec φ.bits)
    (hr : (⟨3, ![a, b, c]⟩ : Shape).Reduces [2] ⟨2, ![a, b]⟩) (hφ : FKind.Formats φ) (hn : nw = FKind.maximumf.neutral φ hφ)
    (hc : (⟨2, ![a, b]⟩ : Shape).ShapeCasts ⟨3, ![a, b, 1]⟩) (hb : (⟨3, ![a, b, 1]⟩ : Shape).Broadcasts ⟨3, ![a, b, c]⟩)
    (r : Fin a) (g : Fin b) (d : Fin c) :
    broadcastTo ⟨3, ![a, b, c]⟩ (shapeCast ⟨3, ![a, b, 1]⟩
        (maximumf (broadcast ⟨2, ![a, b]⟩ (Scalar.ofBits φ nw)) (multiReduction .maximumf [2] ⟨2, ![a, b]⟩ S nw hr hφ hn)) hc) hb
        (ix3 r g d) = lastMax S nw r g := by
  rw [bcast_ab1, cast_ab_ab1, maximumf_apply, max_last3]
  rfl

/-- THE SOFTMAX over the last axis, at `(r, g, d)`. -/
theorem softmax_last3 {a b c : Nat} {φ : FTy} (S : FVec Ideal ⟨3, ![a, b, c]⟩ φ) (nw zw : BitVec φ.bits)
    (hr : (⟨3, ![a, b, c]⟩ : Shape).Reduces [2] ⟨2, ![a, b]⟩) (hφ : FKind.Formats φ) (hn : nw = FKind.maximumf.neutral φ hφ)
    (hz : zw = FKind.add.neutral φ hφ)
    (hc : (⟨2, ![a, b]⟩ : Shape).ShapeCasts ⟨3, ![a, b, 1]⟩) (hb : (⟨3, ![a, b, 1]⟩ : Shape).Broadcasts ⟨3, ![a, b, c]⟩)
    (r : Fin a) (g : Fin b) (d : Fin c) :
    divf
        (exp (subf S (broadcastTo ⟨3, ![a, b, c]⟩ (shapeCast ⟨3, ![a, b, 1]⟩
          (maximumf (broadcast ⟨2, ![a, b]⟩ (Scalar.ofBits φ nw)) (multiReduction .maximumf [2] ⟨2, ![a, b]⟩ S nw hr hφ hn)) hc) hb)))
        (broadcastTo ⟨3, ![a, b, c]⟩ (shapeCast ⟨3, ![a, b, 1]⟩
          (multiReduction .add [2] ⟨2, ![a, b]⟩
            (exp (subf S (broadcastTo ⟨3, ![a, b, c]⟩ (shapeCast ⟨3, ![a, b, 1]⟩
              (maximumf (broadcast ⟨2, ![a, b]⟩ (Scalar.ofBits φ nw)) (multiReduction .maximumf [2] ⟨2, ![a, b]⟩ S nw hr hφ hn)) hc) hb)))
            zw hr hφ hz) hc) hb)
        (ix3 r g d)
      = Ideal.div (Ideal.exp (S (ix3 r g d) - lastMax S nw r g))
          (∑ d' : Fin c, Ideal.exp (S (ix3 r g d') - lastMax S nw r g)) := by
  have hexp : ∀ d' : Fin c,
      exp (subf S (broadcastTo ⟨3, ![a, b, c]⟩ (shapeCast ⟨3, ![a, b, 1]⟩
          (maximumf (broadcast ⟨2, ![a, b]⟩ (Scalar.ofBits φ nw)) (multiReduction .maximumf [2] ⟨2, ![a, b]⟩ S nw hr hφ hn)) hc) hb))
        (ix3 r g d') = Ideal.exp (S (ix3 r g d') - lastMax S nw r g) := fun d' => by
    show Ideal.exp (S (ix3 r g d') - _) = _
    rw [spread_max_last3 S nw hr hφ hn hc hb r g d']
  rw [divf_apply, hexp d, bcast_ab1, cast_ab_ab1, sum_last3]
  exact congrArg _ (Finset.sum_congr rfl fun d' _ => hexp d')

end Idealize.ShloMosaic.RowsRead

end
-- ==== Proof.PayScore.lean ====
/-
  The kernel's score rows on one block of 256 tokens, read at an index. For each query head the kernel multiplies
  that head's 64 channels, repeated along the head axis, with every key head's channels and sums over the channels:
  at (r, g) the dot product of the query head with key head g. The sixteen rows are stacked along a middle axis,
  scaled by an eighth, and each row's softmax over the key heads is taken.
-/
import proofs.«100041_j64132451663945_2_alg».proof.Proof.Gen.KernelIdeal.Skeleton
import proofs.«100041_j64132451663945_2_alg».proof.Proof.Spec
import proofs.«100041_j64132451663945_2_alg».proof.Proof.LibRows
import proofs.«100041_j64132451663945_2_alg».proof.Proof.LibMatmul
import Idealize.ShloMosaic.Lib.ValueLayout
import proofs.«100041_j64132451663945_2_alg».proof.Proof.LibSoftmax
import proofs.«100041_j64132451663945_2_alg».proof.Proof.PayProj

noncomputable section

namespace Cert.KRow

open Cert.KernelIdeal Cert.KernelIdeal.Gen Idealize.ShloMosaic Idealize.ShloMosaic.ValueIdx
open Idealize.ShloMosaic.RowsRead Idealize.ShloMosaic.MatmulRead Cert.Enc
open scoped BigOperators

/-- Query head 0 against key head `g`. -/
theorem pay7_at (x0 : Vec Ideal S256x1024 .f32) (x1 : Vec Ideal S1024x3072 .bf16) (x2 : Vec Ideal S1x3072 .f32) (r : Fin 256) (g : Fin 16) :
    k0_pay7 (F := Ideal) x0 x1 x2 (ix2 r g)
      = ∑ d : Fin 64, k0_pay4 (F := Ideal) x0 x1 x2 (ix3 r 0 d) * k0_pay5 (F := Ideal) x0 x1 x2 (ix3 r g d) := by
  unfold k0_pay7
  exact head_scores _ _ 0 _ _ _ _ _ _ r g 0 rfl

/-- Query head 1 against key head `g`. -/
theorem pay8_at (x0 : Vec Ideal S256x1024 .f32) (x1 : Vec Ideal S1024x3072 .bf16) (x2 : Vec Ideal S1x3072 .f32) (r : Fin 256) (g : Fin 16) :
    k0_pay8 (F := Ideal) x0 x1 x2 (ix2 r g)
      = ∑ d : Fin 64, k0_pay4 (F := Ideal) x0 x1 x2 (ix3 r 1 d) * k0_pay5 (F := Ideal) x0 x1 x2 (ix3 r g d) := by
  unfold k0_pay8
  exact head_scores _ _ 1 _ _ _ _ _ _ r g 1 rfl

/-- Query head 2 against key head `g`. -/
theorem pay9_at (x0 : Vec Ideal S256x1024 .f32) (x1 : Vec Ideal S1024x3072 .bf16) (x2 : Vec Ideal S1x3072 .f32) (r : Fin 256) (g : Fin 16) :
    k0_pay9 (F := Ideal) x0 x1 x2 (ix2 r g)
      = ∑ d : Fin 64, k0_pay4 (F := Ideal) x0 x1 x2 (ix3 r 2 d) * k0_pay5 (F := Ideal) x0 x1 x2 (ix3 r g d) := by
  unfold k0_pay9
  exact head_scores _ _ 2 _ _ _ _ _ _ r g 2 rfl

/-- Query head 3 against key head `g`. -/
theorem pay10_at (x0 : Vec Ideal S256x1024 .f32) (x1 : Vec Ideal S1024x3072 .bf16) (x2 : Vec Ideal S1x3072 .f32) (r : Fin 256) (g : Fin 16) :
    k0_pay10 (F := Ideal) x0 x1 x2 (ix2 r g)
      = ∑ d : Fin 64, k0_pay4 (F := Ideal) x0 x1 x2 (ix3 r 3 d) * k0_pay5 (F := Ideal) x0 x1 x2 (ix3 r g d) := by
  unfold k0_pay10
  exact head_scores _ _ 3 _ _ _ _ _ _ r g 3 rfl

/-- Query head 4 against key head `g`. -/
theorem pay11_at (x0 : Vec Ideal S256x1024 .f32) (x1 : Vec Ideal S1024x3072 .bf16) (x2 : Vec Ideal S1x3072 .f32) (r : Fin 256) (g : Fin 16) :
    k0_pay11 (F := Ideal) x0 x1 x2 (ix2 r g)
      = ∑ d : Fin 64, k0_pay4 (F := Ideal) x0 x1 x2 (ix3 r 4 d) * k0_pay5 (F := Ideal) x0 x1 x2 (ix3 r g d) := by
  unfold k0_pay11
  exact head_scores _ _ 4 _ _ _ _ _ _ r g 4 rfl

/-- Query head 5 against key head `g`. -/
theorem pay12_at (x0 : Vec Ideal S256x1024 .f32) (x1 : Vec Ideal S1024x3072 .bf16) (x2 : Vec Ideal S1x3072 .f32) (r : Fin 256) (g : Fin 16) :
    k0_pay12 (F := Ideal) x0 x1 x2 (ix2 r g)
      = ∑ d : Fin 64, k0_pay4 (F := Ideal) x0 x1 x2 (ix3 r 5 d) * k0_pay5 (F := Ideal) x0 x1 x2 (ix3 r g d) := by
  unfold k0_pay12
  exact head_scores _ _ 5 _ _ _ _ _ _ r g 5 rfl

/-- Query head 6 against key head `g`. -/
theorem pay13_at (x0 : Vec Ideal S256x1024 .f32) (x1 : Vec Ideal S1024x3072 .bf16) (x2 : Vec Ideal S1x3072 .f32) (r : Fin 256) (g : Fin 16) :
    k0_pay13 (F := Ideal) x0 x1 x2 (ix2 r g)
      = ∑ d : Fin 64, k0_pay4 (F := Ideal) x0 x1 x2 (ix3 r 6 d) * k0_pay5 (F := Ideal) x0 x1 x2 (ix3 r g d) := by
  unfold k0_pay13
  exact head_scores _ _ 6 _ _ _ _ _ _ r g 6 rfl

/-- Query head 7, sliced out. -/
theorem pay14_at (x0 : Vec Ideal S256x1024 .f32) (x1 : Vec Ideal S1024x3072 .bf16) (x2 : Vec Ideal S1x3072 .f32) (r : Fin 256) (d : Fin 64) :
    k0_pay14 (F := Ideal) x0 x1 x2 (ix3 r (0 : Fin 1) d) = k0_pay4 (F := Ideal) x0 x1 x2 (ix3 r 7 d) := by
  unfold k0_pay14
  exact slice_mid1 7 _ _ r d 7 rfl

/-- A score row given a middle unit axis. -/
theorem pay15_at (v : FVec Ideal S256x16 .f32) (r : Fin 256) (g : Fin 16) :
    k0_pay15 (F := Ideal) v (ix3 r (0 : Fin 1) g) = v (ix2 r g) := by
  unfold k0_pay15
  exact cast_ab_a1b v _ r g

/-- A score row given a middle unit axis. -/
theorem pay16_at (v : FVec Ideal S256x16 .f32) (r : Fin 256) (g : Fin 16) :
    k0_pay16 (F := Ideal) v (ix3 r (0 : Fin 1) g) = v (ix2 r g) := by
  unfold k0_pay16
  exact cast_ab_a1b v _ r g

/-- A score row given a middle unit axis. -/
theorem pay17_at (v : FVec Ideal S256x16 .f32) (r : Fin 256) (g : Fin 16) :
    k0_pay17 (F := Ideal) v (ix3 r (0 : Fin 1) g) = v (ix2 r g) := by
  unfold k0_pay17
  exact cast_ab_a1b v _ r g

/-- A score row given a middle unit axis. -/
theorem pay18_at (v : FVec Ideal S256x16 .f32) (r : Fin 256) (g : Fin 16) :
    k0_pay18 (F := Ideal) v (ix3 r (0 : Fin 1) g) = v (ix2 r g) := by
  unfold k0_pay18
  exact cast_ab_a1b v _ r g

/-- A score row given a middle unit axis. -/
theorem pay19_at (v : FVec Ideal S256x16 .f32) (r : Fin 256) (g : Fin 16) :
    k0_pay19 (F := Ideal) v (ix3 r (0 : Fin 1) g) = v (ix2 r g) := by
  unfold k0_pay19
  exact cast_ab_a1b v _ r g

/-- A score row given a middle unit axis. -/
theorem pay20_at (v : FVec Ideal S256x16 .f32) (r : Fin 256) (g : Fin 16) :
    k0_pay20 (F := Ideal) v (ix3 r (0 : Fin 1) g) = v (ix2 r g) := by
  unfold k0_pay20
  exact cast_ab_a1b v _ r g

/-- A score row given a middle unit axis. -/
theorem pay21_at (v : FVec Ideal S256x16 .f32) (r : Fin 256) (g : Fin 16) :
    k0_pay21 (F := Ideal) v (ix3 r (0 : Fin 1) g) = v (ix2 r g) := by
  unfold k0_pay21
  exact cast_ab_a1b v _ r g

/-- The sliced query head against key head `g`. -/
theorem pay22_at (v13 : FVec Ideal S256x16x64 .f32) (v44 : FVec Ideal S256x1x64 .f32) (r : Fin 256) (g : Fin 16) :
    k0_pay22 (F := Ideal) v13 v44 (ix3 r (0 : Fin 1) g) = ∑ d : Fin 64, v44 (ix3 r (0 : Fin 1) d) * v13 (ix3 r g d) := by
  unfold k0_pay22
  dsimp only
  rw [cast_ab_a1b]
  exact slice_scores v44 v13 _ _ _ _ _ r g

/-- Query head 8 against key head `g`. -/
theorem pay23_at (v11 v13 : FVec Ideal S256x16x64 .f32) (r : Fin 256) (g : Fin 16) :
    k0_pay23 (F := Ideal) v11 v13 (ix3 r (0 : Fin 1) g) = ∑ d : Fin 64, v11 (ix3 r 8 d) * v13 (ix3 r g d) := by
  unfold k0_pay23
  dsimp only
  rw [cast_ab_a1b]
  exact head_scores v11 v13 8 _ _ _ _ _ _ r g 8 rfl

/-- Query head 9 against key head `g`. -/
theorem pay24_at (v11 v13 : FVec Ideal S256x16x64 .f32) (r : Fin 256) (g : Fin 16) :
    k0_pay24 (F := Ideal) v11 v13 (ix3 r (0 : Fin 1) g) = ∑ d : Fin 64, v11 (ix3 r 9 d) * v13 (ix3 r g d) := by
  unfold k0_pay24
  dsimp only
  rw [cast_ab_a1b]
  exact head_scores v11 v13 9 _ _ _ _ _ _ r g 9 rfl

/-- Query head 10 against key head `g`. -/
theorem pay25_at (v11 v13 : FVec Ideal S256x16x64 .f32) (r : Fin 256) (g : Fin 16) :
    k0_pay25 (F := Ideal) v11 v13 (ix3 r (0 : Fin 1) g) = ∑ d : Fin 64, v11 (ix3 r 10 d) * v13 (ix3 r g d) := by
  unfold k0_pay25
  dsimp only
  rw [cast_ab_a1b]
  exact head_scores v11 v13 10 _ _ _ _ _ _ r g 10 rfl

/-- Query head 11 against key head `g`. -/
theorem pay26_at (v11 v13 : FVec Ideal S256x16x64 .f32) (r : Fin 256) (g : Fin 16) :
    k0_pay26 (F := Ideal) v11 v13 (ix3 r (0 : Fin 1) g) = ∑ d : Fin 64, v11 (ix3 r 11 d) * v13 (ix3 r g d) := by
  unfold k0_pay26
  dsimp only
  rw [cast_ab_a1b]
  exact head_scores v11 v13 11 _ _ _ _ _ _ r g 11 rfl

/-- Query head 12 against key head `g`. -/
theorem pay27_at (v11 v13 : FVec Ideal S256x16x64 .f32) (r : Fin 256) (g : Fin 16) :
    k0_pay27 (F := Ideal) v11 v13 (ix3 r (0 : Fin 1) g) = ∑ d : Fin 64, v11 (ix3 r 12 d) * v13 (ix3 r g d) := by
  unfold k0_pay27
  dsimp only
  rw [cast_ab_a1b]
  exact head_scores v11 v13 12 _ _ _ _ _ _ r g 12 rfl

/-- Query head 13 against key head `g`. -/
theorem pay28_at (v11 v13 : FVec Ideal S256x16x64 .f32) (r : Fin 256) (g : Fin 16) :
    k0_pay28 (F := Ideal) v11 v13 (ix3 r (0 : Fin 1) g) = ∑ d : Fin 64, v11 (ix3 r 13 d) * v13 (ix3 r g d) := by
  unfold k0_pay28
  dsimp only
  rw [cast_ab_a1b]
  exact head_scores v11 v13 13 _ _ _ _ _ _ r g 13 rfl

/-- Query head 14 against key head `g`. -/
theorem pay29_at (v11 v13 : FVec Ideal S256x16x64 .f32) (r : Fin 256) (g : Fin 16) :
    k0_pay29 (F := Ideal) v11 v13 (ix3 r (0 : Fin 1) g) = ∑ d : Fin 64, v11 (ix3 r 14 d) * v13 (ix3 r g d) := by
  unfold k0_pay29
  dsimp only
  rw [cast_ab_a1b]
  exact head_scores v11 v13 14 _ _ _ _ _ _ r g 14 rfl

/-- Query head 15 against key head `g`. -/
theorem pay30_at (v11 v13 : FVec Ideal S256x16x64 .f32) (r : Fin 256) (g : Fin 16) :
    k0_pay30 (F := Ideal) v11 v13 (ix3 r (0 : Fin 1) g) = ∑ d : Fin 64, v11 (ix3 r 15 d) * v13 (ix3 r g d) := by
  unfold k0_pay30
  dsimp only
  rw [cast_ab_a1b]
  exact head_scores v11 v13 15 _ _ _ _ _ _ r g 15 rfl

/-- The sixteen score rows stacked along a middle axis and scaled by an eighth. -/
def scaled (v80 v81 v82 v83 v84 v85 v86 v87 v88 v89 v90 v91 v92 v93 v94 v95 : FVec Ideal S256x1x16 .f32) : FVec Ideal S256x16x16 .f32 :=
  mulf (concatenate S256x16x16 1 [⟨S256x1x16, v80⟩, ⟨S256x1x16, v81⟩, ⟨S256x1x16, v82⟩, ⟨S256x1x16, v83⟩, ⟨S256x1x16, v84⟩, ⟨S256x1x16, v85⟩, ⟨S256x1x16, v86⟩, ⟨S256x1x16, v87⟩, ⟨S256x1x16, v88⟩, ⟨S256x1x16, v89⟩, ⟨S256x1x16, v90⟩, ⟨S256x1x16, v91⟩, ⟨S256x1x16, v92⟩, ⟨S256x1x16, v93⟩, ⟨S256x1x16, v94⟩, ⟨S256x1x16, v95⟩] concatenates_S256x1x16_S256x1x16_S256x1x16_S256x1x16_S256x1x16_S256x1x16_S256x1x16_S256x1x16_S256x1x16_S256x1x16_S256x1x16_S256x1x16_S256x1x16_S256x1x16_S256x1x16_S256x1x16_S256x16x16_d1)
    (broadcast S256x16x16 (Scalar.ofBits .f32 0x3E000000#32))

/-- Row `h` of the stack is piece `h`. -/
theorem scaled_at (v80 v81 v82 v83 v84 v85 v86 v87 v88 v89 v90 v91 v92 v93 v94 v95 : FVec Ideal S256x1x16 .f32) (r : Fin 256) (h g : Fin 16) :
    scaled v80 v81 v82 v83 v84 v85 v86 v87 v88 v89 v90 v91 v92 v93 v94 v95 (ix3 r h g) = (![v80, v81, v82, v83, v84, v85, v86, v87, v88, v89, v90, v91, v92, v93, v94, v95] h) (ix3 r (0 : Fin 1) g) * wEighth := by
  unfold scaled
  rw [mulf_apply]
  exact congrArg (· * wEighth) (stack_mid (fun n : Fin 16 => (![v80, v81, v82, v83, v84, v85, v86, v87, v88, v89, v90, v91, v92, v93, v94, v95] n)) _ r h g)

/-- The stacked, scaled score rows' softmax: row `h` at key head `g`. -/
theorem pay31_at (v80 v81 v82 v83 v84 v85 v86 v87 v88 v89 v90 v91 v92 v93 v94 v95 : FVec Ideal S256x1x16 .f32) (r : Fin 256) (h g : Fin 16) :
    k0_pay31 (F := Ideal) v80 v81 v82 v83 v84 v85 v86 v87 v88 v89 v90 v91 v92 v93 v94 v95 (ix3 r h g)
      = softmax (fun g' => (![v80, v81, v82, v83, v84, v85, v86, v87, v88, v89, v90, v91, v92, v93, v94, v95] h) (ix3 r (0 : Fin 1) g') * wEighth) g := by
  unfold k0_pay31
  refine (softmax_last3 (scaled v80 v81 v82 v83 v84 v85 v86 v87 v88 v89 v90 v91 v92 v93 v94 v95) 0xFF800000#32 0x00000000#32 reduces_S256x16x16_S256x16 (.inl rfl) rfl rfl
    shapeCasts_S256x16_S256x16x1 broadcasts_S256x16x1_S256x16x16 r h g).trans ?_
  unfold softmax expRow rowMax lastMax
  simp only [scaled_at]

end Cert.KRow

end
-- ==== Proof.PayCtx.lean ====
/-
  The kernel's context on one block of 256 tokens, read at an index. For each query head the kernel takes that
  head's row of attention weights, spreads it along the 64 channels, multiplies with every value head's channels
  and sums over the value heads: at (r, d), `∑ g, weight (r, h, g) · value (r, g, d)`. The sixteen rows are stacked
  along a middle axis and laid flat, head-major; an affine map and the residual follow.
-/
import proofs.«100041_j64132451663945_2_alg».proof.Proof.Gen.KernelIdeal.Skeleton
import proofs.«100041_j64132451663945_2_alg».proof.Proof.Spec
import proofs.«100041_j64132451663945_2_alg».proof.Proof.LibRows
import proofs.«100041_j64132451663945_2_alg».proof.Proof.LibMatmul
import Idealize.ShloMosaic.Lib.ValueLayout
import proofs.«100041_j64132451663945_2_alg».proof.Proof.PayScore

noncomputable section

namespace Cert.KRow

open Cert.KernelIdeal Cert.KernelIdeal.Gen Idealize.ShloMosaic Idealize.ShloMosaic.ValueIdx
open Idealize.ShloMosaic.RowsRead Idealize.ShloMosaic.MatmulRead Cert.Enc
open scoped BigOperators

/-- The context of head 0, the weights taken from the stacked score rows. -/
theorem pay32_at (v15 : FVec Ideal S256x16x64 .f32) (v80 v81 v82 v83 v84 v85 v86 v87 v88 v89 v90 v91 v92 v93 v94 v95 : FVec Ideal S256x1x16 .f32) (r : Fin 256) (d : Fin 64) :
    k0_pay32 (F := Ideal) v15 v80 v81 v82 v83 v84 v85 v86 v87 v88 v89 v90 v91 v92 v93 v94 v95 (ix2 r d)
      = ∑ g : Fin 16, k0_pay31 (F := Ideal) v80 v81 v82 v83 v84 v85 v86 v87 v88 v89 v90 v91 v92 v93 v94 v95 (ix3 r 0 g) * v15 (ix3 r g d) := by
  unfold k0_pay32
  exact head_context _ v15 0 _ _ _ _ _ _ _ _ r d 0 rfl

/-- The context of head 1, the weights taken from the stacked score rows. -/
theorem pay33_at (v15 : FVec Ideal S256x16x64 .f32) (v80 v81 v82 v83 v84 v85 v86 v87 v88 v89 v90 v91 v92 v93 v94 v95 : FVec Ideal S256x1x16 .f32) (r : Fin 256) (d : Fin 64) :
    k0_pay33 (F := Ideal) v15 v80 v81 v82 v83 v84 v85 v86 v87 v88 v89 v90 v91 v92 v93 v94 v95 (ix2 r d)
      = ∑ g : Fin 16, k0_pay31 (F := Ideal) v80 v81 v82 v83 v84 v85 v86 v87 v88 v89 v90 v91 v92 v93 v94 v95 (ix3 r 1 g) * v15 (ix3 r g d) := by
  unfold k0_pay33
  exact head_context _ v15 1 _ _ _ _ _ _ _ _ r d 1 rfl

/-- The context of head 2, the weights taken from the stacked score rows. -/
theorem pay34_at (v15 : FVec Ideal S256x16x64 .f32) (v80 v81 v82 v83 v84 v85 v86 v87 v88 v89 v90 v91 v92 v93 v94 v95 : FVec Ideal S256x1x16 .f32) (r : Fin 256) (d : Fin 64) :
    k0_pay34 (F := Ideal) v15 v80 v81 v82 v83 v84 v85 v86 v87 v88 v89 v90 v91 v92 v93 v94 v95 (ix2 r d)
      = ∑ g : Fin 16, k0_pay31 (F := Ideal) v80 v81 v82 v83 v84 v85 v86 v87 v88 v89 v90 v91 v92 v93 v94 v95 (ix3 r 2 g) * v15 (ix3 r g d) := by
  unfold k0_pay34
  exact head_context _ v15 2 _ _ _ _ _ _ _ _ r d 2 rfl

/-- The context of head 3, the weights taken from the stacked score rows. -/
theorem pay35_at (v15 : FVec Ideal S256x16x64 .f32) (v80 v81 v82 v83 v84 v85 v86 v87 v88 v89 v90 v91 v92 v93 v94 v95 : FVec Ideal S256x1x16 .f32) (r : Fin 256) (d : Fin 64) :
    k0_pay35 (F := Ideal) v15 v80 v81 v82 v83 v84 v85 v86 v87 v88 v89 v90 v91 v92 v93 v94 v95 (ix2 r d)
      = ∑ g : Fin 16, k0_pay31 (F := Ideal) v80 v81 v82 v83 v84 v85 v86 v87 v88 v89 v90 v91 v92 v93 v94 v95 (ix3 r 3 g) * v15 (ix3 r g d) := by
  unfold k0_pay35
  exact head_context _ v15 3 _ _ _ _ _ _ _ _ r d 3 rfl

/-- The context of head 4, the weights taken from the stacked score rows. -/
theorem pay36_at (v15 : FVec Ideal S256x16x64 .f32) (v80 v81 v82 v83 v84 v85 v86 v87 v88 v89 v90 v91 v92 v93 v94 v95 : FVec Ideal S256x1x16 .f32) (r : Fin 256) (d : Fin 64) :
    k0_pay36 (F := Ideal) v15 v80 v81 v82 v83 v84 v85 v86 v87 v88 v89 v90 v91 v92 v93 v94 v95 (ix2 r d)
      = ∑ g : Fin 16, k0_pay31 (F := Ideal) v80 v81 v82 v83 v84 v85 v86 v87 v88 v89 v90 v91 v92 v93 v94 v95 (ix3 r 4 g) * v15 (ix3 r g d) := by
  unfold k0_pay36
  exact head_context _ v15 4 _ _ _ _ _ _ _ _ r d 4 rfl

/-- The context of head 5, the weights taken from the stacked score rows. -/
theorem pay37_at (v15 : FVec Ideal S256x16x64 .f32) (v80 v81 v82 v83 v84 v85 v86 v87 v88 v89 v90 v91 v92 v93 v94 v95 : FVec Ideal S256x1x16 .f32) (r : Fin 256) (d : Fin 64) :
    k0_pay37 (F := Ideal) v15 v80 v81 v82 v83 v84 v85 v86 v87 v88 v89 v90 v91 v92 v93 v94 v95 (ix2 r d)
      = ∑ g : Fin 16, k0_pay31 (F := Ideal) v80 v81 v82 v83 v84 v85 v86 v87 v88 v89 v90 v91 v92 v93 v94 v95 (ix3 r 5 g) * v15 (ix3 r g d) := by
  unfold k0_pay37
  exact head_context _ v15 5 _ _ _ _ _ _ _ _ r d 5 rfl

/-- The context of head 6. -/
theorem pay38_at (v15 : FVec Ideal S256x16x64 .f32) (v109 : FVec Ideal S256x16x16 .f32) (r : Fin 256) (d : Fin 64) :
    k0_pay38 (F := Ideal) v15 v109 (ix2 r d) = ∑ g : Fin 16, v109 (ix3 r 6 g) * v15 (ix3 r g d) := by
  unfold k0_pay38
  exact head_context v109 v15 6 _ _ _ _ _ _ _ _ r d 6 rfl

/-- The context of head 7. -/
theorem pay39_at (v15 : FVec Ideal S256x16x64 .f32) (v109 : FVec Ideal S256x16x16 .f32) (r : Fin 256) (d : Fin 64) :
    k0_pay39 (F := Ideal) v15 v109 (ix2 r d) = ∑ g : Fin 16, v109 (ix3 r 7 g) * v15 (ix3 r g d) := by
  unfold k0_pay39
  exact head_context v109 v15 7 _ _ _ _ _ _ _ _ r d 7 rfl

/-- The context of head 8. -/
theorem pay40_at (v15 : FVec Ideal S256x16x64 .f32) (v109 : FVec Ideal S256x16x16 .f32) (r : Fin 256) (d : Fin 64) :
    k0_pay40 (F := Ideal) v15 v109 (ix2 r d) = ∑ g : Fin 16, v109 (ix3 r 8 g) * v15 (ix3 r g d) := by
  unfold k0_pay40
  exact head_context v109 v15 8 _ _ _ _ _ _ _ _ r d 8 rfl

/-- The context of head 9. -/
theorem pay41_at (v15 : FVec Ideal S256x16x64 .f32) (v109 : FVec Ideal S256x16x16 .f32) (r : Fin 256) (d : Fin 64) :
    k0_pay41 (F := Ideal) v15 v109 (ix2 r d) = ∑ g : Fin 16, v109 (ix3 r 9 g) * v15 (ix3 r g d) := by
  unfold k0_pay41
  exact head_context v109 v15 9 _ _ _ _ _ _ _ _ r d 9 rfl

/-- The context of head 10. -/
theorem pay42_at (v15 : FVec Ideal S256x16x64 .f32) (v109 : FVec Ideal S256x16x16 .f32) (r : Fin 256) (d : Fin 64) :
    k0_pay42 (F := Ideal) v15 v109 (ix2 r d) = ∑ g : Fin 16, v109 (ix3 r 10 g) * v15 (ix3 r g d) := by
  unfold k0_pay42
  exact head_context v109 v15 10 _ _ _ _ _ _ _ _ r d 10 rfl

/-- The context of head 11. -/
theorem pay43_at (v15 : FVec Ideal S256x16x64 .f32) (v109 : FVec Ideal S256x16x16 .f32) (r : Fin 256) (d : Fin 64) :
    k0_pay43 (F := Ideal) v15 v109 (ix2 r d) = ∑ g : Fin 16, v109 (ix3 r 11 g) * v15 (ix3 r g d) := by
  unfold k0_pay43
  exact head_context v109 v15 11 _ _ _ _ _ _ _ _ r d 11 rfl

/-- The context of head 12. -/
theorem pay44_at (v15 : FVec Ideal S256x16x64 .f32) (v109 : FVec Ideal S256x16x16 .f32) (r : Fin 256) (d : Fin 64) :
    k0_pay44 (F := Ideal) v15 v109 (ix2 r d) = ∑ g : Fin 16, v109 (ix3 r 12 g) * v15 (ix3 r g d) := by
  unfold k0_pay44
  exact head_context v109 v15 12 _ _ _ _ _ _ _ _ r d 12 rfl

/-- The context of head 13. -/
theorem pay45_at (v15 : FVec Ideal S256x16x64 .f32) (v109 : FVec Ideal S256x16x16 .f32) (r : Fin 256) (d : Fin 64) :
    k0_pay45 (F := Ideal) v15 v109 (ix2 r d) = ∑ g : Fin 16, v109 (ix3 r 13 g) * v15 (ix3 r g d) := by
  unfold k0_pay45
  exact head_context v109 v15 13 _ _ _ _ _ _ _ _ r d 13 rfl

/-- Head 14's weights spread along the channels. -/
theorem pay46_at (v109 : FVec Ideal S256x16x16 .f32) (r : Fin 256) (g : Fin 16) (d : Fin 64) :
    k0_pay46 (F := Ideal) v109 (ix3 r g d) = v109 (ix3 r 14 g) := by
  unfold k0_pay46
  exact row_spread v109 14 _ _ _ _ r g d 14 rfl

end Cert.KRow

end
-- ==== Proof.LibMatmulSum.lean ====
/-
  A row-by-column matrix product into a zero accumulator, read at an index, with its two factors NAMED: whatever
  the left operand is known to be along row `j 0` and the right operand down column `j 1`, the entry is the sum of
  their products. Generic in the extents.
-/
import proofs.«100041_j64132451663945_2_alg».proof.Proof.LibMatmul

noncomputable section

namespace Idealize.ShloMosaic.MatmulRead

open Idealize.ShloMosaic Idealize.ShloMosaic.ValueIdx
open scoped BigOperators

/-- Entry `j` of an M×K by K×N product accumulated into zeros is `∑ k, f k * g k` when row `j 0` of the left operand
    is `f` and column `j 1` of the right operand is `g`. -/
theorem matmul_zero_of_eq {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx)
    (f g : Fin K → EReal) (hl : ∀ k, lhs (ix2 (j 0) k) = f k) (hr : ∀ k, rhs (ix2 k (j 1)) = g k) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, f k * g k := by
  rw [matmul_zero_apply lc rc ln rn lb rb h1 h2 h3 h4 h5 h6 wf prec lhs rhs j]
  exact Finset.sum_congr rfl fun k _ => by rw [hl k, hr k]

end Idealize.ShloMosaic.MatmulRead

end
-- ==== Proof.PayRes1.lean ====
/-
  The stacked context of one block of 256 tokens laid flat, head-major, its affine image, and the residual:
  entry (r, j) is the token's entry plus `∑ c, context (r, c) · W (c, j)` plus the bias, the context at flat
  position c being head `c / 64`, channel `c % 64`.
-/
import proofs.«100041_j64132451663945_2_alg».proof.Proof.Gen.KernelIdeal.Skeleton
import proofs.«100041_j64132451663945_2_alg».proof.Proof.Spec
import proofs.«100041_j64132451663945_2_alg».proof.Proof.LibRows
import proofs.«100041_j64132451663945_2_alg».proof.Proof.LibMatmul
import Idealize.ShloMosaic.Lib.ValueLayout
import proofs.«100041_j64132451663945_2_alg».proof.Proof.PayCtx
import proofs.«100041_j64132451663945_2_alg».proof.Proof.LibMatmulSum

noncomputable section

namespace Cert.KRow

open Cert.KernelIdeal Cert.KernelIdeal.Gen Idealize.ShloMosaic Idealize.ShloMosaic.ValueIdx
open Idealize.ShloMosaic.RowsRead Idealize.ShloMosaic.MatmulRead Cert.Enc
open scoped BigOperators

/-- The sixteen context rows of row `r`, by head, at channel `d`: fourteen given, the last two computed here. -/
def ctxRows (v15 : FVec Ideal S256x16x64 .f32) (v109 : FVec Ideal S256x16x16 .f32) (v115 v121 v127 v133 v139 v145 v151 v157 v163 v169 v175 v181 v187 v193 : FVec Ideal S256x64 .f32) (v197 : FVec Ideal S256x16x64 .f32) (r : Fin 256) (h : Fin 16) (d : Fin 64) : EReal :=
  ![v115 (ix2 r d), v121 (ix2 r d), v127 (ix2 r d), v133 (ix2 r d), v139 (ix2 r d), v145 (ix2 r d), v151 (ix2 r d), v157 (ix2 r d), v163 (ix2 r d), v169 (ix2 r d), v175 (ix2 r d), v181 (ix2 r d), v187 (ix2 r d), v193 (ix2 r d), ∑ g : Fin 16, v197 (ix3 r g d) * v15 (ix3 r g d), ∑ g : Fin 16, v109 (ix3 r 15 g) * v15 (ix3 r g d)] h

/-- The context of head 15, as the step computes it itself. -/
theorem ctx15_at (v15 : FVec Ideal S256x16x64 .f32) (v109 : FVec Ideal S256x16x16 .f32) (r : Fin 256) (d : Fin 64) :
    (multiReduction .add [1] S256x64 (mulf (broadcastTo S256x16x64 (shapeCast S256x16x1 (shapeCast S256x16 (extractStridedSlice S256x1x16 ![0, 15, 0] v109 slices_S256x16x16_o0_15_0_S256x1x16) shapeCasts_S256x1x16_S256x16) shapeCasts_S256x16_S256x16x1) broadcasts_S256x16x1_S256x16x64) v15) 0x00000000#32 reduces_S256x16x64_S256x64 (.inl rfl) rfl) (ix2 r d) = ∑ g : Fin 16, v109 (ix3 r 15 g) * v15 (ix3 r g d) :=
  head_context v109 v15 15 _ _ _ _ _ _ _ _ r d 15 rfl

/-- The context of head 14, from its weights already spread along the channels. -/
theorem ctx14_at (v15 v197 : FVec Ideal S256x16x64 .f32) (r : Fin 256) (d : Fin 64) :
    (multiReduction .add [1] S256x64 (mulf v197 v15) 0x00000000#32 reduces_S256x16x64_S256x64 (.inl rfl) rfl) (ix2 r d) = ∑ g : Fin 16, v197 (ix3 r g d) * v15 (ix3 r g d) :=
  spread_context v197 v15 _ _ _ _ r d

set_option maxHeartbeats 1600000 in
/-- The residual after attention. -/
theorem pay47_at (v1 : FVec Ideal S256x1024 .f32) (v15 : FVec Ideal S256x16x64 .f32) (v109 : FVec Ideal S256x16x16 .f32) (v115 v121 v127 v133 v139 v145 v151 v157 v163 v169 v175 v181 v187 v193 : FVec Ideal S256x64 .f32) (v197 : FVec Ideal S256x16x64 .f32) (v225 : Vec Ideal S1024x1024 .bf16) (v228 : Vec Ideal S1x1024 .f32) (r : Fin 256) (j : Fin 1024) :
    k0_pay47 (F := Ideal) v1 v15 v109 v115 v121 v127 v133 v139 v145 v151 v157 v163 v169 v175 v181 v187 v193 v197 v225 v228 (ix2 r j)
      = v1 (ix2 r j) + lin (fun c : Fin 1024 => ctxRows v15 v109 v115 v121 v127 v133 v139 v145 v151 v157 v163 v169 v175 v181 v187 v193 v197 r (headOf c) (chanOf c)) (bmat v225) (brow1 v228) j := by
  unfold k0_pay47
  dsimp only
  rw [addf_apply, addf_apply, shapeCast_self, shapeCast_self, broadcastTo_1b_ab_apply]
  unfold lin
  congr 1
  congr 1
  simp only [matmul]
  refine matmul_zero_of_eq _ _ _ _ _ _ rfl rfl rfl rfl rfl rfl
    dot_S256x1024_S1024x1024_S256x1024_1_0_0_1_n_n.wf none _ _ (ix2 r j) _ _ (fun c => ?_) (fun c => rfl)
  rw [truncf_apply]
  show shapeCast S256x1024 _ _ (ix2 r c) = _
  have hc : c.val = 64 * (headOf c).val + (chanOf c).val := by
    show c.val = 64 * (c.val / 64) + c.val % 64
    omega
  rw [cast_heads_flat _ _ r c (headOf c) (chanOf c) hc]
  refine (stack_mid (fun n : Fin 16 => (![shapeCast S256x1x64 v115 shapeCasts_S256x64_S256x1x64, shapeCast S256x1x64 v121 shapeCasts_S256x64_S256x1x64, shapeCast S256x1x64 v127 shapeCasts_S256x64_S256x1x64, shapeCast S256x1x64 v133 shapeCasts_S256x64_S256x1x64, shapeCast S256x1x64 v139 shapeCasts_S256x64_S256x1x64, shapeCast S256x1x64 v145 shapeCasts_S256x64_S256x1x64, shapeCast S256x1x64 v151 shapeCasts_S256x64_S256x1x64, shapeCast S256x1x64 v157 shapeCasts_S256x64_S256x1x64, shapeCast S256x1x64 v163 shapeCasts_S256x64_S256x1x64, shapeCast S256x1x64 v169 shapeCasts_S256x64_S256x1x64, shapeCast S256x1x64 v175 shapeCasts_S256x64_S256x1x64, shapeCast S256x1x64 v181 shapeCasts_S256x64_S256x1x64, shapeCast S256x1x64 v187 shapeCasts_S256x64_S256x1x64, shapeCast S256x1x64 v193 shapeCasts_S256x64_S256x1x64,
      shapeCast S256x1x64 (multiReduction .add [1] S256x64 (mulf v197 v15) 0x00000000#32 reduces_S256x16x64_S256x64 (.inl rfl) rfl) shapeCasts_S256x64_S256x1x64,
      shapeCast S256x1x64 (multiReduction .add [1] S256x64 (mulf (broadcastTo S256x16x64 (shapeCast S256x16x1 (shapeCast S256x16 (extractStridedSlice S256x1x16 ![0, 15, 0] v109 slices_S256x16x16_o0_15_0_S256x1x16) shapeCasts_S256x1x16_S256x16) shapeCasts_S256x16_S256x16x1) broadcasts_S256x16x1_S256x16x64) v15) 0x00000000#32 reduces_S256x16x64_S256x64 (.inl rfl) rfl) shapeCasts_S256x64_S256x1x64] n)) _ r (headOf c) (chanOf c)).trans ?_
  unfold ctxRows
  generalize headOf c = h
  generalize chanOf c = d
  fin_cases h
  · exact cast_ab_a1b v115 _ r d
  · exact cast_ab_a1b v121 _ r d
  · exact cast_ab_a1b v127 _ r d
  · exact cast_ab_a1b v133 _ r d
  · exact cast_ab_a1b v139 _ r d
  · exact cast_ab_a1b v145 _ r d
  · exact cast_ab_a1b v151 _ r d
  · exact cast_ab_a1b v157 _ r d
  · exact cast_ab_a1b v163 _ r d
  · exact cast_ab_a1b v169 _ r d
  · exact cast_ab_a1b v175 _ r d
  · exact cast_ab_a1b v181 _ r d
  · exact cast_ab_a1b v187 _ r d
  · exact cast_ab_a1b v193 _ r d
  · exact (cast_ab_a1b (multiReduction .add [1] S256x64 (mulf v197 v15) 0x00000000#32 reduces_S256x16x64_S256x64 (.inl rfl) rfl) shapeCasts_S256x64_S256x1x64 r d).trans
      (ctx14_at v15 v197 r d)
  · exact (cast_ab_a1b (multiReduction .add [1] S256x64 (mulf (broadcastTo S256x16x64 (shapeCast S256x16x1 (shapeCast S256x16 (extractStridedSlice S256x1x16 ![0, 15, 0] v109 slices_S256x16x16_o0_15_0_S256x1x16) shapeCasts_S256x1x16_S256x16) shapeCasts_S256x16_S256x16x1) broadcasts_S256x16x1_S256x16x64) v15) 0x00000000#32 reduces_S256x16x64_S256x64 (.inl rfl) rfl) shapeCasts_S256x64_S256x1x64 r d).trans
      (ctx15_at v15 v109 r d)

end Cert.KRow

end
-- ==== Proof.PayFfn.lean ====
/-
  The rest of the kernel's body on one block of 256 tokens, read at an index: the mean and the squared
  deviations of the residual, the normalised row, the two-layer feed-forward net with its rectifier and its
  residual, and the last normalisation. A normalisation is stated with its mean and its squared deviations
  GIVEN (the body computes them in separate steps); that they are the row's own is the composition's business.
-/
import proofs.«100041_j64132451663945_2_alg».proof.Proof.Gen.KernelIdeal.Skeleton
import proofs.«100041_j64132451663945_2_alg».proof.Proof.Spec
import proofs.«100041_j64132451663945_2_alg».proof.Proof.LibRows
import proofs.«100041_j64132451663945_2_alg».proof.Proof.LibMatmul
import Idealize.ShloMosaic.Lib.ValueLayout
import proofs.«100041_j64132451663945_2_alg».proof.Proof.PayRes1

noncomputable section

namespace Cert.KRow

open Cert.KernelIdeal Cert.KernelIdeal.Gen Idealize.ShloMosaic Idealize.ShloMosaic.ValueIdx
open Idealize.ShloMosaic.RowsRead Idealize.ShloMosaic.MatmulRead Cert.Enc
open scoped BigOperators

/-- A row normalised about a given mean `μ`, its squared deviations `sq` given: scaled and shifted. -/
def lnRow (y : Fin 1024 → EReal) (μ : EReal) (sq : Fin 1024 → EReal) (γ β : Fin 1024 → EReal) (j : Fin 1024) : EReal :=
  (y j - μ) * Ideal.rsqrt (Ideal.div (∑ i : Fin 1024, sq i) wN + wEps) * γ j + β j

/-- With the row's own mean and squared deviations it is the layer's normalisation. -/
theorem lnRow_self (y γ β : Fin 1024 → EReal) :
    lnRow y (mean y) (fun i => (y i - mean y) * (y i - mean y)) γ β = lnorm y γ β := rfl

/-- A row's sum given a trailing unit axis: at (r, 0) the sum of row r. -/
theorem rowsum_at {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) :
    shapeCast ⟨2, ![a, 1]⟩ (multiReduction .add [1] ⟨1, ![a]⟩ src acc h hφ hacc) hc (ix2 r (0 : Fin 1))
      = ∑ j : Fin b, src (ix2 r j) :=
  (cast_a_a1 _ hc r).trans (sum_cols2 src acc h hφ hacc r)

/-- Loaded one-row blocks pass through their identity casts. -/
theorem pay48_eq (v : Vec Ideal S1x1024 .f32) : k0_pay48 (F := Ideal) v = v := by unfold k0_pay48; exact shapeCast_self _ _
theorem pay49_eq (v : Vec Ideal S1x1024 .f32) : k0_pay49 (F := Ideal) v = v := by unfold k0_pay49; exact shapeCast_self _ _
theorem pay53_eq (v : Vec Ideal S1x1024 .f32) : k0_pay53 (F := Ideal) v = v := by unfold k0_pay53; exact shapeCast_self _ _
theorem pay54_eq (v : Vec Ideal S1x1024 .f32) : k0_pay54 (F := Ideal) v = v := by unfold k0_pay54; exact shapeCast_self _ _
theorem pay2_eq (v : Vec Ideal S256x1024 .f32) : k0_pay2 (F := Ideal) v = v := by unfold k0_pay2; exact shapeCast_self _ _

/-- The mean of the residual's row `r`. -/
theorem pay50_at (v1 : FVec Ideal S256x1024 .f32) (v15 : FVec Ideal S256x16x64 .f32) (v109 : FVec Ideal S256x16x16 .f32) (v115 v121 v127 v133 v139 v145 v151 v157 v163 v169 v175 v181 v187 v193 : FVec Ideal S256x64 .f32) (v197 : FVec Ideal S256x16x64 .f32) (v225 : Vec Ideal S1024x1024 .bf16) (v228 : Vec Ideal S1x1024 .f32) (r : Fin 256) :
    k0_pay50 (F := Ideal) v1 v15 v109 v115 v121 v127 v133 v139 v145 v151 v157 v163 v169 v175 v181 v187 v193 v197 v225 v228 (ix2 r (0 : Fin 1))
      = Ideal.div (∑ j : Fin 1024, k0_pay47 (F := Ideal) v1 v15 v109 v115 v121 v127 v133 v139 v145 v151 v157 v163 v169 v175 v181 v187 v193 v197 v225 v228 (ix2 r j)) wN := by
  unfold k0_pay50
  exact congrArg (fun s => Ideal.div s wN) (rowsum_at _ _ _ _ _ _ r)

/-- The squared deviations of the residual's row `r`. -/
theorem pay51_at (v1 : FVec Ideal S256x1024 .f32) (v15 : FVec Ideal S256x16x64 .f32) (v109 : FVec Ideal S256x16x16 .f32) (v115 v121 v127 v133 v139 v145 v151 v157 v163 v169 v175 v181 v187 v193 : FVec Ideal S256x64 .f32) (v197 : FVec Ideal S256x16x64 .f32) (v225 : Vec Ideal S1024x1024 .bf16) (v228 : Vec Ideal S1x1024 .f32) (r : Fin 256) (j : Fin 1024) :
    k0_pay51 (F := Ideal) v1 v15 v109 v115 v121 v127 v133 v139 v145 v151 v157 v163 v169 v175 v181 v187 v193 v197 v225 v228 (ix2 r j)
      = (k0_pay47 (F := Ideal) v1 v15 v109 v115 v121 v127 v133 v139 v145 v151 v157 v163 v169 v175 v181 v187 v193 v197 v225 v228 (ix2 r j) - k0_pay50 (F := Ideal) v1 v15 v109 v115 v121 v127 v133 v139 v145 v151 v157 v163 v169 v175 v181 v187 v193 v197 v225 v228 (ix2 r (0 : Fin 1)))
        * (k0_pay47 (F := Ideal) v1 v15 v109 v115 v121 v127 v133 v139 v145 v151 v157 v163 v169 v175 v181 v187 v193 v197 v225 v228 (ix2 r j) - k0_pay50 (F := Ideal) v1 v15 v109 v115 v121 v127 v133 v139 v145 v151 v157 v163 v169 v175 v181 v187 v193 v197 v225 v228 (ix2 r (0 : Fin 1))) := by
  unfold k0_pay51
  rw [mulf_apply, subf_apply, broadcastTo_a1_ab_apply]

/-- The normalised row the feed-forward net reads, from the residual, its mean and its squared deviations. -/
def x1Row (v232 : FVec Ideal S256x1024 .f32) (v234 v236 : FVec Ideal S1x1024 .f32) (v240 : FVec Ideal S256x1 .f32) (v243 : FVec Ideal S256x1024 .f32) (r : Fin 256) : Fin 1024 → EReal :=
  lnRow (fun j => v232 (ix2 r j)) (v240 (ix2 r (0 : Fin 1))) (fun i => v243 (ix2 r i)) (brow1 v234) (brow1 v236)

/-- The second residual: the normalised row plus the feed-forward net's output. -/
theorem pay52_at (v232 : FVec Ideal S256x1024 .f32) (v234 v236 : FVec Ideal S1x1024 .f32) (v240 : FVec Ideal S256x1 .f32) (v243 : FVec Ideal S256x1024 .f32) (v260 : Vec Ideal S1024x4096 .bf16) (v263 : Vec Ideal S1x4096 .f32) (v270 : Vec Ideal S4096x1024 .bf16) (v273 : Vec Ideal S1x1024 .f32) (r : Fin 256) (j : Fin 1024) :
    k0_pay52 (F := Ideal) v232 v234 v236 v240 v243 v260 v263 v270 v273 (ix2 r j)
      = x1Row v232 v234 v236 v240 v243 r j
        + lin (fun f : Fin 4096 => max (lin (x1Row v232 v234 v236 v240 v243 r) (bmat v260) (brow1 v263) f) wZero)
            (bmat v270) (brow1 v273) j := by
  have hx1 : ∀ i : Fin 1024,
      addf (mulf (mulf (subf v232 (broadcastTo S256x1024 v240 broadcasts_S256x1_S256x1024))
          (broadcastTo S256x1024 (rsqrt (addf (divf (shapeCast S256x1 (multiReduction .add [1] S256 v243 0x00000000#32 reduces_S256x1024_S256 (.inl rfl) rfl) shapeCasts_S256_S256x1)
            (broadcast S256x1 (Scalar.ofBits .f32 0x44800000#32))) (broadcast S256x1 (Scalar.ofBits .f32 0x3727C5AC#32)))) broadcasts_S256x1_S256x1024))
          (broadcastTo S256x1024 v234 broadcasts_S1x1024_S256x1024)) (broadcastTo S256x1024 v236 broadcasts_S1x1024_S256x1024) (ix2 r i)
        = x1Row v232 v234 v236 v240 v243 r i := fun i => by
    rw [addf_apply, mulf_apply, mulf_apply, subf_apply, broadcastTo_a1_ab_apply, broadcastTo_a1_ab_apply,
      broadcastTo_1b_ab_apply, broadcastTo_1b_ab_apply]
    exact congrArg (fun t => (v232 (ix2 r i) - v240 (ix2 r (0 : Fin 1))) * Ideal.rsqrt (Ideal.div t wN + wEps)
        * v234 (ix2 (0 : Fin 1) i) + v236 (ix2 (0 : Fin 1) i))
      (rowsum_at v243 0x00000000#32 reduces_S256x1024_S256 (.inl rfl) rfl shapeCasts_S256_S256x1 r)
  unfold k0_pay52
  dsimp only
  rw [addf_apply, hx1 j, addf_apply, shapeCast_self, shapeCast_self, shapeCast_self, shapeCast_self,
    broadcastTo_1b_ab_apply]
  congr 1
  unfold lin
  congr 1
  simp only [matmul]
  refine matmul_zero_of_eq _ _ _ _ _ _ rfl rfl rfl rfl rfl rfl
    dot_S256x4096_S4096x1024_S256x1024_1_0_0_1_n_n.wf none _ _ (ix2 r j) _ _ (fun f => ?_) (fun f => rfl)
  rw [truncf_apply, maximumf_apply, addf_apply, broadcastTo_1b_ab_apply]
  refine congrArg (fun t => max (t + v263 (ix2 (0 : Fin 1) f)) wZero) ?_
  exact matmul_zero_of_eq _ _ _ _ _ _ rfl rfl rfl rfl rfl rfl
    dot_S256x1024_S1024x4096_S256x4096_1_0_0_1_n_n.wf none _ _ (ix2 r f) _ _ (fun i => hx1 i) (fun i => rfl)

/-- The sum of the second residual's row `r`. -/
theorem pay55_at (v232 : FVec Ideal S256x1024 .f32) (v234 v236 : FVec Ideal S1x1024 .f32) (v240 : FVec Ideal S256x1 .f32) (v243 : FVec Ideal S256x1024 .f32) (v260 : Vec Ideal S1024x4096 .bf16) (v263 : Vec Ideal S1x4096 .f32) (v270 : Vec Ideal S4096x1024 .bf16) (v273 : Vec Ideal S1x1024 .f32) (r : Fin 256) :
    k0_pay55 (F := Ideal) v232 v234 v236 v240 v243 v260 v263 v270 v273 (ix2 r (0 : Fin 1)) = ∑ j : Fin 1024, k0_pay52 (F := Ideal) v232 v234 v236 v240 v243 v260 v263 v270 v273 (ix2 r j) := by
  unfold k0_pay55
  exact rowsum_at _ _ _ _ _ _ r

/-- The count a mean divides by. -/
theorem pay56_at (i : S256x1.Idx) : k0_pay56 (F := Ideal) i = wN := rfl

/-- The last normalisation, its row's sum and the count given. -/
theorem pay1_at (v277 : FVec Ideal S256x1024 .f32) (v279 v281 : FVec Ideal S1x1024 .f32) (v283 v284 : FVec Ideal S256x1 .f32)
    (r : Fin 256) (j : Fin 1024) :
    k0_pay1 (F := Ideal) v277 v279 v281 v283 v284 (ix2 r j)
      = lnRow (fun j => v277 (ix2 r j)) (Ideal.div (v283 (ix2 r (0 : Fin 1))) (v284 (ix2 r (0 : Fin 1))))
          (fun i => (v277 (ix2 r i) - Ideal.div (v283 (ix2 r (0 : Fin 1))) (v284 (ix2 r (0 : Fin 1))))
            * (v277 (ix2 r i) - Ideal.div (v283 (ix2 r (0 : Fin 1))) (v284 (ix2 r (0 : Fin 1)))))
          (brow1 v279) (brow1 v281) j := by
  unfold k0_pay1
  dsimp only
  rw [addf_apply, mulf_apply, mulf_apply, subf_apply, broadcastTo_a1_ab_apply, broadcastTo_a1_ab_apply,
    broadcastTo_1b_ab_apply, broadcastTo_1b_ab_apply, divf_apply]
  refine (congrArg (fun t => (v277 (ix2 r j) - Ideal.div (v283 (ix2 r (0 : Fin 1))) (v284 (ix2 r (0 : Fin 1))))
      * Ideal.rsqrt (Ideal.div t wN + wEps) * v279 (ix2 (0 : Fin 1) j) + v281 (ix2 (0 : Fin 1) j))
    (rowsum_at (mulf (subf v277 (broadcastTo S256x1024 (divf v283 v284) broadcasts_S256x1_S256x1024)) (subf v277 (broadcastTo S256x1024 (divf v283 v284) broadcasts_S256x1_S256x1024))) 0x00000000#32 reduces_S256x1024_S256 (.inl rfl) rfl shapeCasts_S256_S256x1 r)).trans ?_
  unfold lnRow
  refine congrArg (fun t => (v277 (ix2 r j) - Ideal.div (v283 (ix2 r (0 : Fin 1))) (v284 (ix2 r (0 : Fin 1))))
      * Ideal.rsqrt (Ideal.div t wN + wEps) * brow1 v279 j + brow1 v281 j) (Finset.sum_congr rfl fun i _ => ?_)
  rw [mulf_apply, subf_apply, broadcastTo_a1_ab_apply, divf_apply]

end Cert.KRow

end
-- ==== Proof.PayJoin.lean ====
/-
  The kernel's steps joined: each step's index lemma, fed with what the steps before it are known to compute,
  gives the layer's next quantity (Spec.lean) — the attention weights from the score rows, the context from the
  weights, the first residual, the second residual, the result. Every lemma here is stated over arbitrary blocks
  with hypotheses, never over the kernel's own nested terms.
-/
import proofs.«100041_j64132451663945_2_alg».proof.Proof.Gen.KernelIdeal.Skeleton
import proofs.«100041_j64132451663945_2_alg».proof.Proof.Spec
import proofs.«100041_j64132451663945_2_alg».proof.Proof.LibRows
import proofs.«100041_j64132451663945_2_alg».proof.Proof.LibMatmul
import Idealize.ShloMosaic.Lib.ValueLayout
import proofs.«100041_j64132451663945_2_alg».proof.Proof.PayFfn

noncomputable section

namespace Cert.KRow

open Cert.KernelIdeal Cert.KernelIdeal.Gen Idealize.ShloMosaic Idealize.ShloMosaic.ValueIdx
open Idealize.ShloMosaic.RowsRead Idealize.ShloMosaic.MatmulRead Cert.Enc
open scoped BigOperators

/-- From the score rows to the attention weights: an eighth of a dot product is its quotient by eight. -/
theorem join_attn (r : Fin 256) (q k : Fin 16 → Fin 64 → EReal) (v80 v81 v82 v83 v84 v85 v86 v87 v88 v89 v90 v91 v92 v93 v94 v95 : FVec Ideal S256x1x16 .f32)
    (hp : ∀ h g : Fin 16, (![v80, v81, v82, v83, v84, v85, v86, v87, v88, v89, v90, v91, v92, v93, v94, v95] h) (ix3 r (0 : Fin 1) g) = ∑ d : Fin 64, q h d * k g d) (h g : Fin 16) :
    k0_pay31 (F := Ideal) v80 v81 v82 v83 v84 v85 v86 v87 v88 v89 v90 v91 v92 v93 v94 v95 (ix3 r h g) = attn q k h g := by
  rw [pay31_at]
  unfold attn
  refine congrArg (fun s => softmax s g) (funext fun g' => ?_)
  rw [hp, mul_eighth]
  rfl

/-- From the weights and the values to the sixteen context rows. -/
theorem join_ctx (r : Fin 256) (q k v : Fin 16 → Fin 64 → EReal) (v15 : FVec Ideal S256x16x64 .f32) (v109 : FVec Ideal S256x16x16 .f32)
    (v115 v121 v127 v133 v139 v145 v151 v157 v163 v169 v175 v181 v187 v193 : FVec Ideal S256x64 .f32) (v197 : FVec Ideal S256x16x64 .f32)
    (hv : ∀ (g : Fin 16) (d : Fin 64), v15 (ix3 r g d) = v g d)
    (hA : ∀ h g : Fin 16, v109 (ix3 r h g) = attn q k h g)
    (hc0 : ∀ d : Fin 64, v115 (ix2 r d) = ∑ g : Fin 16, attn q k 0 g * v g d)
    (hc1 : ∀ d : Fin 64, v121 (ix2 r d) = ∑ g : Fin 16, attn q k 1 g * v g d)
    (hc2 : ∀ d : Fin 64, v127 (ix2 r d) = ∑ g : Fin 16, attn q k 2 g * v g d)
    (hc3 : ∀ d : Fin 64, v133 (ix2 r d) = ∑ g : Fin 16, attn q k 3 g * v g d)
    (hc4 : ∀ d : Fin 64, v139 (ix2 r d) = ∑ g : Fin 16, attn q k 4 g * v g d)
    (hc5 : ∀ d : Fin 64, v145 (ix2 r d) = ∑ g : Fin 16, attn q k 5 g * v g d)
    (hc6 : ∀ d : Fin 64, v151 (ix2 r d) = ∑ g : Fin 16, attn q k 6 g * v g d)
    (hc7 : ∀ d : Fin 64, v157 (ix2 r d) = ∑ g : Fin 16, attn q k 7 g * v g d)
    (hc8 : ∀ d : Fin 64, v163 (ix2 r d) = ∑ g : Fin 16, attn q k 8 g * v g d)
    (hc9 : ∀ d : Fin 64, v169 (ix2 r d) = ∑ g : Fin 16, attn q k 9 g * v g d)
    (hc10 : ∀ d : Fin 64, v175 (ix2 r d) = ∑ g : Fin 16, attn q k 10 g * v g d)
    (hc11 : ∀ d : Fin 64, v181 (ix2 r d) = ∑ g : Fin 16, attn q k 11 g * v g d)
    (hc12 : ∀ d : Fin 64, v187 (ix2 r d) = ∑ g : Fin 16, attn q k 12 g * v g d)
    (hc13 : ∀ d : Fin 64, v193 (ix2 r d) = ∑ g : Fin 16, attn q k 13 g * v g d)
    (h14 : ∀ (g : Fin 16) (d : Fin 64), v197 (ix3 r g d) = attn q k 14 g) (h : Fin 16) (d : Fin 64) :
    ctxRows v15 v109 v115 v121 v127 v133 v139 v145 v151 v157 v163 v169 v175 v181 v187 v193 v197 r h d = ctx q k v h d := by
  unfold ctxRows ctx
  fin_cases h
  · exact hc0 d
  · exact hc1 d
  · exact hc2 d
  · exact hc3 d
  · exact hc4 d
  · exact hc5 d
  · exact hc6 d
  · exact hc7 d
  · exact hc8 d
  · exact hc9 d
  · exact hc10 d
  · exact hc11 d
  · exact hc12 d
  · exact hc13 d
  · show ∑ g : Fin 16, v197 (ix3 r g d) * v15 (ix3 r g d) = ∑ g : Fin 16, attn q k 14 g * v g d
    simp only [h14, hv]
  · show ∑ g : Fin 16, v109 (ix3 r 15 g) * v15 (ix3 r g d) = ∑ g : Fin 16, attn q k 15 g * v g d
    simp only [hA, hv]

/-- The first residual. -/
theorem join_res1 (r : Fin 256) (P : Tail) (x : Fin 1024 → EReal) (q k v : Fin 16 → Fin 64 → EReal) (v1 : FVec Ideal S256x1024 .f32) (v15 : FVec Ideal S256x16x64 .f32) (v109 : FVec Ideal S256x16x16 .f32) (v115 v121 v127 v133 v139 v145 v151 v157 v163 v169 v175 v181 v187 v193 : FVec Ideal S256x64 .f32) (v197 : FVec Ideal S256x16x64 .f32) (v225 : Vec Ideal S1024x1024 .bf16) (v228 : Vec Ideal S1x1024 .f32)
    (hx : ∀ j : Fin 1024, v1 (ix2 r j) = x j)
    (hctx : ∀ (h : Fin 16) (d : Fin 64), ctxRows v15 v109 v115 v121 v127 v133 v139 v145 v151 v157 v163 v169 v175 v181 v187 v193 v197 r h d = ctx q k v h d)
    (hWo : bmat v225 = P.Wo) (hbo : brow1 v228 = P.bo) (j : Fin 1024) :
    k0_pay47 (F := Ideal) v1 v15 v109 v115 v121 v127 v133 v139 v145 v151 v157 v163 v169 v175 v181 v187 v193 v197 v225 v228 (ix2 r j) = res1 P x q k v j := by
  rw [pay47_at, hx, hWo, hbo]
  unfold res1
  exact congrArg (fun f => x j + lin f P.Wo P.bo j) (funext fun c => hctx (headOf c) (chanOf c))

/-- The second residual, from the first, its mean and its squared deviations as the body computes them. -/
theorem join_res2 (r : Fin 256) (P : Tail) (x : Fin 1024 → EReal) (q k v : Fin 16 → Fin 64 → EReal) (v232 : FVec Ideal S256x1024 .f32) (v234 v236 : FVec Ideal S1x1024 .f32) (v240 : FVec Ideal S256x1 .f32) (v243 : FVec Ideal S256x1024 .f32) (v260 : Vec Ideal S1024x4096 .bf16) (v263 : Vec Ideal S1x4096 .f32) (v270 : Vec Ideal S4096x1024 .bf16) (v273 : Vec Ideal S1x1024 .f32)
    (h47 : ∀ j : Fin 1024, v232 (ix2 r j) = res1 P x q k v j)
    (e50 : v240 (ix2 r (0 : Fin 1)) = Ideal.div (∑ j : Fin 1024, v232 (ix2 r j)) wN)
    (e51 : ∀ j : Fin 1024, v243 (ix2 r j)
      = (v232 (ix2 r j) - v240 (ix2 r (0 : Fin 1))) * (v232 (ix2 r j) - v240 (ix2 r (0 : Fin 1))))
    (hg1 : brow1 v234 = P.g1) (hbe1 : brow1 v236 = P.be1) (hW1 : bmat v260 = P.W1) (hb1 : brow1 v263 = P.b1)
    (hW2 : bmat v270 = P.W2) (hb2 : brow1 v273 = P.b2) (j : Fin 1024) :
    k0_pay52 (F := Ideal) v232 v234 v236 v240 v243 v260 v263 v270 v273 (ix2 r j) = res2 P x q k v j := by
  have hm : v240 (ix2 r (0 : Fin 1)) = mean (res1 P x q k v) := by
    rw [e50]; unfold mean; simp only [h47]
  have hx1 : x1Row v232 v234 v236 v240 v243 r = x1 P x q k v := by
    unfold x1Row x1
    rw [← lnRow_self, hg1, hbe1]
    unfold lnRow
    funext i
    simp only [e51, hm, h47]
  rw [pay52_at, hx1, hW1, hb1, hW2, hb2]
  rfl

/-- The result, from the second residual, its sum and the count as the body computes them. -/
theorem join_enc (r : Fin 256) (P : Tail) (x : Fin 1024 → EReal) (q k v : Fin 16 → Fin 64 → EReal)
    (v277 : FVec Ideal S256x1024 .f32) (v279 v281 : FVec Ideal S1x1024 .f32) (v283 v284 : FVec Ideal S256x1 .f32)
    (h52 : ∀ j : Fin 1024, v277 (ix2 r j) = res2 P x q k v j)
    (e55 : v283 (ix2 r (0 : Fin 1)) = ∑ j : Fin 1024, v277 (ix2 r j)) (e56 : v284 (ix2 r (0 : Fin 1)) = wN)
    (hg2 : brow1 v279 = P.g2) (hbe2 : brow1 v281 = P.be2) (j : Fin 1024) :
    k0_pay1 (F := Ideal) v277 v279 v281 v283 v284 (ix2 r j) = enc P x q k v j := by
  rw [pay1_at, e55, e56, hg2, hbe2]
  unfold enc
  rw [← lnRow_self]
  unfold lnRow mean
  simp only [h52]

end Cert.KRow

end
-- ==== Proof.KBlock.lean ====
/-
  What the kernel's body leaves in its output block, index by index: row r of the block is the layer's function
  (Spec.lean) of row r of the input block, with the projections read off the fused weight block in the kernel's
  layout — three contiguous 1024-wide slabs, queries, keys, values, each head-major.
  The body's value is a nest of some sixty steps; the proof names them from the leaves up, states what each is
  on row r, and joins them (PayJoin.lean).
-/
import proofs.«100041_j64132451663945_2_alg».proof.Proof.Gen.KernelIdeal.Frame
import proofs.«100041_j64132451663945_2_alg».proof.Proof.PayJoin

set_option maxRecDepth 16384

noncomputable section

namespace Cert.KRow

open Cert.KernelIdeal Cert.KernelIdeal.Gen Idealize.ShloMosaic Idealize.ShloMosaic.ValueIdx Cert.Enc
open scoped BigOperators

/-- The blocks a token meets after its projections, as the layer's function takes them. -/
def ktail (x3 : (⟨2, ![1024, 1024]⟩ : Shape).Idx → EReal) (x4 : (⟨2, ![1, 1024]⟩ : Shape).Idx → EReal)
    (x5 : (⟨2, ![1024, 4096]⟩ : Shape).Idx → EReal) (x6 : (⟨2, ![1, 4096]⟩ : Shape).Idx → EReal)
    (x7 : (⟨2, ![4096, 1024]⟩ : Shape).Idx → EReal) (x8 x9 x10 x11 x12 : (⟨2, ![1, 1024]⟩ : Shape).Idx → EReal) : Tail :=
  ⟨bmat x3, brow1 x4, bmat x5, brow1 x6, bmat x7, brow1 x8, brow1 x9, brow1 x10, brow1 x11, brow1 x12⟩

/-- Field `f` of row `r` of the block: head `h`, channel `d` of its projection, read off the slabs. -/
def kq (x0 : (⟨2, ![256, 1024]⟩ : Shape).Idx → EReal) (x1 : (⟨2, ![1024, 3072]⟩ : Shape).Idx → EReal)
    (x2 : (⟨2, ![1, 3072]⟩ : Shape).Idx → EReal) (r : Fin 256) (f : Fin 3) (h : Fin 16) (d : Fin 64) : EReal :=
  lin (brow x0 r) (bmat x1) (brow1 x2) (slab f h d)

/-- The two offsets of a whole block are zero. -/
theorem hz : (![0, 0] : Fin 2 → Nat) = fun _ => 0 := funext fun a => by fin_cases a <;> rfl

/-- THE BLOCK: entry (r, j) of the output block after the body. -/
theorem block_at (x0 : Vec Ideal S256x1024 .f32) (x1 : Vec Ideal S1024x3072 .bf16) (x2 : Vec Ideal S1x3072 .f32) (x3 : Vec Ideal S1024x1024 .bf16) (x4 : Vec Ideal S1x1024 .f32) (x5 : Vec Ideal S1024x4096 .bf16) (x6 : Vec Ideal S1x4096 .f32) (x7 : Vec Ideal S4096x1024 .bf16) (x8 x9 x10 x11 x12 : Vec Ideal S1x1024 .f32) (r : Fin 256) (j : Fin 1024) :
    out0_13 (F := Ideal) x0 x1 x2 x3 x4 x5 x6 x7 x8 x9 x10 x11 x12 (ix2 r j)
      = enc (ktail x3 x4 x5 x6 x7 x8 x9 x10 x11 x12) (brow x0 r) (kq x0 x1 x2 r 0) (kq x0 x1 x2 r 1) (kq x0 x1 x2 r 2) j := by
  unfold out0_13
  rw [View.canon_unit_zero hz]
  simp only [View.ld_unit_zero (S := S256x1024) hz, View.ld_unit_zero (S := S1024x3072) hz, View.ld_unit_zero (S := S1x3072) hz,
    View.ld_unit_zero (S := S1024x1024) hz, View.ld_unit_zero (S := S1x1024) hz, View.ld_unit_zero (S := S1024x4096) hz,
    View.ld_unit_zero (S := S1x4096) hz, View.ld_unit_zero (S := S4096x1024) hz]
  -- the three slabs of row r
  have hq : ∀ (h : Fin 16) (d : Fin 64), k0_pay4 (F := Ideal) x0 x1 x2 (ix3 r h d) = kq x0 x1 x2 r 0 h d :=
    fun h d => pay4_at x0 x1 x2 r h d
  have hk : ∀ (h : Fin 16) (d : Fin 64), k0_pay5 (F := Ideal) x0 x1 x2 (ix3 r h d) = kq x0 x1 x2 r 1 h d :=
    fun h d => pay5_at x0 x1 x2 r h d
  have hv : ∀ (h : Fin 16) (d : Fin 64), k0_pay6 (F := Ideal) x0 x1 x2 (ix3 r h d) = kq x0 x1 x2 r 2 h d :=
    fun h d => pay6_at x0 x1 x2 r h d
  -- the sixteen score rows
  generalize hp0 : k0_pay15 (F := Ideal) (k0_pay7 (F := Ideal) x0 x1 x2) = p0
  generalize hp1 : k0_pay16 (F := Ideal) (k0_pay8 (F := Ideal) x0 x1 x2) = p1
  generalize hp2 : k0_pay17 (F := Ideal) (k0_pay9 (F := Ideal) x0 x1 x2) = p2
  generalize hp3 : k0_pay18 (F := Ideal) (k0_pay10 (F := Ideal) x0 x1 x2) = p3
  generalize hp4 : k0_pay19 (F := Ideal) (k0_pay11 (F := Ideal) x0 x1 x2) = p4
  generalize hp5 : k0_pay20 (F := Ideal) (k0_pay12 (F := Ideal) x0 x1 x2) = p5
  generalize hp6 : k0_pay21 (F := Ideal) (k0_pay13 (F := Ideal) x0 x1 x2) = p6
  generalize hp7 : k0_pay22 (F := Ideal) (k0_pay5 (F := Ideal) x0 x1 x2) (k0_pay14 (F := Ideal) x0 x1 x2) = p7
  generalize hp8 : k0_pay23 (F := Ideal) (k0_pay4 (F := Ideal) x0 x1 x2) (k0_pay5 (F := Ideal) x0 x1 x2) = p8
  generalize hp9 : k0_pay24 (F := Ideal) (k0_pay4 (F := Ideal) x0 x1 x2) (k0_pay5 (F := Ideal) x0 x1 x2) = p9
  generalize hp10 : k0_pay25 (F := Ideal) (k0_pay4 (F := Ideal) x0 x1 x2) (k0_pay5 (F := Ideal) x0 x1 x2) = p10
  generalize hp11 : k0_pay26 (F := Ideal) (k0_pay4 (F := Ideal) x0 x1 x2) (k0_pay5 (F := Ideal) x0 x1 x2) = p11
  generalize hp12 : k0_pay27 (F := Ideal) (k0_pay4 (F := Ideal) x0 x1 x2) (k0_pay5 (F := Ideal) x0 x1 x2) = p12
  generalize hp13 : k0_pay28 (F := Ideal) (k0_pay4 (F := Ideal) x0 x1 x2) (k0_pay5 (F := Ideal) x0 x1 x2) = p13
  generalize hp14 : k0_pay29 (F := Ideal) (k0_pay4 (F := Ideal) x0 x1 x2) (k0_pay5 (F := Ideal) x0 x1 x2) = p14
  generalize hp15 : k0_pay30 (F := Ideal) (k0_pay4 (F := Ideal) x0 x1 x2) (k0_pay5 (F := Ideal) x0 x1 x2) = p15
  have hP : ∀ h g : Fin 16, (![p0, p1, p2, p3, p4, p5, p6, p7, p8, p9, p10, p11, p12, p13, p14, p15] h) (ix3 r (0 : Fin 1) g)
      = ∑ d : Fin 64, kq x0 x1 x2 r 0 h d * kq x0 x1 x2 r 1 g d := by
    intro h g
    fin_cases h
    · show p0 (ix3 r (0 : Fin 1) g) = _
      rw [← hp0, pay15_at, pay7_at]; simp only [hq, hk]
      rfl
    · show p1 (ix3 r (0 : Fin 1) g) = _
      rw [← hp1, pay16_at, pay8_at]; simp only [hq, hk]
      rfl
    · show p2 (ix3 r (0 : Fin 1) g) = _
      rw [← hp2, pay17_at, pay9_at]; simp only [hq, hk]
      rfl
    · show p3 (ix3 r (0 : Fin 1) g) = _
      rw [← hp3, pay18_at, pay10_at]; simp only [hq, hk]
      rfl
    · show p4 (ix3 r (0 : Fin 1) g) = _
      rw [← hp4, pay19_at, pay11_at]; simp only [hq, hk]
      rfl
    · show p5 (ix3 r (0 : Fin 1) g) = _
      rw [← hp5, pay20_at, pay12_at]; simp only [hq, hk]
      rfl
    · show p6 (ix3 r (0 : Fin 1) g) = _
      rw [← hp6, pay21_at, pay13_at]; simp only [hq, hk]
      rfl
    · show p7 (ix3 r (0 : Fin 1) g) = _
      rw [← hp7, pay22_at]; simp only [pay14_at, hq, hk]
      rfl
    · show p8 (ix3 r (0 : Fin 1) g) = _
      rw [← hp8, pay23_at]; simp only [hq, hk]
      rfl
    · show p9 (ix3 r (0 : Fin 1) g) = _
      rw [← hp9, pay24_at]; simp only [hq, hk]
      rfl
    · show p10 (ix3 r (0 : Fin 1) g) = _
      rw [← hp10, pay25_at]; simp only [hq, hk]
      rfl
    · show p11 (ix3 r (0 : Fin 1) g) = _
      rw [← hp11, pay26_at]; simp only [hq, hk]
      rfl
    · show p12 (ix3 r (0 : Fin 1) g) = _
      rw [← hp12, pay27_at]; simp only [hq, hk]
      rfl
    · show p13 (ix3 r (0 : Fin 1) g) = _
      rw [← hp13, pay28_at]; simp only [hq, hk]
      rfl
    · show p14 (ix3 r (0 : Fin 1) g) = _
      rw [← hp14, pay29_at]; simp only [hq, hk]
      rfl
    · show p15 (ix3 r (0 : Fin 1) g) = _
      rw [← hp15, pay30_at]; simp only [hq, hk]
      rfl
  -- the attention weights
  have hA31 : ∀ h g : Fin 16, k0_pay31 (F := Ideal) p0 p1 p2 p3 p4 p5 p6 p7 p8 p9 p10 p11 p12 p13 p14 p15 (ix3 r h g) = attn (kq x0 x1 x2 r 0) (kq x0 x1 x2 r 1) h g :=
    fun h g => join_attn r _ _ p0 p1 p2 p3 p4 p5 p6 p7 p8 p9 p10 p11 p12 p13 p14 p15 hP h g
  -- the context rows that read the score rows themselves
  generalize hc0 : k0_pay32 (F := Ideal) (k0_pay6 (F := Ideal) x0 x1 x2) p0 p1 p2 p3 p4 p5 p6 p7 p8 p9 p10 p11 p12 p13 p14 p15 = c0
  have hc0at : ∀ d : Fin 64, c0 (ix2 r d) = ∑ g : Fin 16, attn (kq x0 x1 x2 r 0) (kq x0 x1 x2 r 1) 0 g * kq x0 x1 x2 r 2 g d := fun d => by
    rw [← hc0, pay32_at]; simp only [hA31, hv]
  generalize hc1 : k0_pay33 (F := Ideal) (k0_pay6 (F := Ideal) x0 x1 x2) p0 p1 p2 p3 p4 p5 p6 p7 p8 p9 p10 p11 p12 p13 p14 p15 = c1
  have hc1at : ∀ d : Fin 64, c1 (ix2 r d) = ∑ g : Fin 16, attn (kq x0 x1 x2 r 0) (kq x0 x1 x2 r 1) 1 g * kq x0 x1 x2 r 2 g d := fun d => by
    rw [← hc1, pay33_at]; simp only [hA31, hv]
  generalize hc2 : k0_pay34 (F := Ideal) (k0_pay6 (F := Ideal) x0 x1 x2) p0 p1 p2 p3 p4 p5 p6 p7 p8 p9 p10 p11 p12 p13 p14 p15 = c2
  have hc2at : ∀ d : Fin 64, c2 (ix2 r d) = ∑ g : Fin 16, attn (kq x0 x1 x2 r 0) (kq x0 x1 x2 r 1) 2 g * kq x0 x1 x2 r 2 g d := fun d => by
    rw [← hc2, pay34_at]; simp only [hA31, hv]
  generalize hc3 : k0_pay35 (F := Ideal) (k0_pay6 (F := Ideal) x0 x1 x2) p0 p1 p2 p3 p4 p5 p6 p7 p8 p9 p10 p11 p12 p13 p14 p15 = c3
  have hc3at : ∀ d : Fin 64, c3 (ix2 r d) = ∑ g : Fin 16, attn (kq x0 x1 x2 r 0) (kq x0 x1 x2 r 1) 3 g * kq x0 x1 x2 r 2 g d := fun d => by
    rw [← hc3, pay35_at]; simp only [hA31, hv]
  generalize hc4 : k0_pay36 (F := Ideal) (k0_pay6 (F := Ideal) x0 x1 x2) p0 p1 p2 p3 p4 p5 p6 p7 p8 p9 p10 p11 p12 p13 p14 p15 = c4
  have hc4at : ∀ d : Fin 64, c4 (ix2 r d) = ∑ g : Fin 16, attn (kq x0 x1 x2 r 0) (kq x0 x1 x2 r 1) 4 g * kq x0 x1 x2 r 2 g d := fun d => by
    rw [← hc4, pay36_at]; simp only [hA31, hv]
  generalize hc5 : k0_pay37 (F := Ideal) (k0_pay6 (F := Ideal) x0 x1 x2) p0 p1 p2 p3 p4 p5 p6 p7 p8 p9 p10 p11 p12 p13 p14 p15 = c5
  have hc5at : ∀ d : Fin 64, c5 (ix2 r d) = ∑ g : Fin 16, attn (kq x0 x1 x2 r 0) (kq x0 x1 x2 r 1) 5 g * kq x0 x1 x2 r 2 g d := fun d => by
    rw [← hc5, pay37_at]; simp only [hA31, hv]
  generalize hA : k0_pay31 (F := Ideal) p0 p1 p2 p3 p4 p5 p6 p7 p8 p9 p10 p11 p12 p13 p14 p15 = A at hA31 ⊢
  -- the context rows that read the weights
  generalize hc6 : k0_pay38 (F := Ideal) (k0_pay6 (F := Ideal) x0 x1 x2) A = c6
  have hc6at : ∀ d : Fin 64, c6 (ix2 r d) = ∑ g : Fin 16, attn (kq x0 x1 x2 r 0) (kq x0 x1 x2 r 1) 6 g * kq x0 x1 x2 r 2 g d := fun d => by
    rw [← hc6, pay38_at]; simp only [hA31, hv]
  generalize hc7 : k0_pay39 (F := Ideal) (k0_pay6 (F := Ideal) x0 x1 x2) A = c7
  have hc7at : ∀ d : Fin 64, c7 (ix2 r d) = ∑ g : Fin 16, attn (kq x0 x1 x2 r 0) (kq x0 x1 x2 r 1) 7 g * kq x0 x1 x2 r 2 g d := fun d => by
    rw [← hc7, pay39_at]; simp only [hA31, hv]
  generalize hc8 : k0_pay40 (F := Ideal) (k0_pay6 (F := Ideal) x0 x1 x2) A = c8
  have hc8at : ∀ d : Fin 64, c8 (ix2 r d) = ∑ g : Fin 16, attn (kq x0 x1 x2 r 0) (kq x0 x1 x2 r 1) 8 g * kq x0 x1 x2 r 2 g d := fun d => by
    rw [← hc8, pay40_at]; simp only [hA31, hv]
  generalize hc9 : k0_pay41 (F := Ideal) (k0_pay6 (F := Ideal) x0 x1 x2) A = c9
  have hc9at : ∀ d : Fin 64, c9 (ix2 r d) = ∑ g : Fin 16, attn (kq x0 x1 x2 r 0) (kq x0 x1 x2 r 1) 9 g * kq x0 x1 x2 r 2 g d := fun d => by
    rw [← hc9, pay41_at]; simp only [hA31, hv]
  generalize hc10 : k0_pay42 (F := Ideal) (k0_pay6 (F := Ideal) x0 x1 x2) A = c10
  have hc10at : ∀ d : Fin 64, c10 (ix2 r d) = ∑ g : Fin 16, attn (kq x0 x1 x2 r 0) (kq x0 x1 x2 r 1) 10 g * kq x0 x1 x2 r 2 g d := fun d => by
    rw [← hc10, pay42_at]; simp only [hA31, hv]
  generalize hc11 : k0_pay43 (F := Ideal) (k0_pay6 (F := Ideal) x0 x1 x2) A = c11
  have hc11at : ∀ d : Fin 64, c11 (ix2 r d) = ∑ g : Fin 16, attn (kq x0 x1 x2 r 0) (kq x0 x1 x2 r 1) 11 g * kq x0 x1 x2 r 2 g d := fun d => by
    rw [← hc11, pay43_at]; simp only [hA31, hv]
  generalize hc12 : k0_pay44 (F := Ideal) (k0_pay6 (F := Ideal) x0 x1 x2) A = c12
  have hc12at : ∀ d : Fin 64, c12 (ix2 r d) = ∑ g : Fin 16, attn (kq x0 x1 x2 r 0) (kq x0 x1 x2 r 1) 12 g * kq x0 x1 x2 r 2 g d := fun d => by
    rw [← hc12, pay44_at]; simp only [hA31, hv]
  generalize hc13 : k0_pay45 (F := Ideal) (k0_pay6 (F := Ideal) x0 x1 x2) A = c13
  have hc13at : ∀ d : Fin 64, c13 (ix2 r d) = ∑ g : Fin 16, attn (kq x0 x1 x2 r 0) (kq x0 x1 x2 r 1) 13 g * kq x0 x1 x2 r 2 g d := fun d => by
    rw [← hc13, pay45_at]; simp only [hA31, hv]
  generalize hs14 : k0_pay46 (F := Ideal) A = s14
  have hs14at : ∀ (g : Fin 16) (d : Fin 64), s14 (ix3 r g d) = attn (kq x0 x1 x2 r 0) (kq x0 x1 x2 r 1) 14 g := fun g d => by
    rw [← hs14, pay46_at, hA31]
  -- the first residual, its mean, its squared deviations
  have hR1 : ∀ j : Fin 1024, k0_pay47 (F := Ideal) (k0_pay2 (F := Ideal) x0) (k0_pay6 (F := Ideal) x0 x1 x2) A c0 c1 c2 c3 c4 c5 c6 c7 c8 c9 c10 c11 c12 c13 s14 x3 x4 (ix2 r j)
      = res1 (ktail x3 x4 x5 x6 x7 x8 x9 x10 x11 x12) (brow x0 r) (kq x0 x1 x2 r 0) (kq x0 x1 x2 r 1) (kq x0 x1 x2 r 2) j :=
    fun j => join_res1 r _ _ _ _ _ _ _ _ c0 c1 c2 c3 c4 c5 c6 c7 c8 c9 c10 c11 c12 c13 _ _ _
      (fun j => by rw [pay2_eq]; rfl)
      (join_ctx r _ _ _ _ _ c0 c1 c2 c3 c4 c5 c6 c7 c8 c9 c10 c11 c12 c13 _ hv hA31 hc0at hc1at hc2at hc3at hc4at hc5at hc6at hc7at hc8at hc9at hc10at hc11at hc12at hc13at hs14at) rfl rfl j
  have e50 := pay50_at (k0_pay2 (F := Ideal) x0) (k0_pay6 (F := Ideal) x0 x1 x2) A c0 c1 c2 c3 c4 c5 c6 c7 c8 c9 c10 c11 c12 c13 s14 x3 x4 r
  have e51 := pay51_at (k0_pay2 (F := Ideal) x0) (k0_pay6 (F := Ideal) x0 x1 x2) A c0 c1 c2 c3 c4 c5 c6 c7 c8 c9 c10 c11 c12 c13 s14 x3 x4 r
  generalize k0_pay47 (F := Ideal) (k0_pay2 (F := Ideal) x0) (k0_pay6 (F := Ideal) x0 x1 x2) A c0 c1 c2 c3 c4 c5 c6 c7 c8 c9 c10 c11 c12 c13 s14 x3 x4 = R1 at hR1 e50 e51 ⊢
  generalize k0_pay50 (F := Ideal) (k0_pay2 (F := Ideal) x0) (k0_pay6 (F := Ideal) x0 x1 x2) A c0 c1 c2 c3 c4 c5 c6 c7 c8 c9 c10 c11 c12 c13 s14 x3 x4 = M1 at e50 e51 ⊢
  generalize k0_pay51 (F := Ideal) (k0_pay2 (F := Ideal) x0) (k0_pay6 (F := Ideal) x0 x1 x2) A c0 c1 c2 c3 c4 c5 c6 c7 c8 c9 c10 c11 c12 c13 s14 x3 x4 = D1 at e51 ⊢
  -- the second residual and its sum
  have hR2 : ∀ j : Fin 1024, k0_pay52 (F := Ideal) R1 (k0_pay48 (F := Ideal) x9) (k0_pay49 (F := Ideal) x10) M1 D1 x5 x6 x7 x8 (ix2 r j)
      = res2 (ktail x3 x4 x5 x6 x7 x8 x9 x10 x11 x12) (brow x0 r) (kq x0 x1 x2 r 0) (kq x0 x1 x2 r 1) (kq x0 x1 x2 r 2) j :=
    fun j => join_res2 r _ _ _ _ _ R1 _ _ M1 D1 x5 x6 x7 x8 hR1 e50 e51
      (by rw [pay48_eq]; rfl) (by rw [pay49_eq]; rfl) rfl rfl rfl rfl j
  have e55 := pay55_at R1 (k0_pay48 (F := Ideal) x9) (k0_pay49 (F := Ideal) x10) M1 D1 x5 x6 x7 x8 r
  exact join_enc r _ _ _ _ _ _ _ _ _ _ hR2 e55 (pay56_at _) (by rw [pay53_eq]; rfl) (by rw [pay54_eq]; rfl) j

end Cert.KRow

end
-- ==== Proof.KArray.lean ====
/-
  The kernel's result array as one function of the arguments. The grid has 64 points; point t takes rows
  256 t … 256 t + 255 of the token array and the whole of every weight array, and writes back rows 256 t …
  of the result. Row T = 256 t + r of the token array is token (T div 4096, T mod 4096); the block's
  projections, read off the kernel's slab layout, are that token's queries, keys and values, because the
  projection arrays the kernel is given are the arguments' with their columns carried through the table; the
  other blocks are the arguments themselves. So what point t writes back is rows 256 t … of the layer's result
  laid out as 16384 rows; the 64 blocks tile those rows; and the program's last operation splits the row axis
  back into (4, 4096).
-/
import proofs.«100041_j64132451663945_2_alg».proof.Proof.KHost
import proofs.«100041_j64132451663945_2_alg».proof.Proof.KBlock
import Idealize.ShloMosaic.Lib.Pipeline.Value
import Idealize.ShloMosaic.Lib.Tactic

noncomputable section

namespace Cert.KArr

open Cert.KernelIdeal Cert.KernelIdeal.Gen Idealize.ShloMosaic Idealize.ShloMosaic.TcCoe Idealize.SL.Sem
open Idealize.ShloMosaic.ValueIdx Cert.Enc Cert.KRow
open Idealize.ShloMosaic.Pipeline (Dat)

/-! ## Where each window's block sits -/

/-- The token window and the result window move one block of 256 rows per point; -/
theorem idx0 : ∀ t : Fin cfg0.N, win0_0.index t (0 : Fin 2) = t.val ∧ win0_0.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
/-- every other window stays on its one block, the whole array. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)

/-- The token of row `r` of point `t`'s block: row `256 t + r` of the 16384, split as (div 4096, mod 4096). -/
def tokB (t : Fin cfg0.N) (r : Fin 256) : Fin 4 :=
  ⟨(256 * t.val + r.val) / 4096, by have := t.isLt; have h : cfg0.N = 64 := N_0; have := r.isLt; omega⟩
def tokS (t : Fin cfg0.N) (r : Fin 256) : Fin 4096 :=
  ⟨(256 * t.val + r.val) % 4096, by omega⟩

variable (m : (ℓ : Loc nD τ sig) → Buf (Elt Ideal) ℓ) (ρ : Dev nD → PrngReg)

/-! ## The blocks a point is given -/

/-- Row `r` of the token block at point `t` is row `256 t + r` of the token array. -/
theorem iblk0_at (c : Dev nD) (t : Fin cfg0.N) (r : Fin 256) (k : Fin 1024) :
    (iblk m c 0 t : Vec Ideal S256x1024 .f32) (ix2 r k)
      = V m c main_v0 (ix2 (⟨256 * t.val + r.val, by have := t.isLt; have h : cfg0.N = 64 := N_0; have := r.isLt; omega⟩ : Fin 16384) k) := by
  obtain ⟨h0, h1⟩ := idx0 t
  unfold iblk
  rw [View.read_apply]
  show V m c main_v0 _ = V m c main_v0 _
  refine congrArg (V m c main_v0) (funext fun a => Fin.ext ?_)
  match a with
  | ⟨0, _⟩ => show win0_0.index t (0 : Fin 2) * 256 + 1 * r.val = 256 * t.val + r.val; rw [h0]; omega
  | ⟨1, _⟩ => show win0_0.index t (1 : Fin 2) * 1024 + 1 * k.val = k.val; rw [h1]; omega

theorem iblk1_at (c : Dev nD) (t : Fin cfg0.N) (y : S1024x3072.Idx) : (iblk m c 1 t : Vec Ideal S1024x3072 .bf16) y = V m c main_v11 y := by
  obtain ⟨h0, h1⟩ := idx1 t
  unfold iblk
  rw [View.read_apply]
  show V m c main_v11 _ = V m c main_v11 _
  refine congrArg (V m c main_v11) (funext fun a => Fin.ext ?_)
  match a with
  | ⟨0, _⟩ => show win0_1.index t (0 : Fin 2) * 1024 + 1 * (y 0).val = (y 0).val; rw [h0]; omega
  | ⟨1, _⟩ => show win0_1.index t (1 : Fin 2) * 3072 + 1 * (y 1).val = (y 1).val; rw [h1]; omega

theorem iblk2_at (c : Dev nD) (t : Fin cfg0.N) (y : S1x3072.Idx) : (iblk m c 2 t : Vec Ideal S1x3072 .f32) y = V m c main_v15 y := by
  obtain ⟨h0, h1⟩ := idx2 t
  unfold iblk
  rw [View.read_apply]
  show V m c main_v15 _ = V m c main_v15 _
  refine congrArg (V m c main_v15) (funext fun a => Fin.ext ?_)
  match a with
  | ⟨0, _⟩ => show win0_2.index t (0 : Fin 2) * 1 + 1 * (y 0).val = (y 0).val; rw [h0]; omega
  | ⟨1, _⟩ => show win0_2.index t (1 : Fin 2) * 3072 + 1 * (y 1).val = (y 1).val; rw [h1]; omega

theorem iblk3_at (c : Dev nD) (t : Fin cfg0.N) (y : S1024x1024.Idx) : (iblk m c 3 t : Vec Ideal S1024x1024 .bf16) y = V m c main_v12 y := by
  obtain ⟨h0, h1⟩ := idx3 t
  unfold iblk
  rw [View.read_apply]
  show V m c main_v12 _ = V m c main_v12 _
  refine congrArg (V m c main_v12) (funext fun a => Fin.ext ?_)
  match a with
  | ⟨0, _⟩ => show win0_3.index t (0 : Fin 2) * 1024 + 1 * (y 0).val = (y 0).val; rw [h0]; omega
  | ⟨1, _⟩ => show win0_3.index t (1 : Fin 2) * 1024 + 1 * (y 1).val = (y 1).val; rw [h1]; omega

theorem iblk4_at (c : Dev nD) (t : Fin cfg0.N) (y : S1x1024.Idx) : (iblk m c 4 t : Vec Ideal S1x1024 .f32) y = V m c main_v16 y := by
  obtain ⟨h0, h1⟩ := idx4 t
  unfold iblk
  rw [View.read_apply]
  show V m c main_v16 _ = V m c main_v16 _
  refine congrArg (V m c main_v16) (funext fun a => Fin.ext ?_)
  match a with
  | ⟨0, _⟩ => show win0_4.index t (0 : Fin 2) * 1 + 1 * (y 0).val = (y 0).val; rw [h0]; omega
  | ⟨1, _⟩ => show win0_4.index t (1 : Fin 2) * 1024 + 1 * (y 1).val = (y 1).val; rw [h1]; omega

theorem iblk5_at (c : Dev nD) (t : Fin cfg0.N) (y : S1024x4096.Idx) : (iblk m c 5 t : Vec Ideal S1024x4096 .bf16) y = V m c main_v13 y := by
  obtain ⟨h0, h1⟩ := idx5 t
  unfold iblk
  rw [View.read_apply]
  show V m c main_v13 _ = V m c main_v13 _
  refine congrArg (V m c main_v13) (funext fun a => Fin.ext ?_)
  match a with
  | ⟨0, _⟩ => show win0_5.index t (0 : Fin 2) * 1024 + 1 * (y 0).val = (y 0).val; rw [h0]; omega
  | ⟨1, _⟩ => show win0_5.index t (1 : Fin 2) * 4096 + 1 * (y 1).val = (y 1).val; rw [h1]; omega

theorem iblk6_at (c : Dev nD) (t : Fin cfg0.N) (y : S1x4096.Idx) : (iblk m c 6 t : Vec Ideal S1x4096 .f32) y = V m c main_v17 y := by
  obtain ⟨h0, h1⟩ := idx6 t
  unfold iblk
  rw [View.read_apply]
  show V m c main_v17 _ = V m c main_v17 _
  refine congrArg (V m c main_v17) (funext fun a => Fin.ext ?_)
  match a with
  | ⟨0, _⟩ => show win0_6.index t (0 : Fin 2) * 1 + 1 * (y 0).val = (y 0).val; rw [h0]; omega
  | ⟨1, _⟩ => show win0_6.index t (1 : Fin 2) * 4096 + 1 * (y 1).val = (y 1).val; rw [h1]; omega

theorem iblk7_at (c : Dev nD) (t : Fin cfg0.N) (y : S4096x1024.Idx) : (iblk m c 7 t : Vec Ideal S4096x1024 .bf16) y = V m c main_v14 y := by
  obtain ⟨h0, h1⟩ := idx7 t
  unfold iblk
  rw [View.read_apply]
  show V m c main_v14 _ = V m c main_v14 _
  refine congrArg (V m c main_v14) (funext fun a => Fin.ext ?_)
  match a with
  | ⟨0, _⟩ => show win0_7.index t (0 : Fin 2) * 4096 + 1 * (y 0).val = (y 0).val; rw [h0]; omega
  | ⟨1, _⟩ => show win0_7.index t (1 : Fin 2) * 1024 + 1 * (y 1).val = (y 1).val; rw [h1]; omega

theorem iblk8_at (c : Dev nD) (t : Fin cfg0.N) (y : S1x1024.Idx) : (iblk m c 8 t : Vec Ideal S1x1024 .f32) y = V m c main_v18 y := by
  obtain ⟨h0, h1⟩ := idx8 t
  unfold iblk
  rw [View.read_apply]
  show V m c main_v18 _ = V m c main_v18 _
  refine congrArg (V m c main_v18) (funext fun a => Fin.ext ?_)
  match a with
  | ⟨0, _⟩ => show win0_8.index t (0 : Fin 2) * 1 + 1 * (y 0).val = (y 0).val; rw [h0]; omega
  | ⟨1, _⟩ => show win0_8.index t (1 : Fin 2) * 1024 + 1 * (y 1).val = (y 1).val; rw [h1]; omega

theorem iblk9_at (c : Dev nD) (t : Fin cfg0.N) (y : S1x1024.Idx) : (iblk m c 9 t : Vec Ideal S1x1024 .f32) y = V m c main_v19 y := by
  obtain ⟨h0, h1⟩ := idx9 t
  unfold iblk
  rw [View.read_apply]
  show V m c main_v19 _ = V m c main_v19 _
  refine congrArg (V m c main_v19) (funext fun a => Fin.ext ?_)
  match a with
  | ⟨0, _⟩ => show win0_9.index t (0 : Fin 2) * 1 + 1 * (y 0).val = (y 0).val; rw [h0]; omega
  | ⟨1, _⟩ => show win0_9.index t (1 : Fin 2) * 1024 + 1 * (y 1).val = (y 1).val; rw [h1]; omega

theorem iblk10_at (c : Dev nD) (t : Fin cfg0.N) (y : S1x1024.Idx) : (iblk m c 10 t : Vec Ideal S1x1024 .f32) y = V m c main_v20 y := by
  obtain ⟨h0, h1⟩ := idx10 t
  unfold iblk
  rw [View.read_apply]
  show V m c main_v20 _ = V m c main_v20 _
  refine congrArg (V m c main_v20) (funext fun a => Fin.ext ?_)
  match a with
  | ⟨0, _⟩ => show win0_10.index t (0 : Fin 2) * 1 + 1 * (y 0).val = (y 0).val; rw [h0]; omega
  | ⟨1, _⟩ => show win0_10.index t (1 : Fin 2) * 1024 + 1 * (y 1).val = (y 1).val; rw [h1]; omega

theorem iblk11_at (c : Dev nD) (t : Fin cfg0.N) (y : S1x1024.Idx) : (iblk m c 11 t : Vec Ideal S1x1024 .f32) y = V m c main_v21 y := by
  obtain ⟨h0, h1⟩ := idx11 t
  unfold iblk
  rw [View.read_apply]
  show V m c main_v21 _ = V m c main_v21 _
  refine congrArg (V m c main_v21) (funext fun a => Fin.ext ?_)
  match a with
  | ⟨0, _⟩ => show win0_11.index t (0 : Fin 2) * 1 + 1 * (y 0).val = (y 0).val; rw [h0]; omega
  | ⟨1, _⟩ => show win0_11.index t (1 : Fin 2) * 1024 + 1 * (y 1).val = (y 1).val; rw [h1]; omega

theorem iblk12_at (c : Dev nD) (t : Fin cfg0.N) (y : S1x1024.Idx) : (iblk m c 12 t : Vec Ideal S1x1024 .f32) y = V m c main_v22 y := by
  obtain ⟨h0, h1⟩ := idx12 t
  unfold iblk
  rw [View.read_apply]
  show V m c main_v22 _ = V m c main_v22 _
  refine congrArg (V m c main_v22) (funext fun a => Fin.ext ?_)
  match a with
  | ⟨0, _⟩ => show win0_12.index t (0 : Fin 2) * 1 + 1 * (y 0).val = (y 0).val; rw [h0]; omega
  | ⟨1, _⟩ => show win0_12.index t (1 : Fin 2) * 1024 + 1 * (y 1).val = (y 1).val; rw [h1]; omega

/-! ## The blocks as the layer's function takes them -/

/-- Row `r` of the token block is its token's row of the input. -/
theorem brow_blk (c : Dev nD) (t : Fin cfg0.N) (r : Fin 256) : brow (iblk m c 0 t : Vec Ideal S256x1024 .f32) r = rowOf (m ((c : Thread nD τ).loc main_arg0)) (tokB t r) (tokS t r) := by
  funext k
  show (iblk m c 0 t : Vec Ideal S256x1024 .f32) (ix2 r k) = (m ((c : Thread nD τ).loc main_arg0)) (ix3 (tokB t r) (tokS t r) k)
  rw [iblk0_at, V_v0_at]
  rfl

/-- The block's projections, read off the slabs, are the token's: the projection arrays the kernel is given hold, at
    the slab position of (field, head, channel), the arguments' interleaved column of that triple. -/
theorem kq_blk (c : Dev nD) (t : Fin cfg0.N) (r : Fin 256) (f : Fin 3) :
    kq (iblk m c 0 t : Vec Ideal S256x1024 .f32) (iblk m c 1 t : Vec Ideal S1024x3072 .bf16) (iblk m c 2 t : Vec Ideal S1x3072 .f32) r f = qkvOf (m ((c : Thread nD τ).loc main_arg0)) (m ((c : Thread nD τ).loc main_arg1)) (m ((c : Thread nD τ).loc main_arg2)) (tokB t r) (tokS t r) f := by
  funext h d
  have hW : ∀ k : Fin 1024, bmat (iblk m c 1 t : Vec Ideal S1024x3072 .bf16) k (slab f h d) = mat (m ((c : Thread nD τ).loc main_arg1)) k (colI f h d) := fun k => by
    show (iblk m c 1 t : Vec Ideal S1024x3072 .bf16) (ix2 k (slab f h d)) = (m ((c : Thread nD τ).loc main_arg1)) (ix2 k (colI f h d))
    rw [iblk1_at, V_v11_at, table_slab]
  have hb : brow1 (iblk m c 2 t : Vec Ideal S1x3072 .f32) (slab f h d) = vec (m ((c : Thread nD τ).loc main_arg2)) (colI f h d) := by
    show (iblk m c 2 t : Vec Ideal S1x3072 .f32) (ix2 (0 : Fin 1) (slab f h d)) = (m ((c : Thread nD τ).loc main_arg2)) (ix1 (colI f h d))
    rw [iblk2_at, V_v15_at, table_slab]
  unfold kq qkvOf lin
  rw [brow_blk, hb]
  simp only [hW]

/-- The remaining blocks are the arguments. -/
theorem ktail_blk (c : Dev nD) (t : Fin cfg0.N) :
    ktail (iblk m c 3 t : Vec Ideal S1024x1024 .bf16) (iblk m c 4 t : Vec Ideal S1x1024 .f32) (iblk m c 5 t : Vec Ideal S1024x4096 .bf16) (iblk m c 6 t : Vec Ideal S1x4096 .f32) (iblk m c 7 t : Vec Ideal S4096x1024 .bf16) (iblk m c 8 t : Vec Ideal S1x1024 .f32) (iblk m c 9 t : Vec Ideal S1x1024 .f32) (iblk m c 10 t : Vec Ideal S1x1024 .f32) (iblk m c 11 t : Vec Ideal S1x1024 .f32) (iblk m c 12 t : Vec Ideal S1x1024 .f32)
      = tailOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e3 : bmat (iblk m c 3 t : Vec Ideal S1024x1024 .bf16) = mat (m ((c : Thread nD τ).loc main_arg3)) := funext fun k => funext fun e => by
    show (iblk m c 3 t : Vec Ideal S1024x1024 .bf16) (ix2 k e) = (m ((c : Thread nD τ).loc main_arg3)) (ix2 k e)
    rw [iblk3_at, V_v12_at]
  have e4 : brow1 (iblk m c 4 t : Vec Ideal S1x1024 .f32) = vec (m ((c : Thread nD τ).loc main_arg4)) := funext fun e => by
    show (iblk m c 4 t : Vec Ideal S1x1024 .f32) (ix2 (0 : Fin 1) e) = (m ((c : Thread nD τ).loc main_arg4)) (ix1 e)
    rw [iblk4_at, V_v16_at]
  have e5 : bmat (iblk m c 5 t : Vec Ideal S1024x4096 .bf16) = mat (m ((c : Thread nD τ).loc main_arg5)) := funext fun k => funext fun e => by
    show (iblk m c 5 t : Vec Ideal S1024x4096 .bf16) (ix2 k e) = (m ((c : Thread nD τ).loc main_arg5)) (ix2 k e)
    rw [iblk5_at, V_v13_at]
  have e6 : brow1 (iblk m c 6 t : Vec Ideal S1x4096 .f32) = vec (m ((c : Thread nD τ).loc main_arg6)) := funext fun e => by
    show (iblk m c 6 t : Vec Ideal S1x4096 .f32) (ix2 (0 : Fin 1) e) = (m ((c : Thread nD τ).loc main_arg6)) (ix1 e)
    rw [iblk6_at, V_v17_at]
  have e7 : bmat (iblk m c 7 t : Vec Ideal S4096x1024 .bf16) = mat (m ((c : Thread nD τ).loc main_arg7)) := funext fun k => funext fun e => by
    show (iblk m c 7 t : Vec Ideal S4096x1024 .bf16) (ix2 k e) = (m ((c : Thread nD τ).loc main_arg7)) (ix2 k e)
    rw [iblk7_at, V_v14_at]
  have e8 : brow1 (iblk m c 8 t : Vec Ideal S1x1024 .f32) = vec (m ((c : Thread nD τ).loc main_arg8)) := funext fun e => by
    show (iblk m c 8 t : Vec Ideal S1x1024 .f32) (ix2 (0 : Fin 1) e) = (m ((c : Thread nD τ).loc main_arg8)) (ix1 e)
    rw [iblk8_at, V_v18_at]
  have e9 : brow1 (iblk m c 9 t : Vec Ideal S1x1024 .f32) = vec (m ((c : Thread nD τ).loc main_arg9)) := funext fun e => by
    show (iblk m c 9 t : Vec Ideal S1x1024 .f32) (ix2 (0 : Fin 1) e) = (m ((c : Thread nD τ).loc main_arg9)) (ix1 e)
    rw [iblk9_at, V_v19_at]
  have e10 : brow1 (iblk m c 10 t : Vec Ideal S1x1024 .f32) = vec (m ((c : Thread nD τ).loc main_arg10)) := funext fun e => by
    show (iblk m c 10 t : Vec Ideal S1x1024 .f32) (ix2 (0 : Fin 1) e) = (m ((c : Thread nD τ).loc main_arg10)) (ix1 e)
    rw [iblk10_at, V_v20_at]
  have e11 : brow1 (iblk m c 11 t : Vec Ideal S1x1024 .f32) = vec (m ((c : Thread nD τ).loc main_arg11)) := funext fun e => by
    show (iblk m c 11 t : Vec Ideal S1x1024 .f32) (ix2 (0 : Fin 1) e) = (m ((c : Thread nD τ).loc main_arg11)) (ix1 e)
    rw [iblk11_at, V_v21_at]
  have e12 : brow1 (iblk m c 12 t : Vec Ideal S1x1024 .f32) = vec (m ((c : Thread nD τ).loc main_arg12)) := funext fun e => by
    show (iblk m c 12 t : Vec Ideal S1x1024 .f32) (ix2 (0 : Fin 1) e) = (m ((c : Thread nD τ).loc main_arg12)) (ix1 e)
    rw [iblk12_at, V_v22_at]
  unfold ktail tailOf
  rw [e3, e4, e5, e6, e7, e8, e9, e10, e11, e12]

/-- WHAT POINT `t` LEAVES in its result block: at row `r`, the layer's result for that row's token. -/
theorem out_at (c : Dev nD) (t : Fin cfg0.N) (r : Fin 256) (j : Fin 1024) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S256x1024 .f32) (ix2 r j)
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (tokB t r) (tokS t r) j) := by
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_
  rw [ktail_blk, brow_blk, kq_blk, kq_blk, kq_blk]
  rfl

/-! ## The result as 16384 rows -/

/-- The layer's result with its two leading axes merged: row `T` is token (T div 4096, T mod 4096). -/
def G23 (c : Dev nD) : Buf (Elt Ideal) ((c : Thread nD τ).loc main_v23) :=
  fun (i : S16384x1024.Idx) => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (ix3 (⟨(i 0).val / 4096, by have h : (i 0).val < 16384 := (i 0).isLt; omega⟩ : Fin 4)
      (⟨(i 0).val % 4096, by omega⟩ : Fin 4096) (⟨(i 1).val, (i 1).isLt⟩ : Fin 1024))

/-- Point `t`'s result block at `y` is that array at row `256 t + y₀`. -/
theorem out_blk_at (c : Dev nD) (t : Fin cfg0.N) (y : S256x1024.Idx) :
    (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S256x1024 .f32) y
      = G23 m c (ix2 (⟨256 * t.val + (y 0).val, by have := t.isLt; have h : cfg0.N = 64 := N_0; have hy : (y 0).val < 256 := (y 0).isLt; omega⟩ : Fin 16384)
          (⟨(y 1).val, (y 1).isLt⟩ : Fin 1024)) := by
  obtain ⟨r, j, rfl⟩ : ∃ (r : Fin 256) (j : Fin 1024), y = ix2 r j := ⟨y 0, y 1, eq_ix2 y⟩
  rw [out_at]
  rfl

/-- WHAT POINT `t` WRITES BACK is block `t` of that array. -/
theorem flushed_eq (c : Dev nD) (t : Fin cfg0.N) :
    (dats m 0 c).flushed 13 t = ((cfg0.win 13).blk t).view.read (Elt Ideal) (G23 m c) := by
  obtain ⟨h0, h1⟩ := idx13 t
  show (cfg0.win 13).cut (grid0.coords t) ((dats m 0 c).after 13 t) = _
  rw [after0_13]
  funext y
  rw [View.read_apply]
  have hy0 : (y 0).val < 256 := (y 0).isLt
  have e : ((cfg0.win 13).blk t).view.emb y
      = ix2 (⟨256 * t.val + (y 0).val, by have := t.isLt; have h : cfg0.N = 64 := N_0; omega⟩ : Fin 16384)
          (⟨(y 1).val, (y 1).isLt⟩ : Fin 1024) :=
    funext fun a => Fin.ext (by
      match a with
      | ⟨0, _⟩ => show win0_13.index t (0 : Fin 2) * 256 + 1 * (y 0).val = 256 * t.val + (y 0).val; rw [h0]; omega
      | ⟨1, _⟩ => show win0_13.index t (1 : Fin 2) * 1024 + 1 * (y 1).val = (y 1).val; rw [h1]; omega)
  rw [e]
  exact out_blk_at m c t y

/-- An index of the array is in point `t`'s block iff each coordinate is in the block's range on its axis. -/
theorem mem_blk13 (t : Fin cfg0.N) (i : S16384x1024.Idx) :
    i ∈ ((cfg0.win 13).blk t).view.set ↔ ∀ a : Fin 2, win0_13.index t a * S256x1024.size a ≤ (i a).val
      ∧ (i a).val < win0_13.index t a * S256x1024.size a + S256x1024.size a := by
  show i ∈ ((View.whole main_v23).slice (win0_13.rect t)).set ↔ _
  rw [View.set_slice_whole, Rect.mem_set_unit]
  exact Iff.rfl

/-- The 64 blocks tile the 16384 rows: row `T` is in the block of point `T div 256`. So the array ends holding the
    layer's result, row by row. -/
theorem final (c : Dev nD) : (dats m 0 c).arrAt 13 cfg0.N = G23 m c :=
  (dats m 0 c).arrAt_eq_of_cover 13 (G23 m c) (fun t _ => flushed_eq m c t) fun (i : S16384x1024.Idx) => by
    have hi0 : (i 0).val < 16384 := (i 0).isLt
    have hi1 : (i 1).val < 1024 := (i 1).isLt
    have hN : cfg0.N = 64 := N_0
    obtain ⟨t, ht⟩ : ∃ t : Fin cfg0.N, t.val = (i 0).val / 256 := ⟨⟨(i 0).val / 256, by omega⟩, rfl⟩
    obtain ⟨h0, h1⟩ := idx13 t
    refine ⟨t, flush0_13 t, ?_⟩
    rw [mem_blk13]
    intro a
    match a with
    | ⟨0, _⟩ =>
      show win0_13.index t (0 : Fin 2) * 256 ≤ (i 0).val ∧ (i 0).val < win0_13.index t (0 : Fin 2) * 256 + 256
      rw [h0, ht]; omega
    | ⟨1, _⟩ =>
      show win0_13.index t (1 : Fin 2) * 1024 ≤ (i 1).val ∧ (i 1).val < win0_13.index t (1 : Fin 2) * 1024 + 1024
      rw [h1]; omega

/-! ## The program's last operation, and the run -/

/-- The rows split back into (4, 4096): the program's result is the layer's result array. -/
theorem tail_at (c : Dev nD) (b : Fin 4) (s : Fin 4096) (j : Fin 1024) :
    Pipeline.afterTail₀ cfgs (dats m) 0 (V0 m) [hostOps1] c main_v24 (ix3 b s j) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 b s j) := by
  have hb := b.isLt; have hs := s.isLt
  unfold Pipeline.afterTail₀
  show StableHlo.after hostOps1 _ (Proc.devRef .tc main_v24) (ix3 b s j) = _
  after_results
  show shapeCast S4x4096x1024 (Pipeline.withArrays (cfgs 0).spec c (V0 m c) (fun w => (dats m 0 c).arrAt w (cfgs 0).N)
      (Proc.devRef .tc main_v23)) shapeCasts_S16384x1024_S4x4096x1024 (ix3 b s j) = _
  refine (shapeCast_apply _ _ _ (ix2 (⟨b.val * 4096 + s.val, by omega⟩ : Fin 16384) j) (by
    show (S16384x1024.rowMajor (ix2 (⟨b.val * 4096 + s.val, _⟩ : Fin 16384) j)).val = (S4x4096x1024.rowMajor (ix3 b s j)).val
    rw [Shape.rowMajor_val_two, Shape.rowMajor_val_three]
    rfl)).trans ?_
  have hA : Pipeline.withArrays (cfgs 0).spec c (V0 m c) (fun w => (dats m 0 c).arrAt w (cfgs 0).N) (Proc.devRef .tc main_v23)
      = (dats m 0 c).arrAt 13 cfg0.N := Pipeline.withArrays_arr spec0 winFacts0.arr_inj c _ _ 13
  rw [hA, final]
  show G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (ix3 (⟨(b.val * 4096 + s.val) / 4096, _⟩ : Fin 4) (⟨(b.val * 4096 + s.val) % 4096, _⟩ : Fin 4096) (⟨j.val, _⟩ : Fin 1024))
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 b s j)
  refine congrArg (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (funext fun a => Fin.ext ?_)
  match a with
  | ⟨0, _⟩ => show (b.val * 4096 + s.val) / 4096 = b.val; omega
  | ⟨1, _⟩ => show (b.val * 4096 + s.val) % 4096 = s.val; omega
  | ⟨2, _⟩ => rfl

theorem tail_eq (c : Dev nD) :
    Pipeline.afterTail₀ cfgs (dats m) 0 (V0 m) [hostOps1] c main_v24 = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨b, s, j, rfl⟩ : ∃ (b : Fin 4) (s : Fin 4096) (j : Fin 1024), i = ix3 b s j := ⟨i 0, i 1, i 2, eq_ix3 i⟩
  exact tail_at m c b s j

/-- THE KERNEL'S RUN: every weakly fair execution ends with the result array at the layer's result of the thirteen
    argument arrays, and with those arrays as they were. -/
theorem kernel_run :
    θ_run (defs (F := Ideal)) (onTc (τ := τ) (main (F := Ideal))) ⟨m, fun _ => 0, ρ⟩ (fun r => ∀ c : Dev nD,
        r.2.mem ((c.tc : Thread nD τ).loc main_v24) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c => ⟨(((h c).2 main_v24 (Pipeline.mem_restRefs_of main_v24 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.KArr

end
-- ==== Proof.lean ====
/-
  A transformer encoder layer as one fused kernel, against its plain reference, on the extended reals.

  Both programs compute, for every token (b, s) of a [4, 4096, 1024] input, the same function of that token's row
  (Proof/Spec.lean): the fused query/key/value projection; per query head the scores against all sixteen key heads,
  their softmax, the weighted sum of the value heads — attention across the HEAD axis of one token —; an affine map,
  the residual, a normalisation; a rectified two-layer feed-forward net, its residual, a second normalisation.
  `Cert.Enc.G` (Proof/Whole.lean) is that function laid over the batch.

  The reference reaches `G` stage by stage (Proof/RefIsEnc.lean). The kernel reaches it on blocks of 256 tokens:
  its body's value on one block (Proof/KBlock.lean, over the Pay*.lean index lemmas), the blocks tiling the
  flattened token axis, the reshapes before and after, and the one place where the two differ in layout — the kernel
  permutes the fused projection's columns into three contiguous slabs before the launch, and the permutation's
  table is read entry by entry (Proof/KTable.lean, KHost.lean, KArray.lean). Two laws are all the algebra: a product
  with an eighth is the quotient by eight on every extended real, and a sum does not depend on how it is spelt
  (a matrix product into zeros, a lane sum, a contraction are the same `∑`). Neither needs the inputs finite, so the
  precondition is never opened. No rewrite was applied when the kernel was idealized: `preserves` is `True`.
-/
import proofs.«100041_j64132451663945_2_alg».proof.Defs
import proofs.«100041_j64132451663945_2_alg».proof.Proof.Gen.Kernel
import proofs.«100041_j64132451663945_2_alg».proof.Proof.Gen.Kernel.Skeleton
import proofs.«100041_j64132451663945_2_alg».proof.Proof.Gen.Kernel.Launch
import proofs.«100041_j64132451663945_2_alg».proof.Proof.Gen.Kernel.Points
import proofs.«100041_j64132451663945_2_alg».proof.Proof.Gen.Kernel.Frame
import proofs.«100041_j64132451663945_2_alg».proof.Proof.Gen.KernelIdeal
import proofs.«100041_j64132451663945_2_alg».proof.Proof.Gen.KernelIdeal.Skeleton
import proofs.«100041_j64132451663945_2_alg».proof.Proof.Gen.KernelIdeal.Launch
import proofs.«100041_j64132451663945_2_alg».proof.Proof.Gen.KernelIdeal.Points
import proofs.«100041_j64132451663945_2_alg».proof.Proof.Gen.KernelIdeal.Frame
import proofs.«100041_j64132451663945_2_alg».proof.Proof.Gen.ReferenceIdeal
import proofs.«100041_j64132451663945_2_alg».proof.Proof.Gen.Pre_finite_inputs
import proofs.«100041_j64132451663945_2_alg».proof.Proof.RefRun
import proofs.«100041_j64132451663945_2_alg».proof.Proof.RefIsEnc
import proofs.«100041_j64132451663945_2_alg».proof.Proof.KArray
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- And the reference: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the thirteen arguments both programs end at `G` of those arguments. -/
theorem algebraic : Cert.algebraic_KernelIdeal_ReferenceIdeal := by
  intro m ρ m' ρ' _ hagree
  refine ⟨fun c => Cert.Enc.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), Cert.KArr.kernel_run m ρ, ?_⟩
  refine (θ_run Cert.ReferenceIdeal.defs _ _).mono (fun _ h c => ⟨(h c).1.trans ?_, (h c).2⟩)
    (Cert.ReferenceIdeal.ValueP.run (F := Ideal) m' ρ')
  unfold Cert.ReferenceIdeal.ValueP.res_main_v86
  rw [Cert.RefEnc.ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
